-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x2048 : Shape := ⟨2, ![2048, 2048]⟩
abbrev S4x1x2048 : Shape := ⟨3, ![4, 1, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4x1x2048 : S_.BroadcastsInDim S4x1x2048 (![] : Fin 0 → Fin S4x1x2048.rank)
  reducesTo_S4x1x2048_S_d0_1_2 : S4x1x2048.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S2048x2048 .f32) (main_arg2 : FVec F S4x1x2048 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4x1x2048 .f32 := Host.absf main_arg2
  let main_cst_2 : FVec F S_ .f32 := constant S_ .f32 0x7F800000#32
  let main_v10 : FVec F S4x1x2048 .f32 := broadcastInDim S4x1x2048 ![] bcast_S_S4x1x2048 main_cst_2
  let main_v11 : IVec S4x1x2048 1 := cmpf .olt main_v9 main_v10
  let main_c_3 : IVec S_ 1 := constantI S_ 1 1#1
  let main_v12 : IVec S_ 1 := (fun x v => Host.reduce IntOp.andi x v reducesTo_S4x1x2048_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S2048x2048 : Shape := ⟨2, ![2048, 2048]⟩
abbrev S4x1x2048 : Shape := ⟨3, ![4, 1, 2048]⟩
abbrev S1024x1024 : Shape := ⟨2, ![1024, 1024]⟩
abbrev S8192x1024 : Shape := ⟨2, ![8192, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512x1 : Shape := ⟨2, ![512, 1]⟩
abbrev S512 : Shape := ⟨1, ![512]⟩

abbrev nBuf : Space → Nat
  | .hbm => 17
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S2048x2048, .f32⟩
  | .hbm, ⟨2, _⟩ => ⟨S4x1x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S4x2048x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1024, .bf16⟩
  | .local _ .vmem, ⟨20, _⟩ => ⟨S512x1, .f32⟩
  | .local _ .vmem, ⟨21, _⟩ => ⟨S512x1, .f32⟩
  | .local _ .vmem, ⟨22, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_24 : BitVec 32 := 0#32
  let v42 : BitVec 1 := Scalar.cmpi .ne v41 c0_i32_24
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  bitsLt_bf16_f32 : FTy.bits .bf16 < FTy.bits .f32
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .bf16 = 32 ∨ (Rect.block (s := S4x2048x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S2048x2048 : Shape := ⟨2, ![2048, 2048]⟩
abbrev S4x1x2048 : Shape := ⟨3, ![4, 1, 2048]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x2048, .f32⟩
  | .hbm, ⟨2, _⟩ => ⟨S4x1x2048, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048x1, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KvRegion.lean ====
/- Region 0 (the projection kernel) of the frame, at an arbitrary float instance.

   The kernel has six windows on a grid of 8 points: three inputs (a block of 1024 rows of the activations and the
   two weight matrices) and three outputs (the key block, the value block and the rounded copy of the activation
   block). At each point the body reads every input whole and overwrites every output whole, so what it leaves in
   an output buffer is a function of the input blocks alone. This file states that function per output window
   (out0_3, out0_4, out0_5), proves the body's triple against it, packages the proof data of the pipeline at a
   parameter V (the contents of the core's buffers when the region is entered) and derives the body obligation. -/
import proofs.«154186_j59107339927929_2_alg».proof.Proof.Gen.KernelIdeal.Launch
import proofs.«154186_j59107339927929_2_alg».proof.Proof.Gen.KernelIdeal.Skeleton
import proofs.«154186_j59107339927929_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 1024 x 1024 rectangle recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (when it was not, the block index has not moved), for any proof data whose array is V's and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1, whose index map is constant: it is fetched once and never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every load and every store of the body is of the whole 1024 x 1024 buffer. -/
abbrev r0_0 : Rect S1024x1024 := Rect.unit (s := S1024x1024) ![0, 0] S1024x1024.size inb_S1024x1024_S1024x1024_0_0

/-! ## What the body leaves in each output window's buffer -/

/-- Window 3 (the key block) after the body: its one store, of the rounded product of the rounded activation
    block x0 with the transpose of the weight block x1. -/
def out0_3 (x0 : Vec F S1024x1024 .f32) (x1 : Vec F S1024x1024 .bf16) : Vec F S1024x1024 .bf16 :=
  View.canon [⟨r0_0, k0_pay2 (View.ld x0 r0_0) (View.ld x1 r0_0)⟩]

/-- The one store tiles the buffer, so it covers it. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Window 4 (the value block) after the body: the same product against the weight block x2. -/
def out0_4 (x0 : Vec F S1024x1024 .f32) (x2 : Vec F S1024x1024 .bf16) : Vec F S1024x1024 .bf16 :=
  View.canon [⟨r0_0, k0_pay3 (View.ld x0 r0_0) (View.ld x2 r0_0)⟩]

theorem cover0_4 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Window 5 (the rounded activations) after the body: the activation block x0 rounded to the narrow format. -/
def out0_5 (x0 : Vec F S1024x1024 .f32) : Vec F S1024x1024 .bf16 :=
  View.canon [⟨r0_0, k0_pay1 (View.ld x0 r0_0)⟩]

theorem cover0_5 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs, the inputs' at contents x0, x1, x2 and the outputs' at anything, runs to the
    continuation holding the inputs' as they were and each output's at out0_W of the inputs'. The body also reads
    each output buffer before overwriting it; what it reads there is used by no store. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0)) -∗ K ⟨⟩))
      ⊢ wp frame (wpE (defs₀ (F := F)) Variants.none c none) E (cc0__kv_kernel i arg1 harg1 arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and each output's at out0_W of the input blocks; the invariant that of a body
    touching nothing but its windows (the scoped rest and the generator register pass through); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnRuns.lean ====
/-
  The attention region (the second pallas_call), stated at any float instance: what its proofs share.

  The grid is (batch, query tile, key tile) = (4, 4, 2), 32 points in row-major order, so the key tile of
  point t is t mod 2. The body has two conditionals on the key tile: at key tile 0 it resets the carried
  state (the projected query tile, the running maximum, the running normaliser and the running weighted
  sum, four scratch buffers), at key tile 1 it divides the weighted sum by the normaliser and stores the
  output block. Here: each window's block at a point as read off the array the region finds; the two
  conditions in closed form over the grid; where the output window is idle and where it is written back;
  the staging and scratch memrefs the body is called with; and the region's invariant with the scratch
  buffers spelt as owned memrefs.
-/
import proofs.«154186_j59107339927929_2_alg».proof.Proof.Gen.KernelIdeal.Launch
import proofs.«154186_j59107339927929_2_alg».proof.Proof.Gen.KernelIdeal.Skeleton
import proofs.«154186_j59107339927929_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entry to the region: a parameter, instantiated when the run is assembled
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it
    is not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it
    is not fetched the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it
    is not fetched the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it
    is not fetched the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the grid -/

/-- "The key tile is the first": the condition under which the carried state is reset. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The key tile is the last": the condition under which the output block is stored. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- At the even points nothing is stored into the output window: it is idle there, -/
theorem idleAt1_4_A : ∀ t : Fin cfg1.N, t.val % 2 = 0 → cfg1.idle 4 (grid1.coords t) = true := by decide +kernel
/-- and its block is not written back there. -/
theorem noFlush1_4_A : ∀ t : Fin cfg1.N, t.val % 2 = 0 → (cfg1.win 4).flush t = false := by decide +kernel
/-- At the odd points the output window is live: its whole block is stored. -/
theorem liveAt1_4_B : ∀ t : Fin cfg1.N, t.val % 2 = 1 → cfg1.idle 4 (grid1.coords t) = false := by decide +kernel

/-! ## The memrefs the body is called with -/

/-- One staging buffer of the output window, through which its contents are stated. -/
abbrev VO1_4 : View sig .tc .vmem S1x512x1024 .f32 := (Memref.whole cc1_stg4_0 : Memref sig .tc .vmem S1x512x1024 .f32).view
/-- Each window's current staging memref at point `t`, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The four scratch operands — the projected query tile, the running maximum, the running normaliser, the running
    weighted sum — whole scoped buffers carried from one point to the next. -/
abbrev scM1_0 : Memref sig .tc .vmem S512x1024 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1024 .f32 := Memref.whole cc1_scratch3
abbrev VS1_0 : View sig .tc .vmem S512x1024 .bf16 := scM1_0.view
abbrev VS1_1 : View sig .tc .vmem S512x1 .f32 := scM1_1.view
abbrev VS1_2 : View sig .tc .vmem S512x1 .f32 := scM1_2.view
abbrev VS1_3 : View sig .tc .vmem S512x1024 .f32 := scM1_3.view

/-- The scoped buffers of the core that this region never touches (the first region's staging buffers), each whole
    at some contents. -/
def Oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region's plain invariant — every scoped buffer no window stages at some contents, and the generator register at
    some state — with the scratch operands as owned memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.AttnRunA.lean ====
/-
  The attention body at a point whose key tile is the first (an even point): the carried state is reset, then one
  block of keys and values is folded in; nothing is stored into the output window, which is handed back untouched.
  The statement is the body's triple on whole memrefs; what each scratch buffer ends with — the list of its stores,
  last first — is found by the run itself.
-/
import proofs.«154186_j59107339927929_2_alg».proof.Proof.AttnRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an even point. The four input blocks are owned at their contents and come back unchanged; the output
    window's buffer (contents `xi4`) comes back untouched; the four scratch buffers, at anything on entry, end with the
    stores listed in `LS0 … LS3`. -/
noncomputable def kernelRun1_A (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) :
    Σ' (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.AttnRunB.lean ====
/-
  The attention body at a point whose key tile is the last (an odd point): the carried state is read as the point
  before left it, the second block of keys and values is folded in, and the weighted sum divided by the normaliser is
  stored over the whole output block. The projected query tile is read and not stored. What the output buffer and the
  three updated scratch buffers end with — their stores, last first — is found by the run itself.
-/
import proofs.«154186_j59107339927929_2_alg».proof.Proof.AttnRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd point. The four input blocks and the projected query tile (`xs0`) are owned at their contents
    and come back unchanged; the running maximum, normaliser and weighted sum enter at what the point before left
    (`xs1`, `xs2`, `xs3`) and end with the stores `LS1`, `LS2`, `LS3`; the output buffer, at anything on entry, ends
    with the stores `L4`. -/
noncomputable def kernelRun1_B (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) :
    Σ' (L4 : List (View.Piece (Elt F) S1x512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.KernelIdeal.Hand

end
-- ==== Proof.AttnRegion.lean ====
/-
  The attention region, its frame half: what the four carried scratch buffers and the output buffer hold after each
  point, by recursion on the point (an even point resets the state and folds in the first block of keys; the odd
  point after it folds in the second block over what the even point left and stores the output block); the region's
  invariant, which names the scratch contents after every point; the proof data of the pipeline; and the body
  obligation at every point, by cases on the parity of the point.
-/
import proofs.«154186_j59107339927929_2_alg».proof.Proof.AttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At an even point nothing is stored into the output window: a placeholder that nothing consults (the window is
    neither written back there nor read at the next point before it is covered). -/
def out1_A_4 : Vec F S1x512x1024 .f32 :=
  VO1_4.read (Elt F) (VO1_4.writes (Elt F) VO1_4.junk [])

/-- The stores of an even point into scratch 0 cover it. -/
theorem scover1_A_0 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S512x1024.size (by sl_kernel_rfl) y

/-- What an even point leaves in scratch 0: its stores read back. -/
def sout1_A_0 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1024 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- The stores of an even point into scratch 1 cover it. -/
theorem scover1_A_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S512x1.size (by sl_kernel_rfl) y

/-- What an even point leaves in scratch 1: its stores read back. -/
def sout1_A_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- The stores of an even point into scratch 2 cover it. -/
theorem scover1_A_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S512x1.size (by sl_kernel_rfl) y

/-- What an even point leaves in scratch 2: its stores read back. -/
def sout1_A_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- The stores of an even point into scratch 3 cover it. -/
theorem scover1_A_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S512x1024.size (by sl_kernel_rfl) y

/-- What an even point leaves in scratch 3: its stores read back. -/
def sout1_A_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1024 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- The store of an odd point into the output window covers its block. -/
theorem cover1_B_4 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S1x512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S1x512x1024.size (by sl_kernel_rfl) y

/-- What an odd point leaves in the output window's buffer: its store read back. -/
def out1_B_4 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S1x512x1024 .f32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- The stores of an odd point into scratch 1 cover it. -/
theorem scover1_B_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What an odd point leaves in scratch 1: its stores read back. -/
def sout1_B_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- The stores of an odd point into scratch 2 cover it. -/
theorem scover1_B_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What an odd point leaves in scratch 2: its stores read back. -/
def sout1_B_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S512x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- The stores of an odd point into scratch 3 cover it. -/
theorem scover1_B_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1 S512x1024.size (by sl_kernel_rfl) y

/-- What an odd point leaves in scratch 3: its stores read back. -/
def sout1_B_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S512x1024 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1)

/-! ## What the buffers hold after each point -/

/-- After an even point `t`: the output placeholder and the four scratch buffers as the reset-and-fold leaves them,
    from the point's input blocks. -/
def caseA1 (c : Dev nD) (t : Fin cfg1.N) (h0 : t.val % 2 = 0) : Vec F S1x512x1024 .f32 × Vec F S512x1024 .bf16 × Vec F S512x1 .f32 × Vec F S512x1 .f32 × Vec F S512x1024 .f32 :=
  (out1_A_4,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t))

/-- After an odd point `t`, over what the point before left (`p`): the output block stored, the projected query tile
    kept, the other three scratch buffers as the second fold leaves them. -/
def caseB1 (c : Dev nD) (t : Fin cfg1.N) (h1 : t.val % 2 = 1) (p : Vec F S1x512x1024 .f32 × Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2,
   p.2.1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2,
   sout1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2)

/-- The accumulation over the points, in order: the output buffer and the four scratch buffers after position `n`. -/
def outsAt1 (c : Dev nD) : (n : ℕ) → n < cfg1.N → Vec F S1x512x1024 .f32 × Vec F S512x1024 .bf16 × Vec F S512x1 .f32 × Vec F S512x1 .f32 × Vec F S512x1024 .f32
  | 0, hn => caseA1 V c ⟨0, hn⟩ (Nat.zero_mod _)
  | n + 1, hn =>
    if h0 : (n + 1) % 2 = 0 then caseA1 V c ⟨n + 1, hn⟩ h0
    else caseB1 V c ⟨n + 1, hn⟩ (by show (n + 1) % 2 = 1; omega) (outsAt1 c n (Nat.lt_of_succ_lt hn))

/-- At an even point: that case's contents. -/
theorem outsAt1_A (c : Dev nD) (t : Fin cfg1.N) (h0 : t.val % 2 = 0) :
    outsAt1 V c t.val t.isLt = caseA1 V c t h0 := by
  obtain ⟨n, hn⟩ := t
  cases n with
  | zero => exact rfl
  | succ n => exact (dif_pos h0).trans rfl

/-- At an odd point: that case's contents, over what the point before left. -/
theorem outsAt1_B (c : Dev nD) (t : Fin cfg1.N) (h1 : t.val % 2 = 1) :
    outsAt1 V c t.val t.isLt = caseB1 V c t h1 (outsAt1 V c (t.val - 1) (Nat.lt_of_le_of_lt (Nat.sub_le _ _) t.isLt)) := by
  obtain ⟨n, hn⟩ := t
  cases n with
  | zero => exact (by exfalso; have h1' : (0 : ℕ) % 2 = 1 := h1; omega)
  | succ n => exact (dif_neg (by show ¬ (n + 1) % 2 = 0; have : (n + 1) % 2 = 1 := h1; omega)).trans rfl

/-! ## The invariant -/

/-- The region's invariant before position `n`: before the first point every scoped buffer the windows do not stage is
    at anything; afterwards the four scratch buffers hold what the point before left, the untouched scoped buffers are
    at anything, and the generator register is at some state. -/
def PhiS1 (c : Dev nD) : (n : ℕ) → n ≤ cfg1.N → sProp 𝕄
  | 0, _ => Pipeline.ΦA spec1 c
  | n + 1, hn => iprop(iprop(Oth1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Oth1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS1_pos (c : Dev nD) (n : ℕ) (h : n ≤ cfg1.N) (hz : n ≠ 0) :
    PhiS1 V c n h = iprop(iprop(Oth1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-- The plain invariant with the untouched buffers grouped, -/
theorem PhiA1_in (c : Dev nD) :
    (Pipeline.ΦA spec1 c : sProp 𝕄) ⊢ iprop(iprop(Oth1 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  rw [PhiA1_eq]; unfold Oth1
  iintro ⟨⟨B0, B1, B2, B3, B4, B5, B6, B7, B8, B9, S0, S1, S2, S3⟩, Hg⟩
  isplitr [Hg]
  · isplitl [B0 B1 B2 B3 B4 B5 B6 B7 B8 B9]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact B9
    isplitl [S0]; · iexact S0
    isplitl [S1]; · iexact S1
    isplitl [S2]; · iexact S2
    iexact S3
  iexact Hg

/-- and back. -/
theorem PhiA1_out (c : Dev nD) :
    (iprop(iprop(Oth1 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) : sProp 𝕄) ⊢ Pipeline.ΦA spec1 c := by
  rw [PhiA1_eq]; unfold Oth1
  iintro ⟨⟨⟨B0, B1, B2, B3, B4, B5, B6, B7, B8, B9⟩, S0, S1, S2, S3⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [S0]; · iexact S0
    isplitl [S1]; · iexact S1
    isplitl [S2]; · iexact S2
    iexact S3
  iexact Hg

/-! ## The pipeline's proof data -/

/-- The proof data of the attention pipeline on core `c`: the arrays as the region finds them; after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The input windows' memrefs hold their blocks; the parity of the point says which case it is
    in. At an even point the invariant hands over the scratch buffers at anything (at the first point) or at what the point
    before left (which the reset overwrites), and takes them back at this point's contents; the output window is handed
    back untouched. At an odd point the scratch buffers enter at what the even point before left and the output block is
    stored whole. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · rw [Dat.leavesExact_idle (dat1 V c) 4 t (idleAt1_4_A t h0) (noFlush1_4_A t h0)]
    rw [outsAt1_A V c t h0]
    unfold caseA1 sout1_A_0 sout1_A_1 sout1_A_2 sout1_A_3; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_in c) $$ HΦ
      icases HΦ' with ⟨⟨HO, HS0, HS1, HS2, HS3⟩, Hg⟩
      iapply ((kernelRun1_A c (grid1.coords t) _ _ _ _ _ _ _ _ _ _ _ _ _ _ _ _ _ _ ((hcond1_0 t).mpr h0) (fun h => by have h' := (hcond1_1 t).mp h; omega) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HO HS0 HS1 HS2 HS3 Hg]
      · isplitl [HO HS0 HS1 HS2 HS3]
        · isplitl [HO]; · iexact HO
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HO, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (fun h => by have h' := (hcond1_1 t).mp h; omega) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HO HS0 HS1 HS2 HS3 Hg]
      · isplitl [HO HS0 HS1 HS2 HS3]
        · isplitl [HO]; · iexact HO
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t h1], after1_4]
    rw [outsAt1_B V c t h1]
    unfold caseB1 out1_B_4 sout1_B_1 sout1_B_2 sout1_B_3; (try dsimp only)
    rw [PhiS1_castSucc V c t, PhiS1_pos V c _ _ hz]
    iintro ⟨⟨⟨HO, HS0, HS1, HS2, HS3⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ _ _ _ _ (fun h => by have h' := (hcond1_0 t).mp h; omega) ((hcond1_1 t).mpr h1) (iblk1 V c 0 t) (iblk1 V c 1 t) (iblk1 V c 2 t) (iblk1 V c 3 t) _ _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, ⟨%e4, H4⟩, HS0, ⟨%es1, HS1⟩, ⟨%es2, HS2⟩, ⟨%es3, HS3⟩⟩
    isplitl [HO HS0 HS1 HS2 HS3 Hg]
    · isplitl [HO HS0 HS1 HS2 HS3]
      · isplitl [HO]; · iexact HO
        isplitl [HS0]; · iexact HS0
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        unfold owns; iexists _; isplitr
        swap; · iexact HS3
        ipureintro; exact View.read_writes_of_cover _ _ _ _ _ (scover1_B_3 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is entered with is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the plain one back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_out c)
  iintro ⟨⟨HO, HS0, HS1, HS2, HS3⟩, Hg⟩
  isplitr [Hg]
  · isplitl [HO]; · iexact HO
    isplitl [HS0]; · iexists _; iexact HS0
    isplitl [HS1]; · iexists _; iexact HS1
    isplitl [HS2]; · iexists _; iexact HS2
    iexists _; iexact HS3
  iexact Hg

/-- The same after the last point. -/
theorem Phi_last1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.Run.lean ====
/-
  The whole program's run, at any float instance. @main is four segments: a stretch of host operations (the three
  weight matrices recast, the input reshaped to rows), the projection region, a stretch of three reshapes, and the
  attention region. The contents of every unscoped buffer are followed from the launch memory through the four segments
  (`W0 … W4`: a host stretch applies its operations; a region replaces its arrays by what its write-backs leave and
  keeps every other buffer), each region is given as a segment over the thread state "every unscoped buffer at the
  boundary's contents, the generator register at some state, nothing owed", and the launch theorem for a list of
  segments gives: every weakly fair execution terminates, and at the end every unscoped buffer holds `W4`. Read at an
  argument that is the launch contents (the frame); read at the result it is what the attention region's write-backs
  leave.
-/
import proofs.«154186_j59107339927929_2_alg».proof.Proof.KvRegion
import proofs.«154186_j59107339927929_2_alg».proof.Proof.AttnRegion
import proofs.«154186_j59107339927929_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched -/

/-- `main_arg0` reaches the end as launched: no host operation writes it and no region stages it as an output. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` reaches the end as launched: no host operation writes it and no region stages it as an output. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` reaches the end as launched: no host operation writes it and no region stages it as an output. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it and no region stages it as an output. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the end as launched: no host operation writes it and no region stages it as an output. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` reaches the end as launched: no host operation writes it and no region stages it as an output. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- The projection region as a segment: entered with every unscoped buffer at `W1`, left with them at `W2`. Its
    arrays are split out of the unscoped buffers on entry and put back at the exit contents; the generator register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The attention region as a segment: entered with every unscoped buffer at `W3`, left with them at `W4`. Its
    arrays are split out of the unscoped buffers on entry and put back at the exit contents; the generator register goes
    into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN. From any memory with zero counters, every weakly fair execution of @main on the TensorCores terminates,
    nothing faulting, and in every final state each unscoped buffer of each core holds `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result named: besides the frame, the result array ends at what the attention region's
    write-backs leave. -/
theorem run_result : θ_run defs (onTc (τ := τ) (main (F := F))) ⟨m, fun _ => 0, ρ⟩ (fun r => ∀ c : Dev nD,
      r.2.mem ((c.tc : Thread nD τ).loc main_v8) = (dat1 (U3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v8 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.WordKvRegion.lean ====
/- Region 0 (the projection kernel) of the frame, at an arbitrary float instance.

   The kernel has six windows on a grid of 8 points: three inputs (a block of 1024 rows of the activations and the
   two weight matrices) and three outputs (the key block, the value block and the rounded copy of the activation
   block). At each point the body reads every input whole and overwrites every output whole, so what it leaves in
   an output buffer is a function of the input blocks alone. This file states that function per output window
   (out0_3, out0_4, out0_5), proves the body's triple against it, packages the proof data of the pipeline at a
   parameter V (the contents of the core's buffers when the region is entered) and derives the body obligation. -/
import proofs.«154186_j59107339927929_2_alg».proof.Proof.Gen.Kernel.Launch
import proofs.«154186_j59107339927929_2_alg».proof.Proof.Gen.Kernel.Skeleton
import proofs.«154186_j59107339927929_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a 1024 x 1024 rectangle recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there
    (when it was not, the block index has not moved), for any proof data whose array is V's and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1, whose index map is constant: it is fetched once and never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- Every load and every store of the body is of the whole 1024 x 1024 buffer. -/
abbrev r0_0 : Rect S1024x1024 := Rect.unit (s := S1024x1024) ![0, 0] S1024x1024.size inb_S1024x1024_S1024x1024_0_0

/-! ## What the body leaves in each output window's buffer -/

/-- Window 3 (the key block) after the body: its one store, of the rounded product of the rounded activation
    block x0 with the transpose of the weight block x1. -/
def out0_3 (x0 : Vec F S1024x1024 .f32) (x1 : Vec F S1024x1024 .bf16) : Vec F S1024x1024 .bf16 :=
  View.canon [⟨r0_0, k0_pay2 (View.ld x0 r0_0) (View.ld x1 r0_0)⟩]

/-- The one store tiles the buffer, so it covers it. -/
theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Window 4 (the value block) after the body: the same product against the weight block x2. -/
def out0_4 (x0 : Vec F S1024x1024 .f32) (x2 : Vec F S1024x1024 .bf16) : Vec F S1024x1024 .bf16 :=
  View.canon [⟨r0_0, k0_pay3 (View.ld x0 r0_0) (View.ld x2 r0_0)⟩]

theorem cover0_4 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- Window 5 (the rounded activations) after the body: the activation block x0 rounded to the narrow format. -/
def out0_5 (x0 : Vec F S1024x1024 .f32) : Vec F S1024x1024 .bf16 :=
  View.canon [⟨r0_0, k0_pay1 (View.ld x0 r0_0)⟩]

theorem cover0_5 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The body on whole staging memrefs, the inputs' at contents x0, x1, x2 and the outputs' at anything, runs to the
    continuation holding the inputs' as they were and each output's at out0_W of the inputs'. The body also reads
    each output buffer before overwriting it; what it reads there is used by no store. -/
theorem sound_kernel0 (c : Dev nD) (E : Set ℕ) (i : grid0.Coords)
    (arg1 : Memref sig .tc .vmem S1024x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 : Vec F S1024x1024 .bf16) (x2 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0)) -∗ K ⟨⟩))
      ⊢ wp frame (wpE (defs₀ (F := F)) Variants.none c none) E (cc0__kv_kernel i arg1 harg1 arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and each output's at out0_W of the input blocks; the invariant that of a body
    touching nothing but its windows (the scoped rest and the generator register pass through); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => out0_5 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordAttnRuns.lean ====
/-
  The attention region (the second pallas_call), stated at any float instance: what its proofs share.

  The grid is (batch, query tile, key tile) = (4, 4, 2), 32 points in row-major order, so the key tile of
  point t is t mod 2. The body has two conditionals on the key tile: at key tile 0 it resets the carried
  state (the projected query tile, the running maximum, the running normaliser and the running weighted
  sum, four scratch buffers), at key tile 1 it divides the weighted sum by the normaliser and stores the
  output block. Here: each window's block at a point as read off the array the region finds; the two
  conditions in closed form over the grid; where the output window is idle and where it is written back;
  the staging and scratch memrefs the body is called with; and the region's invariant with the scratch
  buffers spelt as owned memrefs.
-/
import proofs.«154186_j59107339927929_2_alg».proof.Proof.Gen.Kernel.Launch
import proofs.«154186_j59107339927929_2_alg».proof.Proof.Gen.Kernel.Skeleton
import proofs.«154186_j59107339927929_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents on entry to the region: a parameter, instantiated when the run is assembled
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it
    is not fetched the block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it
    is not fetched the block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it
    is not fetched the block index has not moved since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it
    is not fetched the block index has not moved since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions, in closed form over the grid -/

/-- "The key tile is the first": the condition under which the carried state is reset. -/
abbrev cond1_0 (i : grid1.Coords) : Prop := (Scalar.cmpi .ne (Scalar.extui (Scalar.cmpi .eq (BitVec.ofNat 32 (i 2).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- "The key tile is the last": the condition under which the output block is stored. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- At the even points nothing is stored into the output window: it is idle there, -/
theorem idleAt1_4_A : ∀ t : Fin cfg1.N, t.val % 2 = 0 → cfg1.idle 4 (grid1.coords t) = true := by decide +kernel
/-- and its block is not written back there. -/
theorem noFlush1_4_A : ∀ t : Fin cfg1.N, t.val % 2 = 0 → (cfg1.win 4).flush t = false := by decide +kernel
/-- At the odd points the output window is live: its whole block is stored. -/
theorem liveAt1_4_B : ∀ t : Fin cfg1.N, t.val % 2 = 1 → cfg1.idle 4 (grid1.coords t) = false := by decide +kernel

/-! ## The memrefs the body is called with -/

/-- One staging buffer of the output window, through which its contents are stated. -/
abbrev VO1_4 : View sig .tc .vmem S1x512x1024 .f32 := (Memref.whole cc1_stg4_0 : Memref sig .tc .vmem S1x512x1024 .f32).view
/-- Each window's current staging memref at point `t`, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The four scratch operands — the projected query tile, the running maximum, the running normaliser, the running
    weighted sum — whole scoped buffers carried from one point to the next. -/
abbrev scM1_0 : Memref sig .tc .vmem S512x1024 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1024 .f32 := Memref.whole cc1_scratch3
abbrev VS1_0 : View sig .tc .vmem S512x1024 .bf16 := scM1_0.view
abbrev VS1_1 : View sig .tc .vmem S512x1 .f32 := scM1_1.view
abbrev VS1_2 : View sig .tc .vmem S512x1 .f32 := scM1_2.view
abbrev VS1_3 : View sig .tc .vmem S512x1024 .f32 := scM1_3.view

/-- The scoped buffers of the core that this region never touches (the first region's staging buffers), each whole
    at some contents. -/
def Oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The region's plain invariant — every scoped buffer no window stages at some contents, and the generator register at
    some state — with the scratch operands as owned memrefs. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.WordAttnRunA.lean ====
/-
  The attention body at a point whose key tile is the first (an even point): the carried state is reset, then one
  block of keys and values is folded in; nothing is stored into the output window, which is handed back untouched.
  The statement is the body's triple on whole memrefs; what each scratch buffer ends with — the list of its stores,
  last first — is found by the run itself.
-/
import proofs.«154186_j59107339927929_2_alg».proof.Proof.WordAttnRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an even point. The four input blocks are owned at their contents and come back unchanged; the output
    window's buffer (contents `xi4`) comes back untouched; the four scratch buffers, at anything on entry, end with the
    stores listed in `LS0 … LS3`. -/
noncomputable def kernelRun1_A (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) :
    Σ' (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.WordAttnRunB.lean ====
/-
  The attention body at a point whose key tile is the last (an odd point): the carried state is read as the point
  before left it, the second block of keys and values is folded in, and the weighted sum divided by the normaliser is
  stored over the whole output block. The projected query tile is read and not stored. What the output buffer and the
  three updated scratch buffers end with — their stores, last first — is found by the run itself.
-/
import proofs.«154186_j59107339927929_2_alg».proof.Proof.WordAttnRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd point. The four input blocks and the projected query tile (`xs0`) are owned at their contents
    and come back unchanged; the running maximum, normaliser and weighted sum enter at what the point before left
    (`xs1`, `xs2`, `xs3`) and end with the stores `LS1`, `LS2`, `LS3`; the output buffer, at anything on entry, ends
    with the stores `L4`. -/
noncomputable def kernelRun1_B (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) :
    Σ' (L4 : List (View.Piece (Elt F) S1x512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ owns (c : Thread nD τ) arg8 fullShare xs0 ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    isplitl [HS1]; · iexists _; iexact HS1
    isplitl [HS2]; · iexists _; iexact HS2
    iexists _; iexact HS3

end Cert.Kernel.Hand

end
-- ==== Proof.WordAttnRegion.lean ====
/-
  The attention region, its frame half: what the four carried scratch buffers and the output buffer hold after each
  point, by recursion on the point (an even point resets the state and folds in the first block of keys; the odd
  point after it folds in the second block over what the even point left and stores the output block); the region's
  invariant, which names the scratch contents after every point; the proof data of the pipeline; and the body
  obligation at every point, by cases on the parity of the point.
-/
import proofs.«154186_j59107339927929_2_alg».proof.Proof.WordAttnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At an even point nothing is stored into the output window: a placeholder that nothing consults (the window is
    neither written back there nor read at the next point before it is covered). -/
def out1_A_4 : Vec F S1x512x1024 .f32 :=
  VO1_4.read (Elt F) (VO1_4.writes (Elt F) VO1_4.junk [])

/-- The stores of an even point into scratch 0 cover it. -/
theorem scover1_A_0 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S512x1024.size (by sl_kernel_rfl) y

/-- What an even point leaves in scratch 0: its stores read back. -/
def sout1_A_0 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1024 .bf16 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- The stores of an even point into scratch 1 cover it. -/
theorem scover1_A_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S512x1.size (by sl_kernel_rfl) y

/-- What an even point leaves in scratch 1: its stores read back. -/
def sout1_A_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- The stores of an even point into scratch 2 cover it. -/
theorem scover1_A_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S512x1.size (by sl_kernel_rfl) y

/-- What an even point leaves in scratch 2: its stores read back. -/
def sout1_A_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- The stores of an even point into scratch 3 cover it. -/
theorem scover1_A_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S512x1024.size (by sl_kernel_rfl) y

/-- What an even point leaves in scratch 3: its stores read back. -/
def sout1_A_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) : Vec F S512x1024 .f32 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- The store of an odd point into the output window covers its block. -/
theorem cover1_B_4 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S1x512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S1x512x1024.size (by sl_kernel_rfl) y

/-- What an odd point leaves in the output window's buffer: its store read back. -/
def out1_B_4 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S1x512x1024 .f32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- The stores of an odd point into scratch 1 cover it. -/
theorem scover1_B_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What an odd point leaves in scratch 1: its stores read back. -/
def sout1_B_1 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- The stores of an odd point into scratch 2 cover it. -/
theorem scover1_B_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What an odd point leaves in scratch 2: its stores read back. -/
def sout1_B_2 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S512x1 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- The stores of an odd point into scratch 3 cover it. -/
theorem scover1_B_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) (y : S512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1 S512x1024.size (by sl_kernel_rfl) y

/-- What an odd point leaves in scratch 3: its stores read back. -/
def sout1_B_3 (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) : Vec F S512x1024 .f32 :=
  VS1_3.read (Elt F) (VS1_3.writes (Elt F) VS1_3.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.2.1)

/-! ## What the buffers hold after each point -/

/-- After an even point `t`: the output placeholder and the four scratch buffers as the reset-and-fold leaves them,
    from the point's input blocks. -/
def caseA1 (c : Dev nD) (t : Fin cfg1.N) (h0 : t.val % 2 = 0) : Vec F S1x512x1024 .f32 × Vec F S512x1024 .bf16 × Vec F S512x1 .f32 × Vec F S512x1 .f32 × Vec F S512x1024 .f32 :=
  (out1_A_4,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => by have h' := (hcond1_1 t).mp h; omega) (iblk1 V c 0 t) (iblk1 V c 1 t) (iblk1 V c 2 t) (iblk1 V c 3 t))

/-- After an odd point `t`, over what the point before left (`p`): the output block stored, the projected query tile
    kept, the other three scratch buffers as the second fold leaves them. -/
def caseB1 (c : Dev nD) (t : Fin cfg1.N) (h1 : t.val % 2 = 1) (p : Vec F S1x512x1024 .f32 × Vec F S512x1024 .bf16 × Vec F S512x1 .f32 × Vec F S512x1 .f32 × Vec F S512x1024 .f32) : Vec F S1x512x1024 .f32 × Vec F S512x1024 .bf16 × Vec F S512x1 .f32 × Vec F S512x1 .f32 × Vec F S512x1024 .f32 :=
  (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2,
   p.2.1,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2,
   sout1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => by have h' := (hcond1_0 t).mp h; omega) ((hcond1_1 t).mpr h1) (iblk1 V c 0 t) (iblk1 V c 1 t) (iblk1 V c 2 t) (iblk1 V c 3 t) p.2.1 p.2.2.1 p.2.2.2.1 p.2.2.2.2)

/-- The accumulation over the points, in order: the output buffer and the four scratch buffers after position `n`. -/
def outsAt1 (c : Dev nD) : (n : ℕ) → n < cfg1.N → Vec F S1x512x1024 .f32 × Vec F S512x1024 .bf16 × Vec F S512x1 .f32 × Vec F S512x1 .f32 × Vec F S512x1024 .f32
  | 0, hn => caseA1 V c ⟨0, hn⟩ (Nat.zero_mod _)
  | n + 1, hn =>
    if h0 : (n + 1) % 2 = 0 then caseA1 V c ⟨n + 1, hn⟩ h0
    else caseB1 V c ⟨n + 1, hn⟩ (by show (n + 1) % 2 = 1; omega) (outsAt1 c n (Nat.lt_of_succ_lt hn))

/-- At an even point: that case's contents. -/
theorem outsAt1_A (c : Dev nD) (t : Fin cfg1.N) (h0 : t.val % 2 = 0) :
    outsAt1 V c t.val t.isLt = caseA1 V c t h0 := by
  obtain ⟨n, hn⟩ := t
  cases n with
  | zero => exact rfl
  | succ n => exact (dif_pos h0).trans rfl

/-- At an odd point: that case's contents, over what the point before left. -/
theorem outsAt1_B (c : Dev nD) (t : Fin cfg1.N) (h1 : t.val % 2 = 1) :
    outsAt1 V c t.val t.isLt = caseB1 V c t h1 (outsAt1 V c (t.val - 1) (Nat.lt_of_le_of_lt (Nat.sub_le _ _) t.isLt)) := by
  obtain ⟨n, hn⟩ := t
  cases n with
  | zero => exact (by exfalso; have h1' : (0 : ℕ) % 2 = 1 := h1; omega)
  | succ n => exact (dif_neg (by show ¬ (n + 1) % 2 = 0; have : (n + 1) % 2 = 1 := h1; omega)).trans rfl

/-! ## The invariant -/

/-- The region's invariant before position `n`: before the first point every scoped buffer the windows do not stage is
    at anything; afterwards the four scratch buffers hold what the point before left, the untouched scoped buffers are
    at anything, and the generator register is at some state. -/
def PhiS1 (c : Dev nD) : (n : ℕ) → n ≤ cfg1.N → sProp 𝕄
  | 0, _ => Pipeline.ΦA spec1 c
  | n + 1, hn => iprop(iprop(Oth1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Oth1 c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2.1) ∗ owns (c : Thread nD τ) scM1_3 fullShare ((outsAt1 V c n hn).2.2.2.2)) ∗ (∃ r, prngReg c r)) := rfl

theorem PhiS1_pos (c : Dev nD) (n : ℕ) (h : n ≤ cfg1.N) (hz : n ≠ 0) :
    PhiS1 V c n h = iprop(iprop(Oth1 c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2.1) ∗ owns (c : Thread nD τ) scM1_3 fullShare ((outsAt1 V c (n - 1) (by omega)).2.2.2.2)) ∗ (∃ r, prngReg c r)) := by
  cases n with
  | zero => exact absurd rfl hz
  | succ n => rfl

/-- The plain invariant with the untouched buffers grouped, -/
theorem PhiA1_in (c : Dev nD) :
    (Pipeline.ΦA spec1 c : sProp 𝕄) ⊢ iprop(iprop(Oth1 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  rw [PhiA1_eq]; unfold Oth1
  iintro ⟨⟨B0, B1, B2, B3, B4, B5, B6, B7, B8, B9, S0, S1, S2, S3⟩, Hg⟩
  isplitr [Hg]
  · isplitl [B0 B1 B2 B3 B4 B5 B6 B7 B8 B9]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact B9
    isplitl [S0]; · iexact S0
    isplitl [S1]; · iexact S1
    isplitl [S2]; · iexact S2
    iexact S3
  iexact Hg

/-- and back. -/
theorem PhiA1_out (c : Dev nD) :
    (iprop(iprop(Oth1 c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) : sProp 𝕄) ⊢ Pipeline.ΦA spec1 c := by
  rw [PhiA1_eq]; unfold Oth1
  iintro ⟨⟨⟨B0, B1, B2, B3, B4, B5, B6, B7, B8, B9⟩, S0, S1, S2, S3⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [S0]; · iexact S0
    isplitl [S1]; · iexact S1
    isplitl [S2]; · iexact S2
    iexact S3
  iexact Hg

/-! ## The pipeline's proof data -/

/-- The proof data of the attention pipeline on core `c`: the arrays as the region finds them; after the body at point
    `t` each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point. The input windows' memrefs hold their blocks; the parity of the point says which case it is
    in. At an even point the invariant hands over the scratch buffers at anything (at the first point) or at what the point
    before left (which the reset overwrites), and takes them back at this point's contents; the output window is handed
    back untouched. At an odd point the scratch buffers enter at what the even point before left and the output block is
    stored whole. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 2 = 0
  · rw [Dat.leavesExact_idle (dat1 V c) 4 t (idleAt1_4_A t h0) (noFlush1_4_A t h0)]
    rw [outsAt1_A V c t h0]
    unfold caseA1 sout1_A_0 sout1_A_1 sout1_A_2 sout1_A_3; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩⟩
      ihave HΦ' := (PhiA1_in c) $$ HΦ
      icases HΦ' with ⟨⟨HO, HS0, HS1, HS2, HS3⟩, Hg⟩
      iapply ((kernelRun1_A c (grid1.coords t) _ _ _ _ _ _ _ _ _ _ _ _ _ _ _ _ _ _ ((hcond1_0 t).mpr h0) (fun h => by have h' := (hcond1_1 t).mp h; omega) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [HO HS0 HS1 HS2 HS3 Hg]
      · isplitl [HO HS0 HS1 HS2 HS3]
        · isplitl [HO]; · iexact HO
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HO, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (fun h => by have h' := (hcond1_1 t).mp h; omega) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [HO HS0 HS1 HS2 HS3 Hg]
      · isplitl [HO HS0 HS1 HS2 HS3]
        · isplitl [HO]; · iexact HO
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _)
          unfold owns; iexists _; isplitr
          swap; · iexact HS3
          ipureintro; exact View.read_writes_of_cover _ _ _ _ _ (scover1_A_3 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_B t h1], after1_4]
    rw [outsAt1_B V c t h1]
    unfold caseB1 out1_B_4 sout1_B_1 sout1_B_2 sout1_B_3; (try dsimp only)
    rw [PhiS1_castSucc V c t, PhiS1_pos V c _ _ hz]
    iintro ⟨⟨⟨HO, HS0, HS1, HS2, HS3⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ _ _ _ _ _ _ (fun h => by have h' := (hcond1_0 t).mp h; omega) ((hcond1_1 t).mpr h1) (iblk1 V c 0 t) (iblk1 V c 1 t) (iblk1 V c 2 t) (iblk1 V c 3 t) _ _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, ⟨%e4, H4⟩, HS0, ⟨%es1, HS1⟩, ⟨%es2, HS2⟩, ⟨%es3, HS3⟩⟩
    isplitl [HO HS0 HS1 HS2 HS3 Hg]
    · isplitl [HO HS0 HS1 HS2 HS3]
      · isplitl [HO]; · iexact HO
        isplitl [HS0]; · iexact HS0
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        unfold owns; iexists _; isplitr
        swap; · iexact HS3
        ipureintro; exact View.read_writes_of_cover _ _ _ _ _ (scover1_B_3 c _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the region is entered with is the invariant before the first point. -/
theorem Phi_in1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the plain one back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA1_out c)
  iintro ⟨⟨HO, HS0, HS1, HS2, HS3⟩, Hg⟩
  isplitr [Hg]
  · isplitl [HO]; · iexact HO
    isplitl [HS0]; · iexists _; iexact HS0
    isplitl [HS1]; · iexists _; iexact HS1
    isplitl [HS2]; · iexists _; iexact HS2
    iexists _; iexact HS3
  iexact Hg

/-- The same after the last point. -/
theorem Phi_last1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.WordRun.lean ====
/-
  The whole program's run, at any float instance. @main is four segments: a stretch of host operations (the three
  weight matrices recast, the input reshaped to rows), the projection region, a stretch of three reshapes, and the
  attention region. The contents of every unscoped buffer are followed from the launch memory through the four segments
  (`W0 … W4`: a host stretch applies its operations; a region replaces its arrays by what its write-backs leave and
  keeps every other buffer), each region is given as a segment over the thread state "every unscoped buffer at the
  boundary's contents, the generator register at some state, nothing owed", and the launch theorem for a list of
  segments gives: every weakly fair execution terminates, and at the end every unscoped buffer holds `W4`. Read at an
  argument that is the launch contents (the frame); read at the result it is what the attention region's write-backs
  leave.
-/
import proofs.«154186_j59107339927929_2_alg».proof.Proof.WordKvRegion
import proofs.«154186_j59107339927929_2_alg».proof.Proof.WordAttnRegion
import proofs.«154186_j59107339927929_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched -/

/-- `main_arg0` reaches the end as launched: no host operation writes it and no region stages it as an output. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` reaches the end as launched: no host operation writes it and no region stages it as an output. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` reaches the end as launched: no host operation writes it and no region stages it as an output. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` reaches the end as launched: no host operation writes it and no region stages it as an output. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- `main_arg4` reaches the end as launched: no host operation writes it and no region stages it as an output. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- `main_arg5` reaches the end as launched: no host operation writes it and no region stages it as an output. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- The projection region as a segment: entered with every unscoped buffer at `W1`, left with them at `W2`. Its
    arrays are split out of the unscoped buffers on entry and put back at the exit contents; the generator register goes
    into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The attention region as a segment: entered with every unscoped buffer at `W3`, left with them at `W4`. Its
    arrays are split out of the unscoped buffers on entry and put back at the exit contents; the generator register goes
    into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN. From any memory with zero counters, every weakly fair execution of @main on the TensorCores terminates,
    nothing faulting, and in every final state each unscoped buffer of each core holds `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result named: besides the frame, the result array ends at what the attention region's
    write-backs leave. -/
theorem run_result : θ_run defs (onTc (τ := τ) (main (F := F))) ⟨m, fun _ => 0, ρ⟩ (fun r => ∀ c : Dev nD,
      r.2.mem ((c.tc : Thread nD τ).loc main_v8) = (dat1 (U3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v8 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.AttnSpec.lean ====
/-
  Scaled dot-product attention with no mask, on the extended reals, index by index.

  For an input `x : [B, S, D]` and three weight matrices `wq, wk, wv : [E, D]` (a linear layer without bias: `y = x · wᵀ`):

    Q b s e = ∑ d, x b s d * wq e d        (K, V likewise with wk, wv)
    score b q k = (∑ e, Q b q e * K b k e) / 32
    rowMax b q  = max (-∞) (the maximum over k, taken from -∞, of score b q k)
    expo b q k  = exp (score b q k - rowMax b q)
    denom b q   = 0 + ∑ k, expo b q k
    prob b q k  = expo b q k / denom b q
    out b q e   = ∑ k, prob b q k * V b k e

  Every operation is the extended reals' own: `+`, `*`, `-` are `EReal`'s, the quotient is `Ideal.div` (`x * y⁻¹` off a
  zero divisor), `exp` is `Ideal.exp` (`exp (-∞) = 0`, `exp ∞ = ∞`), the maximum over a row is a `Finset.fold` of `max`.
  The three constants are kept as the values of their 32-bit patterns (`32.0`, `-∞`, `0.0`); `ofBits_32`, `ofBits_negInf`
  and `ofBits_zero` evaluate them, and `score_eq`, `rowMax_eq`, `denom_eq` restate the three stages with the constants
  evaluated.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic

variable {B S D E : ℕ}

/-- A linear layer without bias at one output coordinate: `(x · wᵀ) b s e = ∑ d, x b s d * w e d`. -/
def proj (x : Fin B → Fin S → Fin D → EReal) (w : Fin E → Fin D → EReal) (b : Fin B) (s : Fin S) (e : Fin E) : EReal :=
  ∑ d : Fin D, x b s d * w e d

/-- The scaled score of query row `q` against key row `k`: the dot product of the two projected rows, divided by `32.0`. -/
def score (x : Fin B → Fin S → Fin D → EReal) (wq wk : Fin E → Fin D → EReal) (b : Fin B) (q k : Fin S) : EReal :=
  Ideal.div (∑ e : Fin E, proj x wq b q e * proj x wk b k e) (Ideal.ofBits .f32 0x42000000#32)

/-- The maximum of a row of scores: the fold of `max` from `-∞` over the row, and once more `max` with `-∞` on the left. -/
def rowMax (x : Fin B → Fin S → Fin D → EReal) (wq wk : Fin E → Fin D → EReal) (b : Fin B) (q : Fin S) : EReal :=
  max (Ideal.ofBits .f32 0xFF800000#32)
    ((Finset.univ : Finset (Fin S)).fold max (Ideal.ofBits .f32 0xFF800000#32) (fun k => score x wq wk b q k))

/-- The exponential of a score less its row's maximum. -/
def expo (x : Fin B → Fin S → Fin D → EReal) (wq wk : Fin E → Fin D → EReal) (b : Fin B) (q k : Fin S) : EReal :=
  Ideal.exp (score x wq wk b q k - rowMax x wq wk b q)

/-- The sum of a row of exponentials, added to the initial value `0.0`. -/
def denom (x : Fin B → Fin S → Fin D → EReal) (wq wk : Fin E → Fin D → EReal) (b : Fin B) (q : Fin S) : EReal :=
  Ideal.ofBits .f32 0x00000000#32 + ∑ k : Fin S, expo x wq wk b q k

/-- The softmax weight of key row `k` for query row `q`. -/
def prob (x : Fin B → Fin S → Fin D → EReal) (wq wk : Fin E → Fin D → EReal) (b : Fin B) (q k : Fin S) : EReal :=
  Ideal.div (expo x wq wk b q k) (denom x wq wk b q)

/-- Attention's result: the softmax weights of row `q` against the projected values. -/
def out (x : Fin B → Fin S → Fin D → EReal) (wq wk wv : Fin E → Fin D → EReal) (b : Fin B) (q : Fin S) (e : Fin E) : EReal :=
  ∑ k : Fin S, prob x wq wk b q k * proj x wv b k e

/-! ## The three constants evaluated -/

/-- The pattern `0xFF800000` is `-∞`. -/
theorem ofBits_negInf : Ideal.ofBits .f32 0xFF800000#32 = ⊥ := by simp [Ideal.ofBits, Ideal.ieee]

/-- The pattern `0x00000000` is `0`. -/
theorem ofBits_zero : Ideal.ofBits .f32 0x00000000#32 = 0 := by simp [Ideal.ofBits, Ideal.ieee]

/-- The pattern `0x42000000` is `32`. -/
theorem ofBits_32 : Ideal.ofBits .f32 0x42000000#32 = ((32 : ℝ) : EReal) := by
  simp [Ideal.ofBits, Ideal.ieee, -EReal.coe_mul]; norm_num

/-- The score is the dot product times `1/32`. -/
theorem score_eq (x : Fin B → Fin S → Fin D → EReal) (wq wk : Fin E → Fin D → EReal) (b : Fin B) (q k : Fin S) :
    score x wq wk b q k = (∑ e : Fin E, proj x wq b q e * proj x wk b k e) * ((1 / 32 : ℝ) : EReal) := by
  unfold score
  rw [ofBits_32, Ideal.div_coe (by norm_num : (32 : ℝ) ≠ 0)]

/-- The row maximum is the fold of `max` from `-∞` over the row. -/
theorem rowMax_eq (x : Fin B → Fin S → Fin D → EReal) (wq wk : Fin E → Fin D → EReal) (b : Fin B) (q : Fin S) :
    rowMax x wq wk b q = (Finset.univ : Finset (Fin S)).fold max ⊥ (fun k => score x wq wk b q k) := by
  unfold rowMax
  rw [ofBits_negInf, max_eq_right bot_le]

/-- The denominator is the sum of the row's exponentials. -/
theorem denom_eq (x : Fin B → Fin S → Fin D → EReal) (wq wk : Fin E → Fin D → EReal) (b : Fin B) (q : Fin S) :
    denom x wq wk b q = ∑ k : Fin S, expo x wq wk b q k := by
  unfold denom
  rw [ofBits_zero, zero_add]

end Cert.AttnSpec

end
-- ==== Proof.LibRowMax3.lean ====
/-
  A maximum from `-∞` along the LAST axis of a rank-3 array, read at an index, on the extended reals.

  The host's `stablehlo.reduce` with a maximum body from the value of the pattern `0xFF800000` (`-∞`) along the third
  axis of an `[a, n, b]` array, at `(p, r)`, is the fold of `max` from `-∞` over the `b` entries `(p, r, ·)`. The reduced index
  `(p, r)` with the third coordinate `k` put back is `(p, r, k)`. (The rank-2 companion reads a row maximum of a matrix.)
-/
import Idealize.ShloMosaic.Lib.ValueIdx
import Idealize.ShloMosaic.PureOps.Ideal.Laws

noncomputable section

namespace Cert.Lib.RowMax3

open Idealize.ShloMosaic Idealize.ShloMosaic.ValueIdx

/-- The reduced index `(p, r)` with the last coordinate `k` put back is `(p, r, k)`. -/
theorem lift_last {a n b : ℕ} (hr : (⟨3, ![a, n, b]⟩ : Shape).Reduces [2] ⟨2, ![a, n]⟩) (p : Fin a) (r : Fin n)
    (k : Fin ((⟨3, ![a, n, b]⟩ : Shape).size 2)) : hr.lift (ix2 p r) k = ix3 p r (⟨k.val, k.isLt⟩ : Fin b) := by
  funext d; apply Fin.ext
  match d with
  | ⟨0, _⟩ => rfl
  | ⟨1, _⟩ => rfl
  | ⟨2, _⟩ => rfl

/-- The host's reduce with a maximum body from `-∞` along the last axis, at `(p, r)`, is the fold of `max` from `-∞`
    over the entries `(p, r, ·)`. -/
theorem hostLastMax_apply {a n b : ℕ} (z : FVec Ideal ⟨3, ![a, n, b]⟩ .f32)
    (hrt : (⟨3, ![a, n, b]⟩ : Shape).ReducesTo [2] ⟨2, ![a, n]⟩) (hr : (⟨3, ![a, n, b]⟩ : Shape).Reduces [2] ⟨2, ![a, n]⟩)
    (hu : 0 < (⟨0, ![]⟩ : Shape).numel) (p : Fin a) (r : Fin n) :
    Host.reduce FloatOps.maximumf z (constant (F := Ideal) ⟨0, ![]⟩ .f32 0xFF800000#32) hrt hu (ix2 p r)
      = (Finset.univ : Finset (Fin b)).fold max (Ideal.ofBits .f32 0xFF800000#32) (fun k => z (ix3 p r k)) := by
  rw [Host.reduce_eq_fold_single FloatOps.maximumf z _ hrt hr hu]
  have hf : (z ∘ hr.lift (ix2 p r)) = fun k : Fin b => z (ix3 p r k) := funext fun k => congrArg z (lift_last hr p r k)
  exact congrArg (fun f => Finset.fold max (Ideal.ofBits .f32 0xFF800000#32) f (Finset.univ : Finset (Fin b))) hf

end Cert.Lib.RowMax3

end
-- ==== Proof.RefIsSpec.lean ====
/-
  The reference's result, index by index, is attention's closed form (`Cert.AttnSpec.out`) of the argument arrays.

  The reference computes, on the host, three linear projections of `x` (one `dot_general` each), the scores (a batched
  `dot_general` of the query and key projections, divided by the broadcast constant `32.0`), a softmax along the last
  axis (a maximum from `-∞` along that axis and once more against a broadcast `-∞`, the scores less the broadcast
  maximum, the exponential, a sum from `0.0` along the last axis, the quotient by the broadcast sum) and the batched
  `dot_general` of the weights with the value projection. Each stage is read at an index (the generated stage lemmas;
  the maximum along the last axis by the fold lemma of `LibRowMax3`), with the stage's operand index functions
  identified with coordinates, and the stages compose to the closed form. Arrays are read through their coordinates:
  `X a b s d = a (ix3 b s d)`, `W a e d = a (ix2 e d)`.
-/
import proofs.«154186_j59107339927929_2_alg».proof.Proof.Gen.ReferenceIdeal.Read
import proofs.«154186_j59107339927929_2_alg».proof.Proof.AttnSpec
import proofs.«154186_j59107339927929_2_alg».proof.Proof.LibRowMax3

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- A rank-3 array as a function of its three coordinates. -/
abbrev X (a : FVec Ideal S4x2048x1024 .f32) : Fin 4 → Fin 2048 → Fin 1024 → EReal := fun b s d => a (ix3 b s d)
/-- A matrix as a function of its two coordinates. -/
abbrev W (a : FVec Ideal S1024x1024 .f32) : Fin 1024 → Fin 1024 → EReal := fun e d => a (ix2 e d)

/-! ## The operand indices of each stage, by coordinates -/

theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridx_v0 (b : Fin 4) (s : Fin 2048) (e k : Fin 1024) : ridx_main_v0 (ix3 b s e) k = ix2 e k :=
  funext fun a => Fin.ext (by match a with | ⟨0, _⟩ => rfl | ⟨1, _⟩ => rfl)
theorem lidx_v3 (b : Fin 4) (q k : Fin 2048) (e : Fin 1024) : lidx_main_v3 (ix3 b q k) e = ix3 b q e :=
  funext fun a => Fin.ext (by match a with | ⟨0, _⟩ => rfl | ⟨1, _⟩ => rfl | ⟨2, _⟩ => rfl)
theorem ridx_v3 (b : Fin 4) (q k : Fin 2048) (e : Fin 1024) : ridx_main_v3 (ix3 b q k) e = ix3 b k e :=
  funext fun a => Fin.ext (by match a with | ⟨0, _⟩ => rfl | ⟨1, _⟩ => rfl | ⟨2, _⟩ => rfl)
theorem idx_v9_v10 (b : Fin 4) (q k : Fin 2048) : idx_main_v9 (idx_main_v10 (ix3 b q k)) = ix2 b q :=
  funext fun a => Fin.ext (by match a with | ⟨0, _⟩ => rfl | ⟨1, _⟩ => rfl)
theorem idx_v13 (b : Fin 4) (q k : Fin 2048) : idx_main_v13 (ix2 b q) k = ix3 b q k :=
  funext fun a => Fin.ext (by match a with | ⟨0, _⟩ => rfl | ⟨1, _⟩ => rfl | ⟨2, _⟩ => rfl)
theorem idx_v14_v15 (b : Fin 4) (q k : Fin 2048) : idx_main_v14 (idx_main_v15 (ix3 b q k)) = ix2 b q :=
  funext fun a => Fin.ext (by match a with | ⟨0, _⟩ => rfl | ⟨1, _⟩ => rfl)
theorem lidx_v17 (b : Fin 4) (q : Fin 2048) (e : Fin 1024) (k : Fin 2048) : lidx_main_v17 (ix3 b q e) k = ix3 b q k :=
  funext fun a => Fin.ext (by match a with | ⟨0, _⟩ => rfl | ⟨1, _⟩ => rfl | ⟨2, _⟩ => rfl)
theorem ridx_v17 (b : Fin 4) (q : Fin 2048) (e : Fin 1024) (k : Fin 2048) : ridx_main_v17 (ix3 b q e) k = ix3 b k e :=
  funext fun a => Fin.ext (by match a with | ⟨0, _⟩ => rfl | ⟨1, _⟩ => rfl | ⟨2, _⟩ => rfl)

/-! ## The stages at an index -/

variable (a0 : FVec Ideal S4x2048x1024 .f32) (a3 a4 a5 w : FVec Ideal S1024x1024 .f32)

/-- A projection `x · wᵀ` at `(b, s, e)`. -/
theorem v0_at (b : Fin 4) (s : Fin 2048) (e : Fin 1024) :
    val_main_v0 (F := Ideal) a0 w (ix3 b s e) = AttnSpec.proj (X a0) (W w) b s e := by
  rw [val_main_v0_apply]
  unfold AttnSpec.proj
  refine Finset.sum_congr rfl fun k _ => ?_
  rw [lidx_v0, ridx_v0]
theorem v1_at (b : Fin 4) (s : Fin 2048) (e : Fin 1024) :
    val_main_v1 (F := Ideal) a0 w (ix3 b s e) = AttnSpec.proj (X a0) (W w) b s e := v0_at a0 w b s e
theorem v2_at (b : Fin 4) (s : Fin 2048) (e : Fin 1024) :
    val_main_v2 (F := Ideal) a0 w (ix3 b s e) = AttnSpec.proj (X a0) (W w) b s e := v0_at a0 w b s e

/-- The dot product of query row `q` with key row `k`. -/
theorem v3_at (b : Fin 4) (q k : Fin 2048) :
    val_main_v3 (F := Ideal) a0 a3 a4 (ix3 b q k)
      = ∑ e : Fin 1024, AttnSpec.proj (X a0) (W a3) b q e * AttnSpec.proj (X a0) (W a4) b k e := by
  rw [val_main_v3_apply]
  refine Finset.sum_congr rfl fun e _ => ?_
  rw [lidx_v3, ridx_v3, v0_at, v1_at]

/-- The scaled score. -/
theorem v5_at (b : Fin 4) (q k : Fin 2048) :
    val_main_v5 (F := Ideal) a0 a3 a4 (ix3 b q k) = AttnSpec.score (X a0) (W a3) (W a4) b q k := by
  rw [val_main_v5_apply, v3_at, val_main_v4_apply, val_main_cst_apply]
  rfl

/-- The maximum from `-∞` along the last axis. -/
theorem v6_at (b : Fin 4) (q : Fin 2048) :
    val_main_v6 (F := Ideal) a0 a3 a4 (ix2 b q)
      = (Finset.univ : Finset (Fin 2048)).fold max (Ideal.ofBits .f32 0xFF800000#32)
          (fun k => AttnSpec.score (X a0) (W a3) (W a4) b q k) := by
  unfold val_main_v6 val_main_cst_0
  refine (Cert.Lib.RowMax3.hostLastMax_apply (a := 4) (n := 2048) (b := 2048) _ reducesTo_S4x2048x2048_S4x2048_d2
    (by decide : S4x2048x2048.Reduces [2] S4x2048) h_S_ b q).trans ?_
  exact congrArg (fun f => Finset.fold max (Ideal.ofBits .f32 0xFF800000#32) f (Finset.univ : Finset (Fin 2048)))
    (funext fun k => v5_at a0 a3 a4 b q k)

/-- The row maximum the softmax subtracts. -/
theorem v8_at (b : Fin 4) (q : Fin 2048) :
    val_main_v8 (F := Ideal) a0 a3 a4 (ix2 b q) = AttnSpec.rowMax (X a0) (W a3) (W a4) b q := by
  rw [val_main_v8_apply, val_main_v7_apply, val_main_cst_1_apply, v6_at]
  rfl

/-- The exponential of the score less the row maximum. -/
theorem v12_at (b : Fin 4) (q k : Fin 2048) :
    val_main_v12 (F := Ideal) a0 a3 a4 (ix3 b q k) = AttnSpec.expo (X a0) (W a3) (W a4) b q k := by
  rw [val_main_v12_apply, val_main_v11_apply, v5_at, val_main_v10_apply, val_main_v9_apply, idx_v9_v10, v8_at]
  rfl

/-- The sum of the row's exponentials from `0.0`. -/
theorem v13_at (b : Fin 4) (q : Fin 2048) :
    val_main_v13 (F := Ideal) a0 a3 a4 (ix2 b q) = AttnSpec.denom (X a0) (W a3) (W a4) b q := by
  rw [val_main_v13_apply, val_main_cst_2_apply]
  unfold AttnSpec.denom
  refine congrArg (_ + ·) (Finset.sum_congr rfl fun k _ => ?_)
  rw [idx_v13, v12_at]

/-- The softmax weight. -/
theorem v16_at (b : Fin 4) (q k : Fin 2048) :
    val_main_v16 (F := Ideal) a0 a3 a4 (ix3 b q k) = AttnSpec.prob (X a0) (W a3) (W a4) b q k := by
  rw [val_main_v16_apply, v12_at, val_main_v15_apply, val_main_v14_apply, idx_v14_v15, v13_at]
  rfl

/-- The reference's result at `(b, q, e)` is attention's closed form of the argument arrays. -/
theorem v17_at (b : Fin 4) (q : Fin 2048) (e : Fin 1024) :
    val_main_v17 (F := Ideal) a0 a3 a4 a5 (ix3 b q e) = AttnSpec.out (X a0) (W a3) (W a4) (W a5) b q e := by
  rw [val_main_v17_apply]
  unfold AttnSpec.out
  refine Finset.sum_congr rfl fun k _ => ?_
  rw [lidx_v17, ridx_v17, v16_at, v2_at]

/-- The same as an equation of arrays. -/
theorem v17_eq :
    val_main_v17 (F := Ideal) a0 a3 a4 a5
      = fun i : S4x2048x1024.Idx => AttnSpec.out (X a0) (W a3) (W a4) (W a5) (i 0) (i 1) (i 2) := by
  funext i
  rw [eq_ix3 i]
  exact v17_at a0 a3 a4 a5 (i 0) (i 1) (i 2)

end Cert.ReferenceIdeal.RefValue

end
-- ==== Proof.RefRun.lean ====
/-
  The reference's run, with its result read as attention's closed form.

  Every weakly fair execution of the reference ends with its result array at the composed term of its operations (the
  generated run); that term is, index by index, `Cert.AttnSpec.out` of the argument arrays' launch contents (`v17_eq`),
  and the arguments end unchanged.
-/
import proofs.«154186_j59107339927929_2_alg».proof.Proof.RefIsSpec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- From any memory with zero counters, every weakly fair execution of the reference terminates with its result at
    attention's closed form of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
          = (fun i : S4x2048x1024.Idx =>
              AttnSpec.out (X (m ((c.tc : Thread nD τ).loc main_arg0))) (W (m ((c.tc : Thread nD τ).loc main_arg3)))
                (W (m ((c.tc : Thread nD τ).loc main_arg4))) (W (m ((c.tc : Thread nD τ).loc main_arg5))) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c => ⟨(h c).1.trans ((val_main_v17_eq (F := Ideal) _ _ _ _).trans (v17_eq _ _ _ _)), (h c).2⟩)
    (Cert.ReferenceIdeal.Value.run (F := Ideal) m ρ)

end Cert.ReferenceIdeal.RefValue

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.KvValue.lean ====
/- The value of each output block of the projection kernel at an index, at the ideal values (extended reals,
   every operation exact, a change of format the identity).

   With x0 the block of 1024 activation rows and w a 1024 x 1024 weight block:
     * the rounded copy of the activations is x0 itself;
     * the key block and the value block are the product of x0 with the transpose of w: at (p, q) the sum over the
       shared width d of x0[p, d] * w[q, d] (a matrix unit's product into a zero accumulator, contracting the second
       axis of both operands; the rounding before and after it is the identity). -/
import proofs.«154186_j59107339927929_2_alg».proof.Proof.KvRegion
import proofs.«154186_j59107339927929_2_alg».proof.Proof.LibRowsDot
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.KvValue

open Cert.KernelIdeal Cert.KernelIdeal.Gen Cert.KernelIdeal.Hand
open Idealize.ShloMosaic Idealize.ShloMosaic.ValueIdx

/-- The origin of a rank-2 buffer. -/
theorem origin2 : (![0, 0] : Fin 2 → Nat) = fun _ => 0 := funext fun a => by fin_cases a <;> rfl

/-- The printed contraction record is the product of rows: both operands contracted on their second axis. -/
theorem dims_eq : dot_S1024x1024_S1024x1024_S1024x1024_1_1_0_0_n_n = DotDims.transposedRhs 1024 1024 1024 := rfl

/-- Rounding the activation block to the narrow format changes nothing at the ideal values. -/
theorem pay1_apply (x0 : Vec Ideal S1024x1024 .f32) (j : S1024x1024.Idx) : k0_pay1 (F := Ideal) x0 j = x0 j := by
  unfold k0_pay1
  rw [truncf_apply, shapeCast_self]

/-- The key payload at (p, q): the sum over d of x0[p, d] * w[q, d]. -/
theorem pay2_apply (x0 : Vec Ideal S1024x1024 .f32) (w : Vec Ideal S1024x1024 .bf16) (p q : Fin 1024) :
    k0_pay2 (F := Ideal) x0 w (ix2 p q) = ∑ d : Fin 1024, x0 (ix2 p d) * w (ix2 q d) := by
  unfold k0_pay2
  rw [truncf_apply, shapeCast_self]
  refine (Cert.RowsDot.matmul_zero_at_of_eq _ dims_eq (k0_pay1 (F := Ideal) x0) w p q).trans ?_
  refine Finset.sum_congr rfl fun d _ => ?_
  rw [pay1_apply]

/-- The value payload at (p, q): the same sum against the other weight block. -/
theorem pay3_apply (x0 : Vec Ideal S1024x1024 .f32) (w : Vec Ideal S1024x1024 .bf16) (p q : Fin 1024) :
    k0_pay3 (F := Ideal) x0 w (ix2 p q) = ∑ d : Fin 1024, x0 (ix2 p d) * w (ix2 q d) := by
  unfold k0_pay3
  rw [truncf_apply, shapeCast_self]
  refine (Cert.RowsDot.matmul_zero_at_of_eq _ dims_eq (k0_pay1 (F := Ideal) x0) w p q).trans ?_
  refine Finset.sum_congr rfl fun d _ => ?_
  rw [pay1_apply]

/-- The rounded copy of the activation block is the activation block. -/
theorem out0_5_apply (x0 : Vec Ideal S1024x1024 .f32) (p q : Fin 1024) :
    out0_5 (F := Ideal) x0 (ix2 p q) = x0 (ix2 p q) := by
  unfold out0_5
  rw [View.canon_unit_zero origin2]
  simp only [View.ld_unit_zero (S := S1024x1024) origin2]
  exact pay1_apply x0 _

/-- The key block at (p, q) is the sum over the width d of x0[p, d] * w[q, d]. -/
theorem out0_3_apply (x0 : Vec Ideal S1024x1024 .f32) (w : Vec Ideal S1024x1024 .bf16) (p q : Fin 1024) :
    out0_3 (F := Ideal) x0 w (ix2 p q) = ∑ d : Fin 1024, x0 (ix2 p d) * w (ix2 q d) := by
  unfold out0_3
  rw [View.canon_unit_zero origin2]
  simp only [View.ld_unit_zero (S := S1024x1024) origin2]
  exact pay2_apply x0 w p q

/-- The value block at (p, q) likewise. -/
theorem out0_4_apply (x0 : Vec Ideal S1024x1024 .f32) (w : Vec Ideal S1024x1024 .bf16) (p q : Fin 1024) :
    out0_4 (F := Ideal) x0 w (ix2 p q) = ∑ d : Fin 1024, x0 (ix2 p d) * w (ix2 q d) := by
  unfold out0_4
  rw [View.canon_unit_zero origin2]
  simp only [View.ld_unit_zero (S := S1024x1024) origin2]
  exact pay3_apply x0 w p q

end Cert.KernelIdeal.KvValue

end
-- ==== Proof.KvFinal.lean ====
/- Region 0 (the projection kernel): from the blocks each grid point writes back to the whole output arrays, at
   the ideal values, at any contents V of the core's buffers when the region is entered.

   The grid has 8 points. Point t reads rows 1024 t … 1024 t + 1023 of the row array X (8192 x 1024) and the two
   weight arrays whole, and writes back rows 1024 t … 1024 t + 1023 of each of the three output arrays. A row r of an
   output lies in the block of exactly the point r / 1024, so the blocks cover the arrays and each output array ends
   as one function of X and the weights:
     * the key array at (r, q) is the sum over d of X[r, d] * Wk[q, d];
     * the value array at (r, q) is the sum over d of X[r, d] * Wv[q, d];
     * the rounded copy of the rows is X itself. -/
import proofs.«154186_j59107339927929_2_alg».proof.Proof.KvValue
import Idealize.ShloMosaic.Lib.Pipeline.Value
import Idealize.ShloMosaic.Lib.Tactic

set_option maxRecDepth 16384

noncomputable section

namespace Cert.KernelIdeal.KvFinal

open Cert.KernelIdeal Cert.KernelIdeal.Gen Cert.KernelIdeal.Hand Cert.KernelIdeal.KvValue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the region reads -/

/-- The row array X: 8192 rows of width 1024. -/
abbrev rowsArr (c : Dev nD) : S8192x1024.Idx → EReal := V c main_v3
/-- The key weights Wk. -/
abbrev keyW (c : Dev nD) : S1024x1024.Idx → EReal := V c main_v0
/-- The value weights Wv. -/
abbrev valW (c : Dev nD) : S1024x1024.Idx → EReal := V c main_v1

/-! ## The index maps over the grid -/

/-- Decided over the 8 points: the row window and the three output windows sit at block row t, block column 0; the
    weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks as parts of their arrays -/

/-- The row block at point t is rows 1024 t … 1024 t + 1023 of X. -/
theorem rows_block (c : Dev nD) (t : Fin cfg0.N) (p d : Fin 1024) (r : Fin 8192) (hr : r.val = 1024 * t.val + p.val) :
    (iblk0 V c 0 t : Vec Ideal S1024x1024 .f32) (ix2 p d) = rowsArr V c (ix2 r d) := by
  obtain ⟨e0, e1, -⟩ := idx_facts t
  unfold iblk0
  rw [View.read_apply]
  show V c main_v3 _ = V c main_v3 _
  refine congrArg (V c main_v3) ?_
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * d.val = d.val; rw [e1]; omega

/-- The key weight block is Wk whole, at every point. -/
theorem keyW_block (c : Dev nD) (t : Fin cfg0.N) (a b : Fin 1024) :
    (iblk0 V c 1 t : Vec Ideal S1024x1024 .bf16) (ix2 a b) = keyW V c (ix2 a b) := by
  obtain ⟨-, -, e0, e1, -⟩ := idx_facts t
  unfold iblk0
  rw [View.read_apply]
  show V c main_v0 _ = V c main_v0 _
  refine congrArg (V c main_v0) ?_
  funext x
  apply Fin.ext
  match x with
  | ⟨0, _⟩ => show win0_1.index t (0 : Fin 2) * 1024 + 1 * a.val = a.val; rw [e0]; omega
  | ⟨1, _⟩ => show win0_1.index t (1 : Fin 2) * 1024 + 1 * b.val = b.val; rw [e1]; omega

/-- The value weight block is Wv whole, at every point. -/
theorem valW_block (c : Dev nD) (t : Fin cfg0.N) (a b : Fin 1024) :
    (iblk0 V c 2 t : Vec Ideal S1024x1024 .bf16) (ix2 a b) = valW V c (ix2 a b) := by
  obtain ⟨-, -, -, -, e0, e1, -⟩ := idx_facts t
  unfold iblk0
  rw [View.read_apply]
  show V c main_v1 _ = V c main_v1 _
  refine congrArg (V c main_v1) ?_
  funext x
  apply Fin.ext
  match x with
  | ⟨0, _⟩ => show win0_2.index t (0 : Fin 2) * 1024 + 1 * a.val = a.val; rw [e0]; omega
  | ⟨1, _⟩ => show win0_2.index t (1 : Fin 2) * 1024 + 1 * b.val = b.val; rw [e1]; omega

/-! ## Rows and blocks -/

/-- A row r lies in the block of rows of the point r / 1024. -/
theorem row_in_block (r : Nat) : r / 1024 * 1024 ≤ r ∧ r < r / 1024 * 1024 + 1024 := by omega

/-- Every column lies in the one block of columns. -/
theorem col_in_block (q : Nat) (h : q < 1024) : 0 * 1024 ≤ q ∧ q < 0 * 1024 + 1024 := by omega

/-- The point whose block holds row r: r / 1024, one of the 8 points. -/
theorem point_of_row (r : Fin 8192) : ∃ t : Fin cfg0.N, t.val = r.val / 1024 :=
  ⟨⟨r.val / 1024, by have := r.isLt; rw [show cfg0.N = 8 from N_0]; omega⟩, rfl⟩

/-! ## A block's product as a part of the array's -/

/-- If x0 is rows 1024 n … 1024 n + 1023 of X and w is W, then the product of row p of x0 with row q of w is the product
    of row i0 of X with row i1 of W, whenever (i0, i1) = (1024 n + p, q). -/
theorem rows_dot_point (x0 : Vec Ideal S1024x1024 .f32) (w : Vec Ideal S1024x1024 .bf16)
    (X : S8192x1024.Idx → EReal) (W : S1024x1024.Idx → EReal) (n : Nat)
    (hx : ∀ (p d : Fin 1024) (r : Fin 8192), r.val = 1024 * n + p.val → x0 (ix2 p d) = X (ix2 r d))
    (hw : ∀ a b : Fin 1024, w (ix2 a b) = W (ix2 a b))
    (p q : Fin 1024) (i0 : Fin 8192) (i1 : Fin 1024) (h0 : i0.val = 1024 * n + p.val) (h1 : i1.val = q.val) :
    ∑ d : Fin 1024, x0 (ix2 p d) * w (ix2 q d) = ∑ d : Fin 1024, X (ix2 i0 d) * W (ix2 i1 d) := by
  obtain rfl : q = i1 := Fin.ext h1.symm
  refine Finset.sum_congr rfl fun d _ => ?_
  rw [hx p d i0 h0, hw]

/-! ## The key array (window 3) -/

/-- The key array as a function of X and the key weights: at (r, q) the sum over d of X[r, d] * W[q, d]. -/
abbrev keysOf (c : Dev nD) : S8192x1024.Idx → EReal :=
  fun i => ∑ d : Fin 1024, rowsArr V c (ix2 (i 0 : Fin 8192) d) * keyW V c (ix2 (i 1 : Fin 1024) d)

/-- What point t writes back is block t of that function: the rows of the block are rows 1024 t … of X, the weight
    block is the weight array, and the rounding on either side of the product is the identity at the ideal values. -/
theorem flushed3_eq (c : Dev nD) (t : Fin cfg0.N) :
    (dat0 (F := Ideal) V c).flushed 3 t = ((cfg0.win 3).blk t).view.read (Elt Ideal) (keysOf V c) := by
  show (cfg0.win 3).cut (grid0.coords t) ((dat0 (F := Ideal) V c).after 3 t) = _
  rw [after0_3]
  have e0 : win0_3.index t (0 : Fin 2) = t.val := (idx_facts t).2.2.2.2.2.2.1
  have e1 : win0_3.index t (1 : Fin 2) = 0 := (idx_facts t).2.2.2.2.2.2.2.1
  refine funext fun (j : S1024x1024.Idx) => ?_
  show out0_3 (F := Ideal) (iblk0 V c 0 t) (iblk0 V c 1 t) j = keysOf V c (((cfg0.win 3).blk t).view.emb j)
  obtain ⟨p, q, rfl⟩ : ∃ (p q : Fin 1024), j = ix2 p q := ⟨j 0, j 1, eq_ix2 j⟩
  rw [out0_3_apply]
  have h0 : ((((cfg0.win 3).blk t).view.emb (ix2 p q) : S8192x1024.Idx) 0).val = 1024 * t.val + p.val := by
    show win0_3.index t (0 : Fin 2) * 1024 + 1 * p.val = 1024 * t.val + p.val; rw [e0]; omega
  have h1 : ((((cfg0.win 3).blk t).view.emb (ix2 p q) : S8192x1024.Idx) 1).val = q.val := by
    show win0_3.index t (1 : Fin 2) * 1024 + 1 * q.val = q.val; rw [e1]; omega
  exact rows_dot_point (iblk0 V c 0 t) (iblk0 V c 1 t) (rowsArr V c) (keyW V c) t.val
    (fun p d r hr => rows_block V c t p d r hr) (fun a b => keyW_block V c t a b) p q _ _ h0 h1

/-- An index of the array is in point t's block iff each coordinate is in the block's range on its axis. -/
theorem mem_blk3 (t : Fin cfg0.N) (i : S8192x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4_0).slice (win0_3.rect t)).set ↔ _
  rw [View.set_slice_whole, Rect.mem_set_unit]
  exact Iff.rfl

/-- Every index of the array is in the block of the point its row selects. -/
theorem cover3 (i : S8192x1024.Idx) : ∃ t : Fin cfg0.N, (cfg0.win 3).flush t = true ∧ i ∈ ((cfg0.win 3).blk t).view.set := by
  obtain ⟨t, ht⟩ := point_of_row (i 0)
  have hi1 : (i 1).val < 1024 := (i 1).isLt
  have e0 : win0_3.index t (0 : Fin 2) = t.val := (idx_facts t).2.2.2.2.2.2.1
  have e1 : win0_3.index t (1 : Fin 2) = 0 := (idx_facts t).2.2.2.2.2.2.2.1
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e0, ht]; exact row_in_block (i 0).val
  | ⟨1, _⟩ =>
    show win0_3.index t (1 : Fin 2) * 1024 ≤ (i 1).val ∧ (i 1).val < win0_3.index t (1 : Fin 2) * 1024 + 1024
    rw [e1]; exact col_in_block (i 1).val hi1

/-- The key array ends as that function of X and the weights. -/
theorem final0_3 (c : Dev nD) : (dat0 (F := Ideal) V c).arrAt 3 cfg0.N
    = (fun i : S8192x1024.Idx => ∑ d : Fin 1024, rowsArr V c (ix2 (i 0 : Fin 8192) d) * keyW V c (ix2 (i 1 : Fin 1024) d)) :=
  (dat0 (F := Ideal) V c).arrAt_eq_of_cover 3 (keysOf V c) (fun t _ => flushed3_eq V c t) cover3

/-! ## The value array (window 4) -/

/-- The value array as a function of X and the value weights: at (r, q) the sum over d of X[r, d] * W[q, d]. -/
abbrev valuesOf (c : Dev nD) : S8192x1024.Idx → EReal :=
  fun i => ∑ d : Fin 1024, rowsArr V c (ix2 (i 0 : Fin 8192) d) * valW V c (ix2 (i 1 : Fin 1024) d)

/-- What point t writes back is block t of that function: the rows of the block are rows 1024 t … of X, the weight
    block is the weight array, and the rounding on either side of the product is the identity at the ideal values. -/
theorem flushed4_eq (c : Dev nD) (t : Fin cfg0.N) :
    (dat0 (F := Ideal) V c).flushed 4 t = ((cfg0.win 4).blk t).view.read (Elt Ideal) (valuesOf V c) := by
  show (cfg0.win 4).cut (grid0.coords t) ((dat0 (F := Ideal) V c).after 4 t) = _
  rw [after0_4]
  have e0 : win0_4.index t (0 : Fin 2) = t.val := (idx_facts t).2.2.2.2.2.2.2.2.1
  have e1 : win0_4.index t (1 : Fin 2) = 0 := (idx_facts t).2.2.2.2.2.2.2.2.2.1
  refine funext fun (j : S1024x1024.Idx) => ?_
  show out0_4 (F := Ideal) (iblk0 V c 0 t) (iblk0 V c 2 t) j = valuesOf V c (((cfg0.win 4).blk t).view.emb j)
  obtain ⟨p, q, rfl⟩ : ∃ (p q : Fin 1024), j = ix2 p q := ⟨j 0, j 1, eq_ix2 j⟩
  rw [out0_4_apply]
  have h0 : ((((cfg0.win 4).blk t).view.emb (ix2 p q) : S8192x1024.Idx) 0).val = 1024 * t.val + p.val := by
    show win0_4.index t (0 : Fin 2) * 1024 + 1 * p.val = 1024 * t.val + p.val; rw [e0]; omega
  have h1 : ((((cfg0.win 4).blk t).view.emb (ix2 p q) : S8192x1024.Idx) 1).val = q.val := by
    show win0_4.index t (1 : Fin 2) * 1024 + 1 * q.val = q.val; rw [e1]; omega
  exact rows_dot_point (iblk0 V c 0 t) (iblk0 V c 2 t) (rowsArr V c) (valW V c) t.val
    (fun p d r hr => rows_block V c t p d r hr) (fun a b => valW_block V c t a b) p q _ _ h0 h1

/-- An index of the array is in point t's block iff each coordinate is in the block's range on its axis. -/
theorem mem_blk4 (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v4_1).slice (win0_4.rect t)).set ↔ _
  rw [View.set_slice_whole, Rect.mem_set_unit]
  exact Iff.rfl

/-- Every index of the array is in the block of the point its row selects. -/
theorem cover4 (i : S8192x1024.Idx) : ∃ t : Fin cfg0.N, (cfg0.win 4).flush t = true ∧ i ∈ ((cfg0.win 4).blk t).view.set := by
  obtain ⟨t, ht⟩ := point_of_row (i 0)
  have hi1 : (i 1).val < 1024 := (i 1).isLt
  have e0 : win0_4.index t (0 : Fin 2) = t.val := (idx_facts t).2.2.2.2.2.2.2.2.1
  have e1 : win0_4.index t (1 : Fin 2) = 0 := (idx_facts t).2.2.2.2.2.2.2.2.2.1
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    rw [e0, ht]; exact row_in_block (i 0).val
  | ⟨1, _⟩ =>
    show win0_4.index t (1 : Fin 2) * 1024 ≤ (i 1).val ∧ (i 1).val < win0_4.index t (1 : Fin 2) * 1024 + 1024
    rw [e1]; exact col_in_block (i 1).val hi1

/-- The value array ends as that function of X and the weights. -/
theorem final0_4 (c : Dev nD) : (dat0 (F := Ideal) V c).arrAt 4 cfg0.N
    = (fun i : S8192x1024.Idx => ∑ d : Fin 1024, rowsArr V c (ix2 (i 0 : Fin 8192) d) * valW V c (ix2 (i 1 : Fin 1024) d)) :=
  (dat0 (F := Ideal) V c).arrAt_eq_of_cover 4 (valuesOf V c) (fun t _ => flushed4_eq V c t) cover4

/-! ## The rounded copy of the rows (window 5) -/

/-- What point t writes back is block t of X: rounding to the narrow format is the identity at the ideal values. -/
theorem flushed5_eq (c : Dev nD) (t : Fin cfg0.N) :
    (dat0 (F := Ideal) V c).flushed 5 t = ((cfg0.win 5).blk t).view.read (Elt Ideal) (rowsArr V c) := by
  show (cfg0.win 5).cut (grid0.coords t) ((dat0 (F := Ideal) V c).after 5 t) = _
  rw [after0_5]
  obtain ⟨-, -, -, -, -, -, -, -, -, -, e0, e1⟩ := idx_facts t
  have ht : t.val < 8 := lt_of_lt_of_eq t.isLt N_0
  refine funext fun (j : S1024x1024.Idx) => ?_
  show out0_5 (F := Ideal) (iblk0 V c 0 t) j = rowsArr V c (((cfg0.win 5).blk t).view.emb j)
  obtain ⟨p, q, rfl⟩ : ∃ (p q : Fin 1024), j = ix2 p q := ⟨j 0, j 1, eq_ix2 j⟩
  rw [out0_5_apply]
  refine (rows_block V c t p q ⟨1024 * t.val + p.val, by omega⟩ rfl).trans ?_
  refine congrArg (rowsArr V c) ?_
  funext a
  apply Fin.ext
  match a with
  | ⟨0, _⟩ => show 1024 * t.val + p.val = win0_5.index t (0 : Fin 2) * 1024 + 1 * p.val; rw [e0]; omega
  | ⟨1, _⟩ => show q.val = win0_5.index t (1 : Fin 2) * 1024 + 1 * q.val; rw [e1]; omega

/-- An index of the array is in point t's block iff each coordinate is in the block's range on its axis. -/
theorem mem_blk5 (t : Fin cfg0.N) (i : S8192x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4_2).slice (win0_5.rect t)).set ↔ _
  rw [View.set_slice_whole, Rect.mem_set_unit]
  exact Iff.rfl

/-- Every index of the array is in the block of the point its row selects. -/
theorem cover5 (i : S8192x1024.Idx) : ∃ t : Fin cfg0.N, (cfg0.win 5).flush t = true ∧ i ∈ ((cfg0.win 5).blk t).view.set := by
  obtain ⟨t, ht⟩ := point_of_row (i 0)
  have hi1 : (i 1).val < 1024 := (i 1).isLt
  have e0 : win0_5.index t (0 : Fin 2) = t.val := (idx_facts t).2.2.2.2.2.2.2.2.2.2.1
  have e1 : win0_5.index t (1 : Fin 2) = 0 := (idx_facts t).2.2.2.2.2.2.2.2.2.2.2
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    rw [e0, ht]; exact row_in_block (i 0).val
  | ⟨1, _⟩ =>
    show win0_5.index t (1 : Fin 2) * 1024 ≤ (i 1).val ∧ (i 1).val < win0_5.index t (1 : Fin 2) * 1024 + 1024
    rw [e1]; exact col_in_block (i 1).val hi1

/-- The rounded copy of the rows ends as X. -/
theorem final0_5 (c : Dev nD) : (dat0 (F := Ideal) V c).arrAt 5 cfg0.N = (fun i : S8192x1024.Idx => rowsArr V c i) :=
  (dat0 (F := Ideal) V c).arrAt_eq_of_cover 5 (rowsArr V c) (fun t _ => flushed5_eq V c t) cover5

end Cert.KernelIdeal.KvFinal

end
-- ==== Proof.EntryVals.lean ====
/-
  What the attention region finds in its four input arrays, at the ideal instance, as functions of the launch
  arguments x, wq, wk, wv. The first host stretch recasts the weights (the identity on extended reals) and reshapes x to
  rows, row b·2048 + s being x[b, s, ·]; the projection region leaves the row array itself in its third output and the
  products of the rows with the rows of wk and of wv in the first two; the second host stretch reshapes the three back
  to [4, 2048, 1024]. So the attention region reads x itself, wq itself, and K[b,s,e] = Σ_d x[b,s,d]·wk[e,d],
  V[b,s,e] = Σ_d x[b,s,d]·wv[e,d].
-/
import proofs.«154186_j59107339927929_2_alg».proof.Proof.Run
import proofs.«154186_j59107339927929_2_alg».proof.Proof.KvFinal
import Idealize.ShloMosaic.Lib.StableHlo.Run
import Idealize.ShloMosaic.Lib.ValueIdx
import Idealize.ShloMosaic.Lib.Pipeline.Value

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Hand Cert.KernelIdeal.KvFinal Idealize.ShloMosaic.ValueIdx

variable (m : (ℓ : Loc nD τ sig) → Buf (Elt Ideal) ℓ) (ρ : Dev nD → PrngReg)

/-- The launch arguments on core `c`, as arrays of extended reals. -/
abbrev xArr (c : Dev nD) : S4x2048x1024.Idx → EReal := m ((c.tc : Thread nD τ).loc main_arg0)
abbrev wqArr (c : Dev nD) : S1024x1024.Idx → EReal := m ((c.tc : Thread nD τ).loc main_arg3)
abbrev wkArr (c : Dev nD) : S1024x1024.Idx → EReal := m ((c.tc : Thread nD τ).loc main_arg4)
abbrev wvArr (c : Dev nD) : S1024x1024.Idx → EReal := m ((c.tc : Thread nD τ).loc main_arg5)

/-! ## After the first host stretch -/

theorem U1_v3 (c : Dev nD) : (U1 (F := Ideal) m ρ c main_v3 : S8192x1024.Idx → EReal)
    = shapeCast S8192x1024 (xArr m c) shapeCasts_S4x2048x1024_S8192x1024 := by
  show StableHlo.after hostOps0 (W0 m ρ c) (Proc.devRef .tc main_v3) = _
  after_results
  rfl

theorem U1_v0 (c : Dev nD) : (U1 (F := Ideal) m ρ c main_v0 : S1024x1024.Idx → EReal) = wkArr m c := by
  show StableHlo.after hostOps0 (W0 m ρ c) (Proc.devRef .tc main_v0) = _
  after_results
  rfl

theorem U1_v1 (c : Dev nD) : (U1 (F := Ideal) m ρ c main_v1 : S1024x1024.Idx → EReal) = wvArr m c := by
  show StableHlo.after hostOps0 (W0 m ρ c) (Proc.devRef .tc main_v1) = _
  after_results
  rfl

theorem U1_v2 (c : Dev nD) : (U1 (F := Ideal) m ρ c main_v2 : S1024x1024.Idx → EReal) = wqArr m c := by
  show StableHlo.after hostOps0 (W0 m ρ c) (Proc.devRef .tc main_v2) = _
  after_results
  rfl

/-- Row b·2048 + s of the row array is x[b, s, ·]. -/
theorem rows_at (c : Dev nD) (b : Fin 4) (s : Fin 2048) (d : Fin 1024) (R : Fin 8192) (hR : R.val = b.val * 2048 + s.val) :
    (U1 (F := Ideal) m ρ c main_v3 : S8192x1024.Idx → EReal) (ix2 R d) = xArr m c (ix3 b s d) := by
  rw [U1_v3]
  exact shapeCast_apply _ _ _ _ (by
    rw [Shape.rowMajor_val_three, Shape.rowMajor_val_two]
    show (b.val * 2048 + s.val) * 1024 + d.val = R.val * 1024 + d.val
    rw [hR])

/-! ## After the projection region and the second host stretch -/

/-- A [8192, 1024] array reshaped to [4, 2048, 1024] reads, at (b, s, e), row b·2048 + s. -/
theorem unrow_at (y : S8192x1024.Idx → EReal) (b : Fin 4) (s : Fin 2048) (e : Fin 1024) (R : Fin 8192) (hR : R.val = b.val * 2048 + s.val) :
    shapeCast S4x2048x1024 y shapeCasts_S8192x1024_S4x2048x1024 (ix3 b s e) = y (ix2 R e) :=
  shapeCast_apply _ _ _ _ (by
    rw [Shape.rowMajor_val_three, Shape.rowMajor_val_two]
    show R.val * 1024 + e.val = (b.val * 2048 + s.val) * 1024 + e.val
    rw [hR])

theorem U3_v7 (c : Dev nD) : (U3 (F := Ideal) m ρ c main_v7 : S4x2048x1024.Idx → EReal)
    = shapeCast S4x2048x1024 ((dat0 (U1 m ρ) c).arrAt 5 cfg0.N : S8192x1024.Idx → EReal) shapeCasts_S8192x1024_S4x2048x1024 := by
  show StableHlo.after hostOps1 (W2 m ρ c) (Proc.devRef .tc main_v7) = _
  after_results
  rw [← W2_arr m ρ c 5]
  rfl

theorem U3_v5 (c : Dev nD) : (U3 (F := Ideal) m ρ c main_v5 : S4x2048x1024.Idx → EReal)
    = shapeCast S4x2048x1024 ((dat0 (U1 m ρ) c).arrAt 3 cfg0.N : S8192x1024.Idx → EReal) shapeCasts_S8192x1024_S4x2048x1024 := by
  show StableHlo.after hostOps1 (W2 m ρ c) (Proc.devRef .tc main_v5) = _
  after_results
  rw [← W2_arr m ρ c 3]
  rfl

theorem U3_v6 (c : Dev nD) : (U3 (F := Ideal) m ρ c main_v6 : S4x2048x1024.Idx → EReal)
    = shapeCast S4x2048x1024 ((dat0 (U1 m ρ) c).arrAt 4 cfg0.N : S8192x1024.Idx → EReal) shapeCasts_S8192x1024_S4x2048x1024 := by
  show StableHlo.after hostOps1 (W2 m ρ c) (Proc.devRef .tc main_v6) = _
  after_results
  rw [← W2_arr m ρ c 4]
  rfl

/-- The query weights reach the attention region as launched: neither host stretch after the first writes them and the
    projection region does not stage them. -/
theorem U3_v2 (c : Dev nD) : (U3 (F := Ideal) m ρ c main_v2 : S1024x1024.Idx → EReal) = wqArr m c :=
  calc (U3 (F := Ideal) m ρ c main_v2 : S1024x1024.Idx → EReal)
    _ = W2 m ρ c (Proc.devRef .tc main_v2) := StableHlo.after_of_writes_sub hostOps1 _ hostOps1_writes (by decide)
    _ = W1 m ρ c (Proc.devRef .tc main_v2) := W2_of_ne m ρ c main_v2 (by decide)
    _ = wqArr m c := U1_v2 m ρ c

/-- The attention region reads x itself. -/
theorem xb_at (c : Dev nD) (b : Fin 4) (s : Fin 2048) (d : Fin 1024) :
    (U3 (F := Ideal) m ρ c main_v7 : S4x2048x1024.Idx → EReal) (ix3 b s d) = xArr m c (ix3 b s d) := by
  have hR : (⟨b.val * 2048 + s.val, by omega⟩ : Fin 8192).val = b.val * 2048 + s.val := rfl
  rw [U3_v7, unrow_at _ b s d _ hR, final0_5]
  exact rows_at m ρ c b s d _ hR

/-- The keys it reads are the products of the rows of x with the rows of wk. -/
theorem keys_at (c : Dev nD) (b : Fin 4) (s : Fin 2048) (e : Fin 1024) :
    (U3 (F := Ideal) m ρ c main_v5 : S4x2048x1024.Idx → EReal) (ix3 b s e) = ∑ d : Fin 1024, xArr m c (ix3 b s d) * wkArr m c (ix2 e d) := by
  have hR : (⟨b.val * 2048 + s.val, by omega⟩ : Fin 8192).val = b.val * 2048 + s.val := rfl
  rw [U3_v5, unrow_at _ b s e _ hR, final0_3]
  show (∑ d : Fin 1024, rowsArr (U1 (F := Ideal) m ρ) c (ix2 (⟨b.val * 2048 + s.val, by omega⟩ : Fin 8192) d)
      * keyW (U1 (F := Ideal) m ρ) c (ix2 e d)) = _
  exact Finset.sum_congr rfl fun d _ => congrArg₂ (· * ·) (rows_at m ρ c b s d _ hR) (congrFun (U1_v0 m ρ c) (ix2 e d))

/-- The values likewise, with wv. -/
theorem values_at (c : Dev nD) (b : Fin 4) (s : Fin 2048) (e : Fin 1024) :
    (U3 (F := Ideal) m ρ c main_v6 : S4x2048x1024.Idx → EReal) (ix3 b s e) = ∑ d : Fin 1024, xArr m c (ix3 b s d) * wvArr m c (ix2 e d) := by
  have hR : (⟨b.val * 2048 + s.val, by omega⟩ : Fin 8192).val = b.val * 2048 + s.val := rfl
  rw [U3_v6, unrow_at _ b s e _ hR, final0_4]
  show (∑ d : Fin 1024, rowsArr (U1 (F := Ideal) m ρ) c (ix2 (⟨b.val * 2048 + s.val, by omega⟩ : Fin 8192) d)
      * valW (U1 (F := Ideal) m ρ) c (ix2 e d)) = _
  exact Finset.sum_congr rfl fun d _ => congrArg₂ (· * ·) (rows_at m ρ c b s d _ hR) (congrFun (U1_v1 m ρ c) (ix2 e d))

end Cert.KernelIdeal.Entry

end
-- ==== Proof.AttnPieces.lean ====
/-
  The attention body's stores, read back. Every store of the body fills one whole buffer, so after a point each
  scratch buffer and the output buffer holds the payload of its last store. At a point whose key tile is the first,
  the loads that follow the reset read the reset values back: the projected query tile, the running maximum -∞,
  the running normaliser 0 and the running weighted sum 0. At a point whose key tile is the last, the loads read
  what the point before left. The final division reads the weighted sum and the normaliser just stored.
-/
import proofs.«154186_j59107339927929_2_alg».proof.Proof.AttnRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Zero offsets at rank two, -/
theorem hz2 : (![0, 0] : Fin 2 → Nat) = fun _ => 0 := funext fun a => by fin_cases a <;> rfl
/-- and at rank three. -/
theorem hz3 : (![0, 0, 0] : Fin 3 → Nat) = fun _ => 0 := funext fun a => by fin_cases a <;> rfl

set_option maxHeartbeats 4000000 in
/-- First key tile: the projected query tile, the input block contracted with the query weights. -/
theorem sout1_A_0_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) :
    sout1_A_0 c i arg3 harg3 arg4 harg4 arg5 harg5 arg6 harg6 arg7 harg7 arg8 harg8 arg9 harg9 arg10 harg10 arg11 harg11 hc0 hc1 x0 x1 x2 x3 = k1_pay4 x0 x1 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_unit_zero (S := S512x1024) hz2]
  simp only [View.readAt_eq_ld, harg3.read_unread, harg4.read_unread, harg5.read_unread, harg6.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- First key tile: the running maximum, the larger of -∞ and the row maxima of the first block of scores. -/
theorem sout1_A_1_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) :
    sout1_A_1 c i arg3 harg3 arg4 harg4 arg5 harg5 arg6 harg6 arg7 harg7 arg8 harg8 arg9 harg9 arg10 harg10 arg11 harg11 hc0 hc1 x0 x1 x2 x3 = k1_pay2 (k1_pay10 (k1_pay4 x0 x1) x2 k1_pay5) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1) hz2, View.readCov_unit_zero (S := S512x1024) _ hz2, View.readCov_unit_zero (S := S512x1) _ hz2]
  simp only [View.readAt_eq_ld, harg3.read_unread, harg4.read_unread, harg5.read_unread, harg6.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- First key tile: the running normaliser, the rescaled 0 plus the row sums of the first block's weights. -/
theorem sout1_A_2_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) :
    sout1_A_2 c i arg3 harg3 arg4 harg4 arg5 harg5 arg6 harg6 arg7 harg7 arg8 harg8 arg9 harg9 arg10 harg10 arg11 harg11 hc0 hc1 x0 x1 x2 x3 = k1_pay13 (k1_pay4 x0 x1) x2 k1_pay5 k1_pay6 := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1) hz2, View.readCov_unit_zero (S := S512x1024) _ hz2, View.readCov_unit_zero (S := S512x1) _ hz2, View.readCov_unit_zero (S := S512x1) _ hz2]
  simp only [View.readAt_eq_ld, harg3.read_unread, harg4.read_unread, harg5.read_unread, harg6.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- First key tile: the running weighted sum, the rescaled 0 plus the first block's weights times its values. -/
theorem sout1_A_3_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : ¬cond1_1 i)
    (x0 : Vec F S1x512x1024 .bf16) (x1 : Vec F S1024x1024 .bf16) (x2 : Vec F S1x1024x1024 .bf16) (x3 : Vec F S1x1024x1024 .bf16) :
    sout1_A_3 c i arg3 harg3 arg4 harg4 arg5 harg5 arg6 harg6 arg7 harg7 arg8 harg8 arg9 harg9 arg10 harg10 arg11 harg11 hc0 hc1 x0 x1 x2 x3 = k1_pay1 (k1_pay8 x3) (k1_pay14 (k1_pay4 x0 x1) x2 k1_pay5 k1_pay7) (k1_pay15 (k1_pay4 x0 x1) x2 k1_pay5) (constant S512x1024 .f32 0x00000000#32) := by
  unfold sout1_A_3
  rw [View.read_writes_eq_canon _ _ _ (scover1_A_3 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1024) hz2, View.readCov_unit_zero (S := S512x1024) _ hz2, View.readCov_unit_zero (S := S512x1) _ hz2, View.readCov_unit_zero (S := S512x1024) _ hz2]
  simp only [View.readAt_eq_ld, harg3.read_unread, harg4.read_unread, harg5.read_unread, harg6.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- Last key tile: the running maximum over what the point before left. -/
theorem sout1_B_1_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) :
    sout1_B_1 c i arg3 harg3 arg4 harg4 arg5 harg5 arg6 harg6 arg7 harg7 arg8 harg8 arg9 harg9 arg10 harg10 arg11 harg11 hc0 hc1 x0 x1 x2 x3 xs0 xs1 xs2 xs3 = k1_pay2 (k1_pay10 xs0 x2 xs1) := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S512x1) hz2]
  simp only [View.readAt_eq_ld, harg3.read_unread, harg4.read_unread, harg5.read_unread, harg6.read_unread, harg8.read_unread, harg9.read_unread, harg10.read_unread, harg11.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- Last key tile: the running normaliser over what the point before left. -/
theorem sout1_B_2_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) :
    sout1_B_2 c i arg3 harg3 arg4 harg4 arg5 harg5 arg6 harg6 arg7 harg7 arg8 harg8 arg9 harg9 arg10 harg10 arg11 harg11 hc0 hc1 x0 x1 x2 x3 xs0 xs1 xs2 xs3 = k1_pay13 xs0 x2 xs1 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S512x1) hz2]
  simp only [View.readAt_eq_ld, harg3.read_unread, harg4.read_unread, harg5.read_unread, harg6.read_unread, harg8.read_unread, harg9.read_unread, harg10.read_unread, harg11.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- Last key tile: the running weighted sum over what the point before left. -/
theorem sout1_B_3_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) :
    sout1_B_3 c i arg3 harg3 arg4 harg4 arg5 harg5 arg6 harg6 arg7 harg7 arg8 harg8 arg9 harg9 arg10 harg10 arg11 harg11 hc0 hc1 x0 x1 x2 x3 xs0 xs1 xs2 xs3 = k1_pay1 (k1_pay8 x3) (k1_pay14 xs0 x2 xs1 xs3) (k1_pay15 xs0 x2 xs1) (constant S512x1024 .f32 0x00000000#32) := by
  unfold sout1_B_3
  rw [View.read_writes_eq_canon _ _ _ (scover1_B_3 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S512x1024) hz2]
  simp only [View.readAt_eq_ld, harg3.read_unread, harg4.read_unread, harg5.read_unread, harg6.read_unread, harg8.read_unread, harg9.read_unread, harg10.read_unread, harg11.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

set_option maxHeartbeats 4000000 in
/-- Last key tile: the output block, the weighted sum just stored divided by the normaliser just stored. -/
theorem out1_B_4_eq (c : Dev nD) (i : grid1.Coords) (arg3 : Memref sig .tc .vmem S1x512x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .bf16) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i)
    (x0 : Vec F S1x512x1024 .bf16) (x1 : Vec F S1024x1024 .bf16) (x2 : Vec F S1x1024x1024 .bf16) (x3 : Vec F S1x1024x1024 .bf16) (xs0 : Vec F S512x1024 .bf16) (xs1 : Vec F S512x1 .f32) (xs2 : Vec F S512x1 .f32) (xs3 : Vec F S512x1024 .f32) :
    out1_B_4 c i arg3 harg3 arg4 harg4 arg5 harg5 arg6 harg6 arg7 harg7 arg8 harg8 arg9 harg9 arg10 harg10 arg11 harg11 hc0 hc1 x0 x1 x2 x3 xs0 xs1 xs2 xs3 = k1_pay3 (k1_pay1 (k1_pay8 x3) (k1_pay14 xs0 x2 xs1 xs3) (k1_pay15 xs0 x2 xs1) (constant S512x1024 .f32 0x00000000#32)) (k1_pay13 xs0 x2 xs1 xs2) := by
  unfold out1_B_4
  rw [View.read_writes_eq_canon _ _ _ (cover1_B_4 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_unit_zero (S := S1x512x1024) hz3, View.readCov_unit_zero (S := S512x1024) _ hz2, View.readCov_unit_zero (S := S512x1) _ hz2]
  simp only [View.readAt_eq_ld, harg3.read_unread, harg4.read_unread, harg5.read_unread, harg6.read_unread, harg8.read_unread, harg9.read_unread, harg10.read_unread, harg11.read_unread, View.ld_unit_zero (S := S1x512x1024) hz3, View.ld_unit_zero (S := S1024x1024) hz2, View.ld_unit_zero (S := S1x1024x1024) hz3, View.ld_unit_zero (S := S512x1024) hz2, View.ld_unit_zero (S := S512x1) hz2]

end Cert.KernelIdeal.Hand

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.AttnPayloads.lean ====
/-
  The attention kernel's pure values, read at an index, on the extended reals.

  One step of the streaming softmax over a tile of 512 query rows and a block of 1024 key / value rows computes, from the
  carried row maximum `m`, row sum `l` and accumulator `acc`:

    s r k  = (∑ e, q r e * key k e) * 0.03125          the scaled scores of the block
    m' r   = max (m r) (the maximum over k, from -∞, of s r k)
    a r    = exp (m r - m' r)
    p r k  = exp (s r k - m' r)
    l' r   = a r * l r + ∑ k, p r k
    acc' r e = a r * acc r e + ∑ k, p r k * value k e

  and the first step sets `q r e = ∑ d, x r d * wq e d`, `m = -∞`, `l = 0`, `acc = 0`; the last divides `acc` by `l`.
  Each theorem reads one of these values at coordinates: a matrix product into a zero accumulator as the sum of the
  operands' products along the contracted axis, a maximum along the second axis as a fold of `max` from `-∞`, a sum
  along the second axis as the sum of the row, a cast between `[a]` and `[a, 1]` or between `[1, a, b]` and `[a, b]`
  and a broadcast of a column along its rows as a re-reading of the operand, a change of float format as the identity.
-/
import proofs.«154186_j59107339927929_2_alg».proof.Proof.Gen.KernelIdeal.Skeleton
import proofs.«154186_j59107339927929_2_alg».proof.Proof.LibRowsDot
import proofs.«154186_j59107339927929_2_alg».proof.Proof.LibPlainDot
import proofs.«154186_j59107339927929_2_alg».proof.Proof.LibRowMax
import proofs.«154186_j59107339927929_2_alg».proof.Proof.LibKeepdimsColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AttnPay

open Cert.KernelIdeal Cert.KernelIdeal.Gen Idealize.ShloMosaic Idealize.ShloMosaic.ValueIdx

/-- The pattern `0xFF800000` is `-∞`. -/
theorem ofBits_negInf : Ideal.ofBits .f32 0xFF800000#32 = ⊥ := by simp [Ideal.ofBits, Ideal.ieee]

/-- The pattern `0x00000000` is `0`. -/
theorem ofBits_zero : Ideal.ofBits .f32 0x00000000#32 = 0 := by simp [Ideal.ofBits, Ideal.ieee]

/-! ## The first step's values -/

/-- The query projection of a tile: `q r e = ∑ d, x r d * wq e d`. -/
theorem pay4_at (x0 : FVec Ideal S1x512x1024 .bf16) (x1 : FVec Ideal S1024x1024 .bf16) (r : Fin 512) (e : Fin 1024) :
    k1_pay4 (F := Ideal) x0 x1 (ix2 r e) = ∑ d : Fin 1024, x0 (ix3 (0 : Fin 1) r d) * x1 (ix2 e d) := by
  unfold k1_pay4
  refine (congrFun (shapeCast_self _ _) _).trans ?_
  refine (truncf_apply (φ := .f32) (ψ := .bf16) _ _ _).trans ?_
  refine (Cert.RowsDot.matmul_zero_at_of_eq _ rfl _ _ r e).trans ?_
  refine Finset.sum_congr rfl fun d _ => ?_
  rw [shapeCast_1ab_ab_apply, shapeCast_self]

/-- The initial row maximum is `-∞`. -/
theorem pay5_at (r : Fin 512) : k1_pay5 (F := Ideal) (ix2 r (0 : Fin 1)) = ⊥ := by
  unfold k1_pay5
  refine (congrFun (shapeCast_self _ _) _).trans ?_
  exact ofBits_negInf

/-- The initial row sum is `0`. -/
theorem pay6_at (r : Fin 512) : k1_pay6 (F := Ideal) (ix2 r (0 : Fin 1)) = 0 := by
  unfold k1_pay6
  refine (congrFun (shapeCast_self _ _) _).trans ?_
  exact ofBits_zero

/-- The initial accumulator is `0`. -/
theorem pay7_at (r : Fin 512) (e : Fin 1024) : k1_pay7 (F := Ideal) (ix2 r e) = 0 := by
  unfold k1_pay7
  refine (congrFun (shapeCast_self _ _) _).trans ?_
  exact ofBits_zero

/-! ## One step of the stream -/

/-- The value block with its unit axis dropped. -/
theorem pay8_at (x3 : FVec Ideal S1x1024x1024 .bf16) (k e : Fin 1024) :
    k1_pay8 (F := Ideal) x3 (ix2 k e) = x3 (ix3 (0 : Fin 1) k e) := by
  unfold k1_pay8
  exact shapeCast_1ab_ab_apply x3 _ k e

/-- The block's scaled scores. -/
theorem pay9_at (q : FVec Ideal S512x1024 .bf16) (x2 : FVec Ideal S1x1024x1024 .bf16) (r : Fin 512) (k : Fin 1024) :
    k1_pay9 (F := Ideal) q x2 (ix2 r k)
      = (∑ e : Fin 1024, q (ix2 r e) * x2 (ix3 (0 : Fin 1) k e)) * Ideal.ofBits .f32 0x3D000000#32 := by
  unfold k1_pay9
  refine (mulf_apply _ _ _).trans ?_
  refine congrArg₂ (· * ·) ?_ rfl
  refine (Cert.RowsDot.matmul_zero_at_of_eq _ rfl q _ r k).trans ?_
  exact Finset.sum_congr rfl fun e _ => congrArg (q (ix2 r e) * ·) (shapeCast_1ab_ab_apply x2 _ k e)

/-- The new row maximum: the carried one against the block's. -/
theorem pay10_at (q : FVec Ideal S512x1024 .bf16) (x2 : FVec Ideal S1x1024x1024 .bf16) (mp : FVec Ideal S512x1 .f32)
    (r : Fin 512) :
    k1_pay10 (F := Ideal) q x2 mp (ix2 r (0 : Fin 1))
      = max (mp (ix2 r (0 : Fin 1)))
          ((Finset.univ : Finset (Fin 1024)).fold max ⊥ (fun k => k1_pay9 (F := Ideal) q x2 (ix2 r k))) := by
  unfold k1_pay10
  refine (maximumf_apply _ _ _).trans ?_
  refine congrArg (max (mp (ix2 r (0 : Fin 1)))) ?_
  refine (Cert.Gcn.Lib.shapeCast_a_a1_apply _ _ r (0 : Fin 1)).trans ?_
  refine (Cert.Lib.RowMax.rowmax_apply _ _ _ _ r).trans ?_
  rw [ofBits_negInf]

/-- The factor that rescales what was carried. -/
theorem pay11_at (q : FVec Ideal S512x1024 .bf16) (x2 : FVec Ideal S1x1024x1024 .bf16) (mp : FVec Ideal S512x1 .f32)
    (r : Fin 512) :
    k1_pay11 (F := Ideal) q x2 mp (ix2 r (0 : Fin 1))
      = Ideal.exp (mp (ix2 r (0 : Fin 1)) - k1_pay10 (F := Ideal) q x2 mp (ix2 r (0 : Fin 1))) := by
  unfold k1_pay11
  rfl

/-- The block's exponentials. -/
theorem pay12_at (q : FVec Ideal S512x1024 .bf16) (x2 : FVec Ideal S1x1024x1024 .bf16) (mp : FVec Ideal S512x1 .f32)
    (r : Fin 512) (k : Fin 1024) :
    k1_pay12 (F := Ideal) q x2 mp (ix2 r k)
      = Ideal.exp (k1_pay9 (F := Ideal) q x2 (ix2 r k) - k1_pay10 (F := Ideal) q x2 mp (ix2 r (0 : Fin 1))) := by
  unfold k1_pay12
  show Ideal.exp (k1_pay9 (F := Ideal) q x2 (ix2 r k) - _) = _
  exact congrArg (fun t => Ideal.exp (k1_pay9 (F := Ideal) q x2 (ix2 r k) - t))
    (Cert.Gcn.Lib.broadcastTo_a1_ab_apply _ _ r k)

/-- The new row sum. -/
theorem pay13_at (q : FVec Ideal S512x1024 .bf16) (x2 : FVec Ideal S1x1024x1024 .bf16) (mp lp : FVec Ideal S512x1 .f32)
    (r : Fin 512) :
    k1_pay13 (F := Ideal) q x2 mp lp (ix2 r (0 : Fin 1))
      = k1_pay11 (F := Ideal) q x2 mp (ix2 r (0 : Fin 1)) * lp (ix2 r (0 : Fin 1))
        + ∑ k : Fin 1024, k1_pay12 (F := Ideal) q x2 mp (ix2 r k) := by
  unfold k1_pay13
  refine (congrFun (shapeCast_self _ _) _).trans ?_
  refine (addf_apply _ _ _).trans ?_
  refine congrArg₂ (· + ·) rfl ?_
  refine (Cert.Gcn.Lib.shapeCast_a_a1_apply _ _ r (0 : Fin 1)).trans ?_
  exact Cert.Gcn.Lib.rowsum_apply _ _ _ _ r

/-- The carried accumulator rescaled. -/
theorem pay14_at (q : FVec Ideal S512x1024 .bf16) (x2 : FVec Ideal S1x1024x1024 .bf16) (mp : FVec Ideal S512x1 .f32)
    (ap : FVec Ideal S512x1024 .f32) (r : Fin 512) (e : Fin 1024) :
    k1_pay14 (F := Ideal) q x2 mp ap (ix2 r e) = k1_pay11 (F := Ideal) q x2 mp (ix2 r (0 : Fin 1)) * ap (ix2 r e) := by
  unfold k1_pay14
  refine (mulf_apply _ _ _).trans ?_
  exact congrArg (· * ap (ix2 r e)) (Cert.Gcn.Lib.broadcastTo_a1_ab_apply _ _ r e)

/-- The exponentials in the narrower format are the exponentials. -/
theorem pay15_at (q : FVec Ideal S512x1024 .bf16) (x2 : FVec Ideal S1x1024x1024 .bf16) (mp : FVec Ideal S512x1 .f32)
    (r : Fin 512) (k : Fin 1024) :
    k1_pay15 (F := Ideal) q x2 mp (ix2 r k) = k1_pay12 (F := Ideal) q x2 mp (ix2 r k) := rfl

/-- The new accumulator: the rescaled one plus the exponentials against the value block. -/
theorem pay1_at (v7 : FVec Ideal S1024x1024 .bf16) (v30 : FVec Ideal S512x1024 .f32) (v31 : FVec Ideal S512x1024 .bf16)
    (r : Fin 512) (e : Fin 1024) :
    k1_pay1 (F := Ideal) v7 v30 v31 (constant (F := Ideal) S512x1024 .f32 0x00000000#32) (ix2 r e)
      = v30 (ix2 r e) + ∑ k : Fin 1024, v31 (ix2 r k) * v7 (ix2 k e) := by
  unfold k1_pay1
  refine (congrFun (shapeCast_self _ _) _).trans ?_
  refine (addf_apply _ _ _).trans ?_
  refine congrArg (v30 (ix2 r e) + ·) ?_
  exact congrFun (Cert.Lib.PlainDot.matmul_zero_eq _ rfl none v31 v7) (ix2 r e)

/-- The new row maximum is stored as it is. -/
theorem pay2_eq (v14 : FVec Ideal S512x1 .f32) : k1_pay2 (F := Ideal) v14 = v14 := by
  unfold k1_pay2
  exact shapeCast_self _ _

/-! ## The last step -/

/-- The result: the accumulator divided by the row sum. -/
theorem pay3_at (acc : FVec Ideal S512x1024 .f32) (l : FVec Ideal S512x1 .f32) (r : Fin 512) (e : Fin 1024) :
    k1_pay3 (F := Ideal) acc l (ix3 (0 : Fin 1) r e) = Ideal.div (acc (ix2 r e)) (l (ix2 r (0 : Fin 1))) := by
  unfold k1_pay3
  refine (shapeCast_ab_1ab_apply _ _ (0 : Fin 1) r e).trans ?_
  refine (divf_apply _ _ _).trans ?_
  exact congrArg (Ideal.div (acc (ix2 r e))) (Cert.Gcn.Lib.broadcastTo_a1_ab_apply _ _ r e)

end Cert.KernelIdeal.AttnPay

end
-- ==== Proof.LibFlashLaw.lean ====
/-
  Streaming softmax accumulation against whole-row softmax, over the extended reals.

  One query row has 2·|κ| real scores, in two blocks s0, s1 : κ → ℝ, and one real value per
  score, v0, v1 : κ → ℝ.  Write R0 = max s0, R1 = max s1, M = max R0 R1,

      Z = Σ exp (s0 k − M) + Σ exp (s1 k − M),
      N = Σ exp (s0 k − M) · v0 k + Σ exp (s1 k − M) · v1 k.

  The streaming pass starts from the state (m, l, acc) = (−∞, 0, 0) and, for each block with
  scores s and values v, moves to

      m' = max m (max s),  l' = exp (m − m') · l + Σ exp (s k − m'),
      acc' = exp (m − m') · acc + Σ exp (s k − m') · v k,

  and finally returns acc / l.  On the extended reals exp (−∞) = 0 and −∞ − r = −∞, so the
  first block's rescaling factor is 0 and the state after it is (R0, Σ exp (s0 k − R0),
  Σ exp (s0 k − R0) · v0 k), all real.  The second block multiplies these by exp (R0 − M); since
  exp (R0 − M) · exp (x − R0) = exp (x − M), the final state is (M, Z, N), and Z > 0 because a
  block is not empty, so the result is the real number N / Z.

  The whole-row pass takes the maximum of all scores first (the same M, because the two blocks
  enumerate the row), then E i = exp (s i − M), the sum Σ E i = Z, and returns
  Σ (E i / Z) · v i = (Σ E i · v i) / Z = N / Z.
-/
import Mathlib
import Idealize.ShloMosaic.PureOps.Ideal

open scoped BigOperators
open Idealize.ShloMosaic

noncomputable section

namespace Cert.FlashLaw

/-! ### Coercions of sums, products and maxima -/

/-- The coercion of a finite real sum is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A finite sum of products of coerced reals is the coercion of the real sum of products. -/
theorem sum_coe_mul_coe {ι : Type*} (S : Finset ι) (x w : ι → ℝ) :
    ∑ d ∈ S, (x d : EReal) * (w d : EReal) = ((∑ d ∈ S, x d * w d : ℝ) : EReal) := by
  rw [coe_sum]
  exact Finset.sum_congr rfl fun d _ => (EReal.coe_mul _ _).symm

/-- The coercion of a maximum of reals is the maximum of the coercions. -/
theorem coe_max (a b : ℝ) : ((max a b : ℝ) : EReal) = max (a : EReal) (b : EReal) :=
  EReal.coe_strictMono.monotone.map_max

/-- The fold of max from the bottom element over a nonempty family of coerced reals is the
    coercion of the family's real maximum. -/
theorem fold_max_coe {κ : Type*} [Fintype κ] [Nonempty κ] (s : κ → ℝ) :
    (Finset.univ : Finset κ).fold max (⊥ : EReal) (fun k => (s k : EReal))
      = ((Finset.univ.sup' Finset.univ_nonempty s : ℝ) : EReal) := by
  apply le_antisymm
  · refine (Finset.fold_max_le _).2 ⟨bot_le, fun k _ => ?_⟩
    exact EReal.coe_le_coe_iff.2 (Finset.le_sup' s (Finset.mem_univ k))
  · obtain ⟨k, _, hk⟩ := Finset.exists_mem_eq_sup' Finset.univ_nonempty s
    rw [hk]
    exact (Finset.le_fold_max _).2 (Or.inr ⟨k, Finset.mem_univ k, le_rfl⟩)

/-! ### Bit patterns -/

/-- The f32 pattern 0xFF800000 is the bottom element. -/
theorem ofBits_neg_inf_f32 : Ideal.ofBits .f32 0xFF800000#32 = ⊥ := by
  simp [Ideal.ofBits, Ideal.ieee]

/-- The f32 pattern 0x3D000000 is the real 2⁻⁵. -/
theorem ofBits_inv32_f32 : Ideal.ofBits .f32 0x3D000000#32 = (((1 : ℝ) / 32 : ℝ) : EReal) := by
  simp [Ideal.ofBits, Ideal.ieee, -EReal.coe_mul]; norm_num

/-- The f32 pattern 0x42000000 is the real 2⁵. -/
theorem ofBits_32_f32 : Ideal.ofBits .f32 0x42000000#32 = ((32 : ℝ) : EReal) := by
  simp [Ideal.ofBits, Ideal.ieee, -EReal.coe_mul]; norm_num

/-! ### Exponentials of differences -/

/-- The exponential of a difference of coerced reals is the coerced real exponential. -/
theorem exp_coe_sub_coe (x M : ℝ) :
    Ideal.exp ((x : EReal) - (M : EReal)) = ((Real.exp (x - M) : ℝ) : EReal) := by
  rw [← EReal.coe_sub, Ideal.exp_coe]

/-- Rescaling: exp (R − M) · Σ exp (s k − R) · v k = Σ exp (s k − M) · v k. -/
theorem rescale_sum_mul {κ : Type*} [Fintype κ] (s v : κ → ℝ) (R M : ℝ) :
    Real.exp (R - M) * ∑ k, Real.exp (s k - R) * v k = ∑ k, Real.exp (s k - M) * v k := by
  rw [Finset.mul_sum]
  refine Finset.sum_congr rfl fun k _ => ?_
  rw [← mul_assoc, ← Real.exp_add]
  congr 2
  ring

/-- Rescaling: exp (R − M) · Σ exp (s k − R) = Σ exp (s k − M). -/
theorem rescale_sum {κ : Type*} [Fintype κ] (s : κ → ℝ) (R M : ℝ) :
    Real.exp (R - M) * ∑ k, Real.exp (s k - R) = ∑ k, Real.exp (s k - M) := by
  rw [Finset.mul_sum]
  refine Finset.sum_congr rfl fun k _ => ?_
  rw [← Real.exp_add]
  congr 1
  ring

/-- The normalizer is positive: a block is not empty and every exponential is positive. -/
theorem den_pos {κ : Type*} [Fintype κ] [Nonempty κ] (s0 s1 : κ → ℝ) (M : ℝ) :
    0 < ∑ k, Real.exp (s0 k - M) + ∑ k, Real.exp (s1 k - M) :=
  add_pos (Finset.sum_pos (fun k _ => Real.exp_pos _) Finset.univ_nonempty)
    (Finset.sum_pos (fun k _ => Real.exp_pos _) Finset.univ_nonempty)

/-! ### The streaming pass -/

/-- The streaming pass over two blocks, each step given by its defining equation, returns N / Z. -/
theorem kernel_form_of {κ : Type*} [Fintype κ] [Nonempty κ] (s0 s1 v0 v1 : κ → ℝ)
    (m1 a1 l1 acc1 m2 a2 l2 acc2 : EReal) (p1 p2 : κ → EReal)
    (hm1 : m1 = max (⊥ : EReal) ((Finset.univ : Finset κ).fold max (⊥ : EReal) (fun k => (s0 k : EReal))))
    (ha1 : a1 = Ideal.exp ((⊥ : EReal) - m1))
    (hp1 : ∀ k, p1 k = Ideal.exp ((s0 k : EReal) - m1))
    (hl1 : l1 = a1 * 0 + ∑ k, p1 k)
    (hacc1 : acc1 = a1 * 0 + ∑ k, p1 k * (v0 k : EReal))
    (hm2 : m2 = max m1 ((Finset.univ : Finset κ).fold max (⊥ : EReal) (fun k => (s1 k : EReal))))
    (ha2 : a2 = Ideal.exp (m1 - m2))
    (hp2 : ∀ k, p2 k = Ideal.exp ((s1 k : EReal) - m2))
    (hl2 : l2 = a2 * l1 + ∑ k, p2 k)
    (hacc2 : acc2 = a2 * acc1 + ∑ k, p2 k * (v1 k : EReal)) :
    Ideal.div acc2 l2
      = (((∑ k, Real.exp (s0 k - (max (Finset.univ.sup' Finset.univ_nonempty s0) (Finset.univ.sup' Finset.univ_nonempty s1))) * v0 k + ∑ k, Real.exp (s1 k - (max (Finset.univ.sup' Finset.univ_nonempty s0) (Finset.univ.sup' Finset.univ_nonempty s1))) * v1 k)
        / (∑ k, Real.exp (s0 k - (max (Finset.univ.sup' Finset.univ_nonempty s0) (Finset.univ.sup' Finset.univ_nonempty s1))) + ∑ k, Real.exp (s1 k - (max (Finset.univ.sup' Finset.univ_nonempty s0) (Finset.univ.sup' Finset.univ_nonempty s1)))) : ℝ) : EReal) := by
  generalize hR0 : Finset.univ.sup' Finset.univ_nonempty s0 = R0
  generalize hR1 : Finset.univ.sup' Finset.univ_nonempty s1 = R1
  have e_m1 : m1 = (R0 : EReal) := by rw [hm1, fold_max_coe, hR0, max_bot_left]
  have e_a1 : a1 = 0 := by rw [ha1, e_m1, EReal.bot_sub, Ideal.exp_bot]
  have e_p1 : ∀ k, p1 k = ((Real.exp (s0 k - R0) : ℝ) : EReal) := fun k => by
    rw [hp1, e_m1, exp_coe_sub_coe]
  have e_l1 : l1 = ((∑ k, Real.exp (s0 k - R0) : ℝ) : EReal) := by
    rw [hl1, e_a1, zero_mul, zero_add, coe_sum]
    exact Finset.sum_congr rfl fun k _ => e_p1 k
  have e_acc1 : acc1 = ((∑ k, Real.exp (s0 k - R0) * v0 k : ℝ) : EReal) := by
    rw [hacc1, e_a1, zero_mul, zero_add, ← sum_coe_mul_coe]
    exact Finset.sum_congr rfl fun k _ => by rw [e_p1 k]
  have e_m2 : m2 = ((max R0 R1 : ℝ) : EReal) := by rw [hm2, e_m1, fold_max_coe, hR1, coe_max]
  have e_a2 : a2 = ((Real.exp (R0 - max R0 R1) : ℝ) : EReal) := by
    rw [ha2, e_m1, e_m2, exp_coe_sub_coe]
  have e_p2 : ∀ k, p2 k = ((Real.exp (s1 k - max R0 R1) : ℝ) : EReal) := fun k => by
    rw [hp2, e_m2, exp_coe_sub_coe]
  have e_l2 : l2 = ((∑ k, Real.exp (s0 k - max R0 R1) + ∑ k, Real.exp (s1 k - max R0 R1) : ℝ) : EReal) := by
    have h : ∑ k, p2 k = ((∑ k, Real.exp (s1 k - max R0 R1) : ℝ) : EReal) := by
      rw [coe_sum]; exact Finset.sum_congr rfl fun k _ => e_p2 k
    rw [hl2, e_a2, e_l1, h, ← EReal.coe_mul, ← EReal.coe_add, rescale_sum]
  have e_acc2 : acc2 = ((∑ k, Real.exp (s0 k - max R0 R1) * v0 k
      + ∑ k, Real.exp (s1 k - max R0 R1) * v1 k : ℝ) : EReal) := by
    have h : ∑ k, p2 k * (v1 k : EReal) = ((∑ k, Real.exp (s1 k - max R0 R1) * v1 k : ℝ) : EReal) := by
      rw [← sum_coe_mul_coe]; exact Finset.sum_congr rfl fun k _ => by rw [e_p2 k]
    rw [hacc2, e_a2, e_acc1, h, ← EReal.coe_mul, ← EReal.coe_add, rescale_sum_mul]
  rw [e_acc2, e_l2, Ideal.div_coe (den_pos s0 s1 (max R0 R1)).ne', ← EReal.coe_mul, mul_one_div]

/-- The streaming pass over two blocks, written out, returns N / Z. -/
theorem kernel_form {κ : Type*} [Fintype κ] [Nonempty κ] (s0 s1 v0 v1 : κ → ℝ) :
    Ideal.div
      (Ideal.exp ((max (⊥ : EReal) ((Finset.univ : Finset κ).fold max (⊥ : EReal) (fun k => (s0 k : EReal)))) - (max (max (⊥ : EReal) ((Finset.univ : Finset κ).fold max (⊥ : EReal) (fun k => (s0 k : EReal)))) ((Finset.univ : Finset κ).fold max (⊥ : EReal) (fun k => (s1 k : EReal))))) * (Ideal.exp ((⊥ : EReal) - (max (⊥ : EReal) ((Finset.univ : Finset κ).fold max (⊥ : EReal) (fun k => (s0 k : EReal))))) * 0 + ∑ k, Ideal.exp ((s0 k : EReal) - (max (⊥ : EReal) ((Finset.univ : Finset κ).fold max (⊥ : EReal) (fun k => (s0 k : EReal))))) * (v0 k : EReal)) + ∑ k, Ideal.exp ((s1 k : EReal) - (max (max (⊥ : EReal) ((Finset.univ : Finset κ).fold max (⊥ : EReal) (fun k => (s0 k : EReal)))) ((Finset.univ : Finset κ).fold max (⊥ : EReal) (fun k => (s1 k : EReal))))) * (v1 k : EReal))
      (Ideal.exp ((max (⊥ : EReal) ((Finset.univ : Finset κ).fold max (⊥ : EReal) (fun k => (s0 k : EReal)))) - (max (max (⊥ : EReal) ((Finset.univ : Finset κ).fold max (⊥ : EReal) (fun k => (s0 k : EReal)))) ((Finset.univ : Finset κ).fold max (⊥ : EReal) (fun k => (s1 k : EReal))))) * (Ideal.exp ((⊥ : EReal) - (max (⊥ : EReal) ((Finset.univ : Finset κ).fold max (⊥ : EReal) (fun k => (s0 k : EReal))))) * 0 + ∑ k, Ideal.exp ((s0 k : EReal) - (max (⊥ : EReal) ((Finset.univ : Finset κ).fold max (⊥ : EReal) (fun k => (s0 k : EReal)))))) + ∑ k, Ideal.exp ((s1 k : EReal) - (max (max (⊥ : EReal) ((Finset.univ : Finset κ).fold max (⊥ : EReal) (fun k => (s0 k : EReal)))) ((Finset.univ : Finset κ).fold max (⊥ : EReal) (fun k => (s1 k : EReal))))))
      = (((∑ k, Real.exp (s0 k - (max (Finset.univ.sup' Finset.univ_nonempty s0) (Finset.univ.sup' Finset.univ_nonempty s1))) * v0 k + ∑ k, Real.exp (s1 k - (max (Finset.univ.sup' Finset.univ_nonempty s0) (Finset.univ.sup' Finset.univ_nonempty s1))) * v1 k)
        / (∑ k, Real.exp (s0 k - (max (Finset.univ.sup' Finset.univ_nonempty s0) (Finset.univ.sup' Finset.univ_nonempty s1))) + ∑ k, Real.exp (s1 k - (max (Finset.univ.sup' Finset.univ_nonempty s0) (Finset.univ.sup' Finset.univ_nonempty s1)))) : ℝ) : EReal) :=
  kernel_form_of s0 s1 v0 v1 _ _ _ _ _ _ _ _ _ _ rfl rfl (fun _ => rfl) rfl rfl rfl rfl (fun _ => rfl) rfl rfl

/-! ### The whole-row pass -/

/-- A sum over a row enumerated by two blocks is the sum of the two block sums. -/
theorem sum_two_blocks {κ ι α : Type*} [Fintype κ] [Fintype ι] [AddCommMonoid α] (e : Fin 2 × κ ≃ ι)
    (g : ι → α) : ∑ i, g i = ∑ k, g (e (0, k)) + ∑ k, g (e (1, k)) := by
  rw [← Equiv.sum_comp e g, Fintype.sum_prod_type, Fin.sum_univ_two]

/-- The maximum over a row enumerated by two blocks is the larger of the two block maxima. -/
theorem sup'_two_blocks {κ ι : Type*} [Fintype κ] [Nonempty κ] [Fintype ι] [Nonempty ι]
    (e : Fin 2 × κ ≃ ι) (s : ι → ℝ) :
    Finset.univ.sup' Finset.univ_nonempty s = max (Finset.univ.sup' Finset.univ_nonempty (fun k => s (e (0, k)))) (Finset.univ.sup' Finset.univ_nonempty (fun k => s (e (1, k)))) := by
  apply le_antisymm
  · refine Finset.sup'_le _ _ fun i _ => ?_
    obtain ⟨⟨j, k⟩, rfl⟩ := e.surjective i
    fin_cases j
    · exact le_max_of_le_left (Finset.le_sup' (fun k => s (e (0, k))) (Finset.mem_univ k))
    · exact le_max_of_le_right (Finset.le_sup' (fun k => s (e (1, k))) (Finset.mem_univ k))
  · exact max_le (Finset.sup'_le _ _ fun k _ => Finset.le_sup' s (Finset.mem_univ _))
      (Finset.sup'_le _ _ fun k _ => Finset.le_sup' s (Finset.mem_univ _))

/-- The whole-row pass, each step given by its defining equation, returns N / Z, where the two
    blocks are the halves of the row under the enumeration e. -/
theorem reference_form_of {κ ι : Type*} [Fintype κ] [Nonempty κ] [Fintype ι] (e : Fin 2 × κ ≃ ι)
    (s v : ι → ℝ) (Mx Zx : EReal) (E P : ι → EReal)
    (hM : Mx = max (⊥ : EReal) ((Finset.univ : Finset ι).fold max (⊥ : EReal) (fun i => (s i : EReal))))
    (hE : ∀ i, E i = Ideal.exp ((s i : EReal) - Mx))
    (hZ : Zx = 0 + ∑ i, E i)
    (hP : ∀ i, P i = Ideal.div (E i) Zx) :
    ∑ i, P i * (v i : EReal)
      = (((∑ k, Real.exp (s (e (0, k)) - (max (Finset.univ.sup' Finset.univ_nonempty (fun k => s (e (0, k)))) (Finset.univ.sup' Finset.univ_nonempty (fun k => s (e (1, k)))))) * v (e (0, k)) + ∑ k, Real.exp (s (e (1, k)) - (max (Finset.univ.sup' Finset.univ_nonempty (fun k => s (e (0, k)))) (Finset.univ.sup' Finset.univ_nonempty (fun k => s (e (1, k)))))) * v (e (1, k)))
        / (∑ k, Real.exp (s (e (0, k)) - (max (Finset.univ.sup' Finset.univ_nonempty (fun k => s (e (0, k)))) (Finset.univ.sup' Finset.univ_nonempty (fun k => s (e (1, k)))))) + ∑ k, Real.exp (s (e (1, k)) - (max (Finset.univ.sup' Finset.univ_nonempty (fun k => s (e (0, k)))) (Finset.univ.sup' Finset.univ_nonempty (fun k => s (e (1, k))))))) : ℝ) : EReal) := by
  haveI : Nonempty ι := ⟨e (0, Classical.arbitrary κ)⟩
  generalize hMr : max (Finset.univ.sup' Finset.univ_nonempty (fun k => s (e (0, k)))) (Finset.univ.sup' Finset.univ_nonempty (fun k => s (e (1, k)))) = M
  have e_M : Mx = (M : EReal) := by rw [hM, fold_max_coe, max_bot_left, sup'_two_blocks e s, hMr]
  have e_E : ∀ i, E i = ((Real.exp (s i - M) : ℝ) : EReal) := fun i => by
    rw [hE, e_M, exp_coe_sub_coe]
  have hZsum : ∑ i, Real.exp (s i - M)
      = ∑ k, Real.exp (s (e (0, k)) - M) + ∑ k, Real.exp (s (e (1, k)) - M) := sum_two_blocks e _
  have hNsum : ∑ i, Real.exp (s i - M) * v i
      = ∑ k, Real.exp (s (e (0, k)) - M) * v (e (0, k)) + ∑ k, Real.exp (s (e (1, k)) - M) * v (e (1, k)) :=
    sum_two_blocks e _
  have hZpos : 0 < ∑ i, Real.exp (s i - M) := by
    rw [hZsum]; exact den_pos _ _ M
  have e_Z : Zx = ((∑ i, Real.exp (s i - M) : ℝ) : EReal) := by
    rw [hZ, zero_add, coe_sum]; exact Finset.sum_congr rfl fun i _ => e_E i
  have e_P : ∀ i, P i = ((Real.exp (s i - M) / ∑ i', Real.exp (s i' - M) : ℝ) : EReal) := fun i => by
    rw [hP, e_E, e_Z, Ideal.div_coe hZpos.ne', ← EReal.coe_mul, mul_one_div]
  have e_out : ∑ i, P i * (v i : EReal)
      = ((∑ i, Real.exp (s i - M) / (∑ i', Real.exp (s i' - M)) * v i : ℝ) : EReal) := by
    rw [← sum_coe_mul_coe]; exact Finset.sum_congr rfl fun i _ => by rw [e_P i]
  rw [e_out, ← hZsum, ← hNsum, Finset.sum_div]
  congr 1
  exact Finset.sum_congr rfl fun i _ => div_mul_eq_mul_div _ _ _

/-- The whole-row pass, written out, returns N / Z. -/
theorem reference_form {κ ι : Type*} [Fintype κ] [Nonempty κ] [Fintype ι] (e : Fin 2 × κ ≃ ι)
    (s v : ι → ℝ) :
    ∑ i, Ideal.div (Ideal.exp ((s i : EReal) - (max (⊥ : EReal) ((Finset.univ : Finset ι).fold max (⊥ : EReal) (fun i => (s i : EReal))))))
        (0 + ∑ i', Ideal.exp ((s i' : EReal) - (max (⊥ : EReal) ((Finset.univ : Finset ι).fold max (⊥ : EReal) (fun i => (s i : EReal)))))) * (v i : EReal)
      = (((∑ k, Real.exp (s (e (0, k)) - (max (Finset.univ.sup' Finset.univ_nonempty (fun k => s (e (0, k)))) (Finset.univ.sup' Finset.univ_nonempty (fun k => s (e (1, k)))))) * v (e (0, k)) + ∑ k, Real.exp (s (e (1, k)) - (max (Finset.univ.sup' Finset.univ_nonempty (fun k => s (e (0, k)))) (Finset.univ.sup' Finset.univ_nonempty (fun k => s (e (1, k)))))) * v (e (1, k)))
        / (∑ k, Real.exp (s (e (0, k)) - (max (Finset.univ.sup' Finset.univ_nonempty (fun k => s (e (0, k)))) (Finset.univ.sup' Finset.univ_nonempty (fun k => s (e (1, k)))))) + ∑ k, Real.exp (s (e (1, k)) - (max (Finset.univ.sup' Finset.univ_nonempty (fun k => s (e (0, k)))) (Finset.univ.sup' Finset.univ_nonempty (fun k => s (e (1, k))))))) : ℝ) : EReal) :=
  reference_form_of e s v _ _ _ _ rfl (fun _ => rfl) rfl (fun _ => rfl)

/-! ### Streaming equals whole-row -/

/-- The streaming pass over the two halves of a row returns what the whole-row pass returns; every
    step of either pass is given by its defining equation. -/
theorem flash_eq_of {κ ι : Type*} [Fintype κ] [Nonempty κ] [Fintype ι] (e : Fin 2 × κ ≃ ι)
    (s v : ι → ℝ)
    (m1 a1 l1 acc1 m2 a2 l2 acc2 : EReal) (p1 p2 : κ → EReal)
    (hm1 : m1 = max (⊥ : EReal) ((Finset.univ : Finset κ).fold max (⊥ : EReal) (fun k => (s (e (0, k)) : EReal))))
    (ha1 : a1 = Ideal.exp ((⊥ : EReal) - m1))
    (hp1 : ∀ k, p1 k = Ideal.exp ((s (e (0, k)) : EReal) - m1))
    (hl1 : l1 = a1 * 0 + ∑ k, p1 k)
    (hacc1 : acc1 = a1 * 0 + ∑ k, p1 k * (v (e (0, k)) : EReal))
    (hm2 : m2 = max m1 ((Finset.univ : Finset κ).fold max (⊥ : EReal) (fun k => (s (e (1, k)) : EReal))))
    (ha2 : a2 = Ideal.exp (m1 - m2))
    (hp2 : ∀ k, p2 k = Ideal.exp ((s (e (1, k)) : EReal) - m2))
    (hl2 : l2 = a2 * l1 + ∑ k, p2 k)
    (hacc2 : acc2 = a2 * acc1 + ∑ k, p2 k * (v (e (1, k)) : EReal))
    (Mx Zx : EReal) (E P : ι → EReal)
    (hM : Mx = max (⊥ : EReal) ((Finset.univ : Finset ι).fold max (⊥ : EReal) (fun i => (s i : EReal))))
    (hE : ∀ i, E i = Ideal.exp ((s i : EReal) - Mx))
    (hZ : Zx = 0 + ∑ i, E i)
    (hP : ∀ i, P i = Ideal.div (E i) Zx) :
    Ideal.div acc2 l2 = ∑ i, P i * (v i : EReal) :=
  (kernel_form_of (fun k => s (e (0, k))) (fun k => s (e (1, k))) (fun k => v (e (0, k)))
      (fun k => v (e (1, k))) m1 a1 l1 acc1 m2 a2 l2 acc2 p1 p2 hm1 ha1 hp1 hl1 hacc1 hm2 ha2 hp2 hl2 hacc2).trans
    (reference_form_of e s v Mx Zx E P hM hE hZ hP).symm

/-- The same with both passes written out. -/
theorem flash_eq {κ ι : Type*} [Fintype κ] [Nonempty κ] [Fintype ι] (e : Fin 2 × κ ≃ ι)
    (s v : ι → ℝ) :
    Ideal.div
      (Ideal.exp ((max (⊥ : EReal) ((Finset.univ : Finset κ).fold max (⊥ : EReal) (fun k => (s (e (0, k)) : EReal)))) - (max (max (⊥ : EReal) ((Finset.univ : Finset κ).fold max (⊥ : EReal) (fun k => (s (e (0, k)) : EReal)))) ((Finset.univ : Finset κ).fold max (⊥ : EReal) (fun k => (s (e (1, k)) : EReal))))) * (Ideal.exp ((⊥ : EReal) - (max (⊥ : EReal) ((Finset.univ : Finset κ).fold max (⊥ : EReal) (fun k => (s (e (0, k)) : EReal))))) * 0 + ∑ k, Ideal.exp ((s (e (0, k)) : EReal) - (max (⊥ : EReal) ((Finset.univ : Finset κ).fold max (⊥ : EReal) (fun k => (s (e (0, k)) : EReal))))) * (v (e (0, k)) : EReal)) + ∑ k, Ideal.exp ((s (e (1, k)) : EReal) - (max (max (⊥ : EReal) ((Finset.univ : Finset κ).fold max (⊥ : EReal) (fun k => (s (e (0, k)) : EReal)))) ((Finset.univ : Finset κ).fold max (⊥ : EReal) (fun k => (s (e (1, k)) : EReal))))) * (v (e (1, k)) : EReal))
      (Ideal.exp ((max (⊥ : EReal) ((Finset.univ : Finset κ).fold max (⊥ : EReal) (fun k => (s (e (0, k)) : EReal)))) - (max (max (⊥ : EReal) ((Finset.univ : Finset κ).fold max (⊥ : EReal) (fun k => (s (e (0, k)) : EReal)))) ((Finset.univ : Finset κ).fold max (⊥ : EReal) (fun k => (s (e (1, k)) : EReal))))) * (Ideal.exp ((⊥ : EReal) - (max (⊥ : EReal) ((Finset.univ : Finset κ).fold max (⊥ : EReal) (fun k => (s (e (0, k)) : EReal))))) * 0 + ∑ k, Ideal.exp ((s (e (0, k)) : EReal) - (max (⊥ : EReal) ((Finset.univ : Finset κ).fold max (⊥ : EReal) (fun k => (s (e (0, k)) : EReal)))))) + ∑ k, Ideal.exp ((s (e (1, k)) : EReal) - (max (max (⊥ : EReal) ((Finset.univ : Finset κ).fold max (⊥ : EReal) (fun k => (s (e (0, k)) : EReal)))) ((Finset.univ : Finset κ).fold max (⊥ : EReal) (fun k => (s (e (1, k)) : EReal))))))
      = ∑ i, Ideal.div (Ideal.exp ((s i : EReal) - (max (⊥ : EReal) ((Finset.univ : Finset ι).fold max (⊥ : EReal) (fun i => (s i : EReal))))))
        (0 + ∑ i', Ideal.exp ((s i' : EReal) - (max (⊥ : EReal) ((Finset.univ : Finset ι).fold max (⊥ : EReal) (fun i => (s i : EReal)))))) * (v i : EReal) :=
  flash_eq_of e s v _ _ _ _ _ _ _ _ _ _ rfl rfl (fun _ => rfl) rfl rfl rfl rfl (fun _ => rfl) rfl rfl
    _ _ _ _ rfl (fun _ => rfl) rfl (fun _ => rfl)

/-! ### The row of 2048 keys as two blocks of 1024 -/

/-- Key k of block j is key j · 1024 + k of the row. -/
def keyEquiv : Fin 2 × Fin 1024 ≃ Fin 2048 where
  toFun x := ⟨x.1.val * 1024 + x.2.val, by omega⟩
  invFun i := (⟨i.val / 1024, by omega⟩, ⟨i.val % 1024, by omega⟩)
  left_inv := by
    rintro ⟨j, k⟩
    simp only [Prod.mk.injEq, Fin.ext_iff]
    omega
  right_inv := by
    intro i
    simp only [Fin.ext_iff]
    omega

theorem keyEquiv_val (j : Fin 2) (k : Fin 1024) : (keyEquiv (j, k)).val = j.val * 1024 + k.val := rfl

/-! ### Scaling by 1/32 -/

/-- Multiplying by the f32 constant 0.03125 is dividing by the f32 constant 32. -/
theorem mul_inv32_eq_div_32 (x : EReal) :
    x * Ideal.ofBits .f32 0x3D000000#32 = Ideal.div x (Ideal.ofBits .f32 0x42000000#32) := by
  rw [ofBits_inv32_f32, ofBits_32_f32, Ideal.div_coe (by norm_num : (32 : ℝ) ≠ 0)]

/-- A real score times the f32 constant 0.03125 is a real number. -/
theorem coe_mul_inv32 (a : ℝ) :
    (a : EReal) * Ideal.ofBits .f32 0x3D000000#32 = ((a * (1 / 32) : ℝ) : EReal) := by
  rw [ofBits_inv32_f32, ← EReal.coe_mul]

/-- A real score divided by the f32 constant 32 is the same real number. -/
theorem coe_div_32 (a : ℝ) :
    Ideal.div (a : EReal) (Ideal.ofBits .f32 0x42000000#32) = ((a * (1 / 32) : ℝ) : EReal) := by
  rw [← mul_inv32_eq_div_32, coe_mul_inv32]

/-! ### The same for scores and values given as extended reals that are real -/

/-- Streaming equals whole-row for scores S and values V on the extended reals that are coerced
    reals; S0, S1, V0, V1 are the two halves of the row under the enumeration e. -/
theorem flash_eq_real {κ ι : Type*} [Fintype κ] [Nonempty κ] [Fintype ι] (e : Fin 2 × κ ≃ ι)
    (S V : ι → EReal) (S0 S1 V0 V1 : κ → EReal) (s v : ι → ℝ)
    (hS : ∀ i, S i = (s i : EReal)) (hV : ∀ i, V i = (v i : EReal))
    (hS0 : ∀ k, S0 k = S (e (0, k))) (hS1 : ∀ k, S1 k = S (e (1, k)))
    (hV0 : ∀ k, V0 k = V (e (0, k))) (hV1 : ∀ k, V1 k = V (e (1, k)))
    (m1 a1 l1 acc1 m2 a2 l2 acc2 : EReal) (p1 p2 : κ → EReal)
    (hm1 : m1 = max (⊥ : EReal) ((Finset.univ : Finset κ).fold max (⊥ : EReal) (fun k => S0 k)))
    (ha1 : a1 = Ideal.exp ((⊥ : EReal) - m1))
    (hp1 : ∀ k, p1 k = Ideal.exp (S0 k - m1))
    (hl1 : l1 = a1 * 0 + ∑ k, p1 k)
    (hacc1 : acc1 = a1 * 0 + ∑ k, p1 k * V0 k)
    (hm2 : m2 = max m1 ((Finset.univ : Finset κ).fold max (⊥ : EReal) (fun k => S1 k)))
    (ha2 : a2 = Ideal.exp (m1 - m2))
    (hp2 : ∀ k, p2 k = Ideal.exp (S1 k - m2))
    (hl2 : l2 = a2 * l1 + ∑ k, p2 k)
    (hacc2 : acc2 = a2 * acc1 + ∑ k, p2 k * V1 k)
    (Mx Zx : EReal) (E P : ι → EReal)
    (hM : Mx = max (⊥ : EReal) ((Finset.univ : Finset ι).fold max (⊥ : EReal) (fun i => S i)))
    (hE : ∀ i, E i = Ideal.exp (S i - Mx))
    (hZ : Zx = 0 + ∑ i, E i)
    (hP : ∀ i, P i = Ideal.div (E i) Zx) :
    Ideal.div acc2 l2 = ∑ i, P i * V i := by
  obtain rfl : S = fun i => (s i : EReal) := funext hS
  obtain rfl : V = fun i => (v i : EReal) := funext hV
  obtain rfl : S0 = fun k => (s (e (0, k)) : EReal) := funext hS0
  obtain rfl : S1 = fun k => (s (e (1, k)) : EReal) := funext hS1
  obtain rfl : V0 = fun k => (v (e (0, k)) : EReal) := funext hV0
  obtain rfl : V1 = fun k => (v (e (1, k)) : EReal) := funext hV1
  exact flash_eq_of e s v m1 a1 l1 acc1 m2 a2 l2 acc2 p1 p2 hm1 ha1 hp1 hl1 hacc1 hm2 ha2 hp2 hl2 hacc2
    Mx Zx E P hM hE hZ hP

end Cert.FlashLaw
-- ==== Proof.AttnTile.lean ====
/-
  One tile of query rows through the streaming softmax is the whole-row softmax.

  For one tile of 512 query rows of one batch, the two steps of the stream (over the first and the second block of 1024
  keys and values) start from the row maximum `-∞`, the row sum `0` and the accumulator `0`, and the last step divides
  the accumulator by the row sum. Read at a row `r` and a column `e`, every quantity of the two steps is the one the
  streaming law names: the scores of a block are the query row against the block's keys, scaled by `0.03125`, which is
  the quotient by `32`; the maxima, the rescaling factors, the exponentials, the row sums and the accumulators follow
  their defining equations. When the inputs are real numbers the scores and the values are, and the law gives the
  whole-row form: with the row's 2048 keys and values enumerated block after block, the result is
  `∑ i, (exp (s i - M) / Z) * value i e` for the scores `s` of the whole row, their maximum `M` from `-∞` and
  `Z = 0 + ∑ i, exp (s i - M)` — the row of attention's closed form (`rowOut`; `out_eq_rowOut`).
-/
import proofs.«154186_j59107339927929_2_alg».proof.Proof.AttnPayloads
import proofs.«154186_j59107339927929_2_alg».proof.Proof.LibFlashLaw
import proofs.«154186_j59107339927929_2_alg».proof.Proof.AttnSpec

noncomputable section

open scoped BigOperators

namespace Cert.KernelIdeal.AttnTile

open Cert.KernelIdeal Cert.KernelIdeal.Gen Cert.KernelIdeal.AttnPay Idealize.ShloMosaic Idealize.ShloMosaic.ValueIdx
open Cert.FlashLaw (keyEquiv)

/-! ## One row of attention's closed form, from the query row and the rows of keys and values -/

section Spec

variable {S E E' : ℕ}

/-- The scaled score of the query row against key row `i`. -/
def rowScore (qrow : Fin E → EReal) (K : Fin S → Fin E → EReal) (i : Fin S) : EReal :=
  Ideal.div (∑ e' : Fin E, qrow e' * K i e') (Ideal.ofBits .f32 0x42000000#32)

/-- The maximum of the row's scores, from `-∞`. -/
def rowMax (qrow : Fin E → EReal) (K : Fin S → Fin E → EReal) : EReal :=
  max (Ideal.ofBits .f32 0xFF800000#32)
    ((Finset.univ : Finset (Fin S)).fold max (Ideal.ofBits .f32 0xFF800000#32) (fun i => rowScore qrow K i))

/-- The exponential of a score less the row's maximum. -/
def rowExpo (qrow : Fin E → EReal) (K : Fin S → Fin E → EReal) (i : Fin S) : EReal :=
  Ideal.exp (rowScore qrow K i - rowMax qrow K)

/-- The sum of the row's exponentials, from `0`. -/
def rowDenom (qrow : Fin E → EReal) (K : Fin S → Fin E → EReal) : EReal :=
  Ideal.ofBits .f32 0x00000000#32 + ∑ i : Fin S, rowExpo qrow K i

/-- The softmax weight of key row `i`. -/
def rowProb (qrow : Fin E → EReal) (K : Fin S → Fin E → EReal) (i : Fin S) : EReal :=
  Ideal.div (rowExpo qrow K i) (rowDenom qrow K)

/-- The row of the result: the weights against the value rows. -/
def rowOut (qrow : Fin E → EReal) (K : Fin S → Fin E → EReal) (V : Fin S → Fin E' → EReal) (e : Fin E') : EReal :=
  ∑ i : Fin S, rowProb qrow K i * V i e

/-- Attention's closed form at `(b, q, e)` is this row form of the three projections. -/
theorem out_eq_rowOut {B D : ℕ} (x : Fin B → Fin S → Fin D → EReal) (wq wk wv : Fin E → Fin D → EReal)
    (b : Fin B) (q : Fin S) (e : Fin E) :
    Cert.AttnSpec.out x wq wk wv b q e
      = rowOut (Cert.AttnSpec.proj x wq b q) (Cert.AttnSpec.proj x wk b) (Cert.AttnSpec.proj x wv b) e := rfl

end Spec

/-! ## The two steps of the stream over one tile -/

/-- The tile's query projection. -/
abbrev qA (xb : FVec Ideal S1x512x1024 .bf16) (wq : FVec Ideal S1024x1024 .bf16) : FVec Ideal S512x1024 .bf16 :=
  k1_pay4 (F := Ideal) xb wq

/-- The row maximum after the first block. -/
abbrev mA (xb : FVec Ideal S1x512x1024 .bf16) (wq : FVec Ideal S1024x1024 .bf16) (k0 : FVec Ideal S1x1024x1024 .bf16) :
    FVec Ideal S512x1 .f32 :=
  k1_pay2 (F := Ideal) (k1_pay10 (F := Ideal) (qA xb wq) k0 (k1_pay5 (F := Ideal)))

/-- The row sum after the first block. -/
abbrev lA (xb : FVec Ideal S1x512x1024 .bf16) (wq : FVec Ideal S1024x1024 .bf16) (k0 : FVec Ideal S1x1024x1024 .bf16) :
    FVec Ideal S512x1 .f32 :=
  k1_pay13 (F := Ideal) (qA xb wq) k0 (k1_pay5 (F := Ideal)) (k1_pay6 (F := Ideal))

/-- The accumulator after the first block. -/
abbrev aA (xb : FVec Ideal S1x512x1024 .bf16) (wq : FVec Ideal S1024x1024 .bf16) (k0 v0 : FVec Ideal S1x1024x1024 .bf16) :
    FVec Ideal S512x1024 .f32 :=
  k1_pay1 (F := Ideal) (k1_pay8 (F := Ideal) v0)
    (k1_pay14 (F := Ideal) (qA xb wq) k0 (k1_pay5 (F := Ideal)) (k1_pay7 (F := Ideal)))
    (k1_pay15 (F := Ideal) (qA xb wq) k0 (k1_pay5 (F := Ideal))) (constant (F := Ideal) S512x1024 .f32 0x00000000#32)

/-- The row sum after the second block. -/
abbrev lB (xb : FVec Ideal S1x512x1024 .bf16) (wq : FVec Ideal S1024x1024 .bf16) (k0 k1 : FVec Ideal S1x1024x1024 .bf16) :
    FVec Ideal S512x1 .f32 :=
  k1_pay13 (F := Ideal) (qA xb wq) k1 (mA xb wq k0) (lA xb wq k0)

/-- The accumulator after the second block. -/
abbrev aB (xb : FVec Ideal S1x512x1024 .bf16) (wq : FVec Ideal S1024x1024 .bf16)
    (k0 k1 v0 v1 : FVec Ideal S1x1024x1024 .bf16) : FVec Ideal S512x1024 .f32 :=
  k1_pay1 (F := Ideal) (k1_pay8 (F := Ideal) v1)
    (k1_pay14 (F := Ideal) (qA xb wq) k1 (mA xb wq k0) (aA xb wq k0 v0))
    (k1_pay15 (F := Ideal) (qA xb wq) k1 (mA xb wq k0)) (constant (F := Ideal) S512x1024 .f32 0x00000000#32)

/-- The tile of the result. -/
abbrev out (xb : FVec Ideal S1x512x1024 .bf16) (wq : FVec Ideal S1024x1024 .bf16)
    (k0 k1 v0 v1 : FVec Ideal S1x1024x1024 .bf16) : FVec Ideal S1x512x1024 .f32 :=
  k1_pay3 (F := Ideal) (aB xb wq k0 k1 v0 v1) (lB xb wq k0 k1)

/-- Row `r` of the tile's query projection. -/
abbrev qrow (xb : FVec Ideal S1x512x1024 .bf16) (wq : FVec Ideal S1024x1024 .bf16) (r : Fin 512) : Fin 1024 → EReal :=
  fun e' => ∑ d : Fin 1024, xb (ix3 (0 : Fin 1) r d) * wq (ix2 e' d)

section Tile

variable (xb : FVec Ideal S1x512x1024 .bf16) (wq : FVec Ideal S1024x1024 .bf16) (k0 k1 v0 v1 : FVec Ideal S1x1024x1024 .bf16)

/-- The scores of block `j` are the whole row's scores at the block's keys. -/
theorem score_at (kb : FVec Ideal S1x1024x1024 .bf16) (Kall : Fin 2048 → Fin 1024 → EReal) (j : Fin 2)
    (hK : ∀ k e, kb (ix3 (0 : Fin 1) k e) = Kall (keyEquiv (j, k)) e) (r : Fin 512) (k : Fin 1024) :
    k1_pay9 (F := Ideal) (qA xb wq) kb (ix2 r k) = rowScore (qrow xb wq r) Kall (keyEquiv (j, k)) := by
  refine (pay9_at _ _ r k).trans ?_
  refine (Cert.FlashLaw.mul_inv32_eq_div_32 _).trans ?_
  unfold rowScore
  refine congrArg (fun t => Ideal.div t (Ideal.ofBits .f32 0x42000000#32)) (Finset.sum_congr rfl fun e' _ => ?_)
  exact congrArg₂ (· * ·) (pay4_at xb wq r e') (hK k e')

/-- One step of the stream at row `r` and column `e`, from the carried values `mpv`, `lpv`, `apv` there, the block's
    scores `Sc` and the block's values `Vc` in column `e`: the new maximum, the rescaling factor, the exponentials, the
    new row sum and the new accumulator follow the stream's defining equations. -/
theorem step_eqs (q : FVec Ideal S512x1024 .bf16) (kb vb : FVec Ideal S1x1024x1024 .bf16) (mp lp : FVec Ideal S512x1 .f32)
    (ap : FVec Ideal S512x1024 .f32) (r : Fin 512) (e : Fin 1024) (Sc Vc : Fin 1024 → EReal) (mpv lpv apv : EReal)
    (hSc : ∀ k, k1_pay9 (F := Ideal) q kb (ix2 r k) = Sc k) (hVc : ∀ k, vb (ix3 (0 : Fin 1) k e) = Vc k)
    (hmp : mp (ix2 r (0 : Fin 1)) = mpv) (hlp : lp (ix2 r (0 : Fin 1)) = lpv) (hap : ap (ix2 r e) = apv) :
    k1_pay10 (F := Ideal) q kb mp (ix2 r (0 : Fin 1))
        = max mpv ((Finset.univ : Finset (Fin 1024)).fold max (⊥ : EReal) (fun k => Sc k))
    ∧ k1_pay11 (F := Ideal) q kb mp (ix2 r (0 : Fin 1))
        = Ideal.exp (mpv - k1_pay10 (F := Ideal) q kb mp (ix2 r (0 : Fin 1)))
    ∧ (∀ k, k1_pay12 (F := Ideal) q kb mp (ix2 r k)
        = Ideal.exp (Sc k - k1_pay10 (F := Ideal) q kb mp (ix2 r (0 : Fin 1))))
    ∧ k1_pay13 (F := Ideal) q kb mp lp (ix2 r (0 : Fin 1))
        = k1_pay11 (F := Ideal) q kb mp (ix2 r (0 : Fin 1)) * lpv + ∑ k : Fin 1024, k1_pay12 (F := Ideal) q kb mp (ix2 r k)
    ∧ k1_pay1 (F := Ideal) (k1_pay8 (F := Ideal) vb) (k1_pay14 (F := Ideal) q kb mp ap) (k1_pay15 (F := Ideal) q kb mp)
          (constant (F := Ideal) S512x1024 .f32 0x00000000#32) (ix2 r e)
        = k1_pay11 (F := Ideal) q kb mp (ix2 r (0 : Fin 1)) * apv
          + ∑ k : Fin 1024, k1_pay12 (F := Ideal) q kb mp (ix2 r k) * Vc k := by
  subst hmp hlp hap
  obtain rfl : Sc = fun k => k1_pay9 (F := Ideal) q kb (ix2 r k) := (funext hSc).symm
  obtain rfl : Vc = fun k => vb (ix3 (0 : Fin 1) k e) := (funext hVc).symm
  refine ⟨pay10_at q kb mp r, pay11_at q kb mp r, fun k => pay12_at q kb mp r k, pay13_at q kb mp lp r, ?_⟩
  refine (pay1_at _ _ _ r e).trans ?_
  rw [pay14_at]
  refine congrArg (k1_pay11 (F := Ideal) q kb mp (ix2 r (0 : Fin 1)) * ap (ix2 r e) + ·)
    (Finset.sum_congr rfl fun k _ => ?_)
  rw [pay15_at, pay8_at]

/-- The tile of the result, at row `r` and column `e`, is the whole-row softmax of the row's scores against the
    values, when every input entry is a real number. -/
theorem tile_out
    (hxb : ∀ j, ∃ a : ℝ, xb j = (a : EReal)) (hwq : ∀ j, ∃ a : ℝ, wq j = (a : EReal))
    (hk0 : ∀ j, ∃ a : ℝ, k0 j = (a : EReal)) (hk1 : ∀ j, ∃ a : ℝ, k1 j = (a : EReal))
    (hv0 : ∀ j, ∃ a : ℝ, v0 j = (a : EReal)) (hv1 : ∀ j, ∃ a : ℝ, v1 j = (a : EReal))
    (Kall Vall : Fin 2048 → Fin 1024 → EReal)
    (hK0 : ∀ k e, k0 (ix3 (0 : Fin 1) k e) = Kall (keyEquiv (0, k)) e)
    (hK1 : ∀ k e, k1 (ix3 (0 : Fin 1) k e) = Kall (keyEquiv (1, k)) e)
    (hV0 : ∀ k e, v0 (ix3 (0 : Fin 1) k e) = Vall (keyEquiv (0, k)) e)
    (hV1 : ∀ k e, v1 (ix3 (0 : Fin 1) k e) = Vall (keyEquiv (1, k)) e)
    (r : Fin 512) (e : Fin 1024) :
    out xb wq k0 k1 v0 v1 (ix3 (0 : Fin 1) r e) = rowOut (qrow xb wq r) Kall Vall e := by
  -- the inputs as real numbers
  choose xbr hxbr using hxb
  choose wqr hwqr using hwq
  have hKall : ∀ i e', ∃ a : ℝ, Kall i e' = (a : EReal) := by
    intro i e'
    obtain ⟨⟨j, k⟩, rfl⟩ := keyEquiv.surjective i
    match j with
    | ⟨0, _⟩ => obtain ⟨a, ha⟩ := hk0 (ix3 (0 : Fin 1) k e'); exact ⟨a, (hK0 k e').symm.trans ha⟩
    | ⟨1, _⟩ => obtain ⟨a, ha⟩ := hk1 (ix3 (0 : Fin 1) k e'); exact ⟨a, (hK1 k e').symm.trans ha⟩
  have hVall : ∀ i e', ∃ a : ℝ, Vall i e' = (a : EReal) := by
    intro i e'
    obtain ⟨⟨j, k⟩, rfl⟩ := keyEquiv.surjective i
    match j with
    | ⟨0, _⟩ => obtain ⟨a, ha⟩ := hv0 (ix3 (0 : Fin 1) k e'); exact ⟨a, (hV0 k e').symm.trans ha⟩
    | ⟨1, _⟩ => obtain ⟨a, ha⟩ := hv1 (ix3 (0 : Fin 1) k e'); exact ⟨a, (hV1 k e').symm.trans ha⟩
  choose Kr hKr using hKall
  choose Vr hVr using hVall
  -- the query row and the scores are real
  have hq : ∀ e', qrow xb wq r e' = ((∑ d : Fin 1024, xbr (ix3 (0 : Fin 1) r d) * wqr (ix2 e' d) : ℝ) : EReal) := fun e' => by
    refine Eq.trans ?_ (Cert.FlashLaw.sum_coe_mul_coe Finset.univ _ _)
    exact Finset.sum_congr rfl fun d _ => by rw [hxbr, hwqr]
  have hS : ∀ i, rowScore (qrow xb wq r) Kall i
      = (((∑ e' : Fin 1024, (∑ d : Fin 1024, xbr (ix3 (0 : Fin 1) r d) * wqr (ix2 e' d)) * Kr i e') * (1 / 32) : ℝ) : EReal) := fun i => by
    unfold rowScore
    refine Eq.trans ?_ (Cert.FlashLaw.coe_div_32 _)
    refine congrArg (fun t => Ideal.div t (Ideal.ofBits .f32 0x42000000#32)) ?_
    refine Eq.trans ?_ (Cert.FlashLaw.sum_coe_mul_coe Finset.univ _ _)
    exact Finset.sum_congr rfl fun e' _ => by rw [hq, hKr]
  -- the two steps of the stream at (r, e)
  have hmA : mA xb wq k0 (ix2 r (0 : Fin 1))
      = k1_pay10 (F := Ideal) (qA xb wq) k0 (k1_pay5 (F := Ideal)) (ix2 r (0 : Fin 1)) := congrFun (pay2_eq _) _
  obtain ⟨hm1, ha1, hp1, hl1, hacc1⟩ := step_eqs (qA xb wq) k0 v0 (k1_pay5 (F := Ideal)) (k1_pay6 (F := Ideal))
    (k1_pay7 (F := Ideal)) r e (fun k => rowScore (qrow xb wq r) Kall (keyEquiv (0, k))) (fun k => Vall (keyEquiv (0, k)) e)
    ⊥ 0 0 (fun k => score_at xb wq k0 Kall 0 hK0 r k) (fun k => hV0 k e) (pay5_at r) (pay6_at r) (pay7_at r e)
  obtain ⟨hm2, ha2, hp2, hl2, hacc2⟩ := step_eqs (qA xb wq) k1 v1 (mA xb wq k0) (lA xb wq k0) (aA xb wq k0 v0) r e
    (fun k => rowScore (qrow xb wq r) Kall (keyEquiv (1, k))) (fun k => Vall (keyEquiv (1, k)) e)
    _ _ _ (fun k => score_at xb wq k1 Kall 1 hK1 r k) (fun k => hV1 k e) hmA rfl rfl
  have hM : rowMax (qrow xb wq r) Kall
      = max (⊥ : EReal) ((Finset.univ : Finset (Fin 2048)).fold max (⊥ : EReal) (fun i => rowScore (qrow xb wq r) Kall i)) := by
    unfold rowMax
    rw [ofBits_negInf]
  have hZ : rowDenom (qrow xb wq r) Kall = 0 + ∑ i : Fin 2048, rowExpo (qrow xb wq r) Kall i := by
    unfold rowDenom
    rw [ofBits_zero]
  -- the last step's quotient, then the streaming law
  refine (pay3_at _ _ r e).trans ?_
  exact Cert.FlashLaw.flash_eq_real keyEquiv (rowScore (qrow xb wq r) Kall) (fun i => Vall i e)
    (fun k => rowScore (qrow xb wq r) Kall (keyEquiv (0, k))) (fun k => rowScore (qrow xb wq r) Kall (keyEquiv (1, k)))
    (fun k => Vall (keyEquiv (0, k)) e) (fun k => Vall (keyEquiv (1, k)) e)
    _ (fun i => Vr i e) hS (fun i => hVr i e) (fun _ => rfl) (fun _ => rfl) (fun _ => rfl) (fun _ => rfl)
    _ _ _ _ _ _ _ _ _ _ hm1 ha1 hp1 hl1 hacc1 hm2 ha2 hp2 hl2 hacc2
    (rowMax (qrow xb wq r) Kall) (rowDenom (qrow xb wq r) Kall) (rowExpo (qrow xb wq r) Kall) (rowProb (qrow xb wq r) Kall)
    hM (fun _ => rfl) hZ (fun _ => rfl)

end Tile

end Cert.KernelIdeal.AttnTile

end
-- ==== Proof.AttnFinal.lean ====
/-
  The attention region: from the blocks its points write back to the whole result array, at the ideal values, at any
  contents V of the core's buffers when the region is entered.

  The grid is (batch, query tile, key tile) = (4, 4, 2) in row-major order: point t has batch t / 8, query tile
  (t / 2) mod 4 and key tile t mod 2. Only the odd points write the output back. An odd point t reads the carried state
  that the even point t - 1 left, and the two points share the batch and the query tile; so what t writes back is one
  tile of 512 query rows streamed over the two blocks of 1024 keys and values of its batch, which is the whole-row
  softmax-weighted sum of the values. Row s of batch b lies in the block of exactly the odd point 8 b + 2 (s / 512) + 1,
  so the blocks cover the array, and the array ends as one function of the four input arrays.
-/
import proofs.«154186_j59107339927929_2_alg».proof.Proof.AttnPieces
import proofs.«154186_j59107339927929_2_alg».proof.Proof.AttnTile
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## The grid -/

/-- The block index of every window at every point of the (4, 4, 2) grid in row-major order: point t has batch
    t / 8, query tile (t / 2) mod 4 and key tile t mod 2. -/
theorem idx_facts : ∀ t : Fin cfg1.N,
    win1_0.index t (0 : Fin 3) = t.val / 8 ∧ win1_0.index t (1 : Fin 3) = t.val / 2 % 4 ∧ win1_0.index t (2 : Fin 3) = 0
    ∧ win1_1.index t (0 : Fin 2) = 0 ∧ win1_1.index t (1 : Fin 2) = 0
    ∧ win1_2.index t (0 : Fin 3) = t.val / 8 ∧ win1_2.index t (1 : Fin 3) = t.val % 2 ∧ win1_2.index t (2 : Fin 3) = 0
    ∧ win1_3.index t (0 : Fin 3) = t.val / 8 ∧ win1_3.index t (1 : Fin 3) = t.val % 2 ∧ win1_3.index t (2 : Fin 3) = 0
    ∧ win1_4.index t (0 : Fin 3) = t.val / 8 ∧ win1_4.index t (1 : Fin 3) = t.val / 2 % 4 ∧ win1_4.index t (2 : Fin 3) = 0 :=
  (by decide +kernel : ∀ t : Fin grid1.N, _)

variable (V : (c : Dev nD) → (b : Ref sig .tc) → Buf (Elt Ideal) ((c : Thread nD τ).loc b))

/-- The point before an odd point. -/
abbrev prev (t : Fin cfg1.N) : Fin cfg1.N := ⟨t.val - 1, Nat.lt_of_le_of_lt (Nat.sub_le _ _) t.isLt⟩

/-! ## What an odd point leaves in the output buffer -/

set_option maxHeartbeats 1000000 in
/-- After an odd point the output buffer holds the tile of the six blocks: the query, weight and first key and value
    blocks of the point before, the second key and value blocks of the point itself. -/
theorem after_odd (c : Dev nD) (t : Fin cfg1.N) (h1 : t.val % 2 = 1) :
    (outsAt1 V c t.val t.isLt).1
      = AttnTile.out (iblk1 V c 0 (prev t)) (iblk1 V c 1 (prev t)) (iblk1 V c 2 (prev t)) (iblk1 V c 2 t) (iblk1 V c 3 (prev t)) (iblk1 V c 3 t) := by
  have h0 : (prev t).val % 2 = 0 := by show (t.val - 1) % 2 = 0; omega
  have hA : outsAt1 V c (t.val - 1) (Nat.lt_of_le_of_lt (Nat.sub_le _ _) t.isLt) = caseA1 V c (prev t) h0 := outsAt1_A V c (prev t) h0
  rw [outsAt1_B V c t h1, hA]
  unfold caseB1 caseA1
  dsimp only
  rw [out1_B_4_eq, sout1_A_0_eq, sout1_A_1_eq, sout1_A_2_eq, sout1_A_3_eq]

/-! ## The input blocks as parts of their arrays -/

/-- The query-side block at point t is rows 512 q … 512 q + 511 of batch t / 8 of its array, q the query tile. -/
theorem xb_block (c : Dev nD) (t : Fin cfg1.N) (r : Fin 512) (d : Fin 1024) (b : Fin 4) (s : Fin 2048)
    (hb : b.val = t.val / 8) (hs : s.val = t.val / 2 % 4 * 512 + r.val) :
    (iblk1 V c 0 t : Vec Ideal S1x512x1024 .bf16) (ix3 (0 : Fin 1) r d) = (V c main_v7 : S4x2048x1024.Idx → EReal) (ix3 b s d) := by
  obtain ⟨e0, e1, e2, -⟩ := idx_facts t
  unfold iblk1
  rw [View.read_apply]
  show V c main_v7 _ = V c main_v7 _
  refine congrArg (V c main_v7) ?_
  funext a
  apply Fin.ext
  match a with
  | ⟨0, _⟩ => show win1_0.index t (0 : Fin 3) * 1 + 1 * 0 = b.val; rw [e0, hb]; omega
  | ⟨1, _⟩ => show win1_0.index t (1 : Fin 3) * 512 + 1 * r.val = s.val; rw [e1, hs]; omega
  | ⟨2, _⟩ => show win1_0.index t (2 : Fin 3) * 1024 + 1 * d.val = d.val; rw [e2]; omega

/-- The weight block is the weight array whole, at every point. -/
theorem wq_block (c : Dev nD) (t : Fin cfg1.N) (a d : Fin 1024) :
    (iblk1 V c 1 t : Vec Ideal S1024x1024 .bf16) (ix2 a d) = (V c main_v2 : S1024x1024.Idx → EReal) (ix2 a d) := by
  obtain ⟨-, -, -, e0, e1, -⟩ := idx_facts t
  unfold iblk1
  rw [View.read_apply]
  show V c main_v2 _ = V c main_v2 _
  refine congrArg (V c main_v2) ?_
  funext x
  apply Fin.ext
  match x with
  | ⟨0, _⟩ => show win1_1.index t (0 : Fin 2) * 1024 + 1 * a.val = a.val; rw [e0]; omega
  | ⟨1, _⟩ => show win1_1.index t (1 : Fin 2) * 1024 + 1 * d.val = d.val; rw [e1]; omega

/-- The key block at point t is rows 1024 j … 1024 j + 1023 of batch t / 8 of the key array, j the key tile. -/
theorem k_block (c : Dev nD) (t : Fin cfg1.N) (r : Fin 1024) (d : Fin 1024) (b : Fin 4) (s : Fin 2048)
    (hb : b.val = t.val / 8) (hs : s.val = t.val % 2 * 1024 + r.val) :
    (iblk1 V c 2 t : Vec Ideal S1x1024x1024 .bf16) (ix3 (0 : Fin 1) r d) = (V c main_v5 : S4x2048x1024.Idx → EReal) (ix3 b s d) := by
  obtain ⟨-, -, -, -, -, e0, e1, e2, -⟩ := idx_facts t
  unfold iblk1
  rw [View.read_apply]
  show V c main_v5 _ = V c main_v5 _
  refine congrArg (V c main_v5) ?_
  funext a
  apply Fin.ext
  match a with
  | ⟨0, _⟩ => show win1_2.index t (0 : Fin 3) * 1 + 1 * 0 = b.val; rw [e0, hb]; omega
  | ⟨1, _⟩ => show win1_2.index t (1 : Fin 3) * 1024 + 1 * r.val = s.val; rw [e1, hs]; omega
  | ⟨2, _⟩ => show win1_2.index t (2 : Fin 3) * 1024 + 1 * d.val = d.val; rw [e2]; omega

/-- The value block likewise, of the value array. -/
theorem v_block (c : Dev nD) (t : Fin cfg1.N) (r : Fin 1024) (d : Fin 1024) (b : Fin 4) (s : Fin 2048)
    (hb : b.val = t.val / 8) (hs : s.val = t.val % 2 * 1024 + r.val) :
    (iblk1 V c 3 t : Vec Ideal S1x1024x1024 .bf16) (ix3 (0 : Fin 1) r d) = (V c main_v6 : S4x2048x1024.Idx → EReal) (ix3 b s d) := by
  obtain ⟨-, -, -, -, -, -, -, -, e0, e1, e2, -⟩ := idx_facts t
  unfold iblk1
  rw [View.read_apply]
  show V c main_v6 _ = V c main_v6 _
  refine congrArg (V c main_v6) ?_
  funext a
  apply Fin.ext
  match a with
  | ⟨0, _⟩ => show win1_3.index t (0 : Fin 3) * 1 + 1 * 0 = b.val; rw [e0, hb]; omega
  | ⟨1, _⟩ => show win1_3.index t (1 : Fin 3) * 1024 + 1 * r.val = s.val; rw [e1, hs]; omega
  | ⟨2, _⟩ => show win1_3.index t (2 : Fin 3) * 1024 + 1 * d.val = d.val; rw [e2]; omega

/-! ## One tile against the whole arrays -/

/-- If the six blocks are the parts of the arrays XB, WQ, KK, VV that batch b, query tile qi and the two key tiles
    select, and the arrays hold real numbers, then the tile at row r, column e is the whole-row form over row
    512 qi + r of batch b of the arrays. -/
theorem tile_point (xb : FVec Ideal S1x512x1024 .bf16) (wq : FVec Ideal S1024x1024 .bf16)
    (k0 k1 v0 v1 : FVec Ideal S1x1024x1024 .bf16)
    (XB KK VV : S4x2048x1024.Idx → EReal) (WQ : S1024x1024.Idx → EReal)
    (hXB : (∀ j, ∃ a : ℝ, XB j = (a : EReal))) (hWQ : (∀ j, ∃ a : ℝ, WQ j = (a : EReal))) (hKK : (∀ j, ∃ a : ℝ, KK j = (a : EReal))) (hVV : (∀ j, ∃ a : ℝ, VV j = (a : EReal)))
    (b : Fin 4) (qi : ℕ) (hqi : qi < 4)
    (hx : ∀ (r : Fin 512) (d : Fin 1024) (s : Fin 2048), s.val = qi * 512 + r.val → xb (ix3 (0 : Fin 1) r d) = XB (ix3 b s d))
    (hw : ∀ a d : Fin 1024, wq (ix2 a d) = WQ (ix2 a d))
    (hk0 : ∀ (k e : Fin 1024) (s : Fin 2048), s.val = k.val → k0 (ix3 (0 : Fin 1) k e) = KK (ix3 b s e))
    (hk1 : ∀ (k e : Fin 1024) (s : Fin 2048), s.val = 1024 + k.val → k1 (ix3 (0 : Fin 1) k e) = KK (ix3 b s e))
    (hv0 : ∀ (k e : Fin 1024) (s : Fin 2048), s.val = k.val → v0 (ix3 (0 : Fin 1) k e) = VV (ix3 b s e))
    (hv1 : ∀ (k e : Fin 1024) (s : Fin 2048), s.val = 1024 + k.val → v1 (ix3 (0 : Fin 1) k e) = VV (ix3 b s e))
    (r : Fin 512) (e : Fin 1024) (i0 : Fin 4) (i1 : Fin 2048) (i2 : Fin 1024)
    (h0 : i0.val = b.val) (h1 : i1.val = qi * 512 + r.val) (h2 : i2.val = e.val) :
    AttnTile.out xb wq k0 k1 v0 v1 (ix3 (0 : Fin 1) r e)
      = AttnTile.rowOut (fun e' : Fin 1024 => ∑ d : Fin 1024, XB (ix3 i0 i1 d) * WQ (ix2 e' d))
          (fun (k : Fin 2048) (e' : Fin 1024) => KK (ix3 i0 k e')) (fun (k : Fin 2048) (e' : Fin 1024) => VV (ix3 i0 k e')) i2 := by
  obtain rfl : i0 = b := Fin.ext h0
  obtain rfl : i2 = e := Fin.ext h2
  have rxb : ∀ j, ∃ a : ℝ, xb j = (a : EReal) := fun j => by
    obtain ⟨z, r', d, rfl⟩ : ∃ (z : Fin 1) (r' : Fin 512) (d : Fin 1024), j = ix3 z r' d := ⟨j 0, j 1, j 2, eq_ix3 j⟩
    obtain rfl : z = 0 := Subsingleton.elim _ _
    have hr' : r'.val < 512 := r'.isLt
    rw [hx r' d ⟨qi * 512 + r'.val, by omega⟩ rfl]; exact hXB _
  have rwq : ∀ j, ∃ a : ℝ, wq j = (a : EReal) := fun j => by
    obtain ⟨a, d, rfl⟩ : ∃ (a d : Fin 1024), j = ix2 a d := ⟨j 0, j 1, eq_ix2 j⟩
    rw [hw]; exact hWQ _
  have blk0 : ∀ (x : FVec Ideal S1x1024x1024 .bf16) (X : S4x2048x1024.Idx → EReal) (hX : (∀ j, ∃ a : ℝ, X j = (a : EReal)))
      (h : ∀ (k e : Fin 1024) (s : Fin 2048), s.val = k.val → x (ix3 (0 : Fin 1) k e) = X (ix3 i0 s e)),
      ∀ j, ∃ a : ℝ, x j = (a : EReal) := fun x X hX h j => by
    obtain ⟨z, k, d, rfl⟩ : ∃ (z : Fin 1) (k : Fin 1024) (d : Fin 1024), j = ix3 z k d := ⟨j 0, j 1, j 2, eq_ix3 j⟩
    obtain rfl : z = 0 := Subsingleton.elim _ _
    have hk : k.val < 1024 := k.isLt
    rw [h k d ⟨k.val, by omega⟩ rfl]; exact hX _
  have blk1 : ∀ (x : FVec Ideal S1x1024x1024 .bf16) (X : S4x2048x1024.Idx → EReal) (hX : (∀ j, ∃ a : ℝ, X j = (a : EReal)))
      (h : ∀ (k e : Fin 1024) (s : Fin 2048), s.val = 1024 + k.val → x (ix3 (0 : Fin 1) k e) = X (ix3 i0 s e)),
      ∀ j, ∃ a : ℝ, x j = (a : EReal) := fun x X hX h j => by
    obtain ⟨z, k, d, rfl⟩ : ∃ (z : Fin 1) (k : Fin 1024) (d : Fin 1024), j = ix3 z k d := ⟨j 0, j 1, j 2, eq_ix3 j⟩
    obtain rfl : z = 0 := Subsingleton.elim _ _
    have hk : k.val < 1024 := k.isLt
    rw [h k d ⟨1024 + k.val, by omega⟩ rfl]; exact hX _
  have key0 : ∀ k : Fin 1024, (Cert.FlashLaw.keyEquiv ((0 : Fin 2), k)).val = k.val := fun k => by
    rw [Cert.FlashLaw.keyEquiv_val]; show 0 * 1024 + k.val = k.val; omega
  have key1 : ∀ k : Fin 1024, (Cert.FlashLaw.keyEquiv ((1 : Fin 2), k)).val = 1024 + k.val := fun k => by
    rw [Cert.FlashLaw.keyEquiv_val]; show 1 * 1024 + k.val = 1024 + k.val; omega
  refine (AttnTile.tile_out xb wq k0 k1 v0 v1 rxb rwq (blk0 k0 KK hKK hk0) (blk1 k1 KK hKK hk1) (blk0 v0 VV hVV hv0) (blk1 v1 VV hVV hv1)
    (fun (k : Fin 2048) (e' : Fin 1024) => KK (ix3 i0 k e')) (fun (k : Fin 2048) (e' : Fin 1024) => VV (ix3 i0 k e'))
    (fun k e' => hk0 k e' _ (key0 k)) (fun k e' => hk1 k e' _ (key1 k))
    (fun k e' => hv0 k e' _ (key0 k)) (fun k e' => hv1 k e' _ (key1 k)) r i2).trans ?_
  have hq : AttnTile.qrow xb wq r = fun e' : Fin 1024 => ∑ d : Fin 1024, XB (ix3 i0 i1 d) * WQ (ix2 e' d) :=
    funext fun e' => Finset.sum_congr rfl fun d _ => by rw [hx r d i1 h1, hw]
  rw [hq]

/-! ## The arrays the region reads -/

/-- The query-side rows: 4 batches of 2048 rows of width 1024. -/
abbrev xbArr (c : Dev nD) : S4x2048x1024.Idx → EReal := V c main_v7
/-- The query weights. -/
abbrev wqArr (c : Dev nD) : S1024x1024.Idx → EReal := V c main_v2
/-- The keys. -/
abbrev kArr (c : Dev nD) : S4x2048x1024.Idx → EReal := V c main_v5
/-- The values. -/
abbrev vArr (c : Dev nD) : S4x2048x1024.Idx → EReal := V c main_v6

/-! ## The result array -/

/-- The result array as a function of the four input arrays: at (b, s, e) the whole-row form of the query row
    (the projection of row s of batch b) against the 2048 keys and values of batch b. -/
abbrev finalOf (c : Dev nD) : S4x2048x1024.Idx → EReal :=
  fun i => AttnTile.rowOut
    (fun e' : Fin 1024 => ∑ d : Fin 1024, xbArr V c (ix3 (i 0 : Fin 4) (i 1 : Fin 2048) d) * wqArr V c (ix2 e' d))
    (fun (k : Fin 2048) (e' : Fin 1024) => kArr V c (ix3 (i 0 : Fin 4) k e'))
    (fun (k : Fin 2048) (e' : Fin 1024) => vArr V c (ix3 (i 0 : Fin 4) k e'))
    (i 2 : Fin 1024)

/-- Arithmetic of the points: an odd point and the point before share the batch and the query tile; the point before has
    key tile 0 and the odd point key tile 1. -/
theorem odd_facts (n : ℕ) (h : n % 2 = 1) :
    (n - 1) / 8 = n / 8 ∧ (n - 1) / 2 % 4 = n / 2 % 4 ∧ (n - 1) % 2 = 0 := by omega

set_option maxHeartbeats 1000000 in
/-- What an odd point t writes back is block t of that function. -/
theorem flushed4_eq (c : Dev nD)
    (hXB : ∀ j, ∃ a : ℝ, xbArr V c j = (a : EReal))
    (hWQ : ∀ j, ∃ a : ℝ, wqArr V c j = (a : EReal))
    (hKK : ∀ j, ∃ a : ℝ, kArr V c j = (a : EReal))
    (hVV : ∀ j, ∃ a : ℝ, vArr V c j = (a : EReal))
    (t : Fin cfg1.N) (hf : (cfg1.win 4).flush t = true) :
    (dat1 (F := Ideal) V c).flushed 4 t = ((cfg1.win 4).blk t).view.read (Elt Ideal) (finalOf V c) := by
  have h1 : t.val % 2 = 1 := (flush1_4 t).mp hf
  have htl : t.val < 32 := lt_of_lt_of_eq t.isLt (N_1 : cfg1.N = 32)
  obtain ⟨o0, o1, o2⟩ := odd_facts t.val h1
  show (cfg1.win 4).cut (grid1.coords t) ((dat1 (F := Ideal) V c).after 4 t) = _
  rw [after1_4, after_odd V c t h1]
  have e0 : win1_4.index t (0 : Fin 3) = t.val / 8 := (idx_facts t).2.2.2.2.2.2.2.2.2.2.2.1
  have e1 : win1_4.index t (1 : Fin 3) = t.val / 2 % 4 := (idx_facts t).2.2.2.2.2.2.2.2.2.2.2.2.1
  have e2 : win1_4.index t (2 : Fin 3) = 0 := (idx_facts t).2.2.2.2.2.2.2.2.2.2.2.2.2
  refine funext fun (j : S1x512x1024.Idx) => ?_
  obtain ⟨z, r, e, rfl⟩ : ∃ (z : Fin 1) (r : Fin 512) (e : Fin 1024), j = ix3 z r e := ⟨j 0, j 1, j 2, eq_ix3 j⟩
  obtain rfl : z = 0 := Subsingleton.elim _ _
  show AttnTile.out _ _ _ _ _ _ (ix3 (0 : Fin 1) r e) = finalOf V c (((cfg1.win 4).blk t).view.emb (ix3 (0 : Fin 1) r e))
  have g0 : ((((cfg1.win 4).blk t).view.emb (ix3 (0 : Fin 1) r e) : S4x2048x1024.Idx) 0).val = t.val / 8 := by
    show win1_4.index t (0 : Fin 3) * 1 + 1 * 0 = t.val / 8; rw [e0]; omega
  have g1 : ((((cfg1.win 4).blk t).view.emb (ix3 (0 : Fin 1) r e) : S4x2048x1024.Idx) 1).val = t.val / 2 % 4 * 512 + r.val := by
    show win1_4.index t (1 : Fin 3) * 512 + 1 * r.val = t.val / 2 % 4 * 512 + r.val; rw [e1]; omega
  have g2 : ((((cfg1.win 4).blk t).view.emb (ix3 (0 : Fin 1) r e) : S4x2048x1024.Idx) 2).val = e.val := by
    show win1_4.index t (2 : Fin 3) * 1024 + 1 * e.val = e.val; rw [e2]; omega
  have hb4 : t.val / 8 < 4 := by omega
  refine tile_point _ _ _ _ _ _ (xbArr V c) (kArr V c) (vArr V c) (wqArr V c) hXB hWQ hKK hVV
    ⟨t.val / 8, hb4⟩ (t.val / 2 % 4) (by omega) ?_ ?_ ?_ ?_ ?_ ?_ r e _ _ _ g0 g1 g2
  · exact fun r' d s hs => xb_block V c (prev t) r' d _ s (by show t.val / 8 = (t.val - 1) / 8; omega) (by show s.val = (t.val - 1) / 2 % 4 * 512 + r'.val; rw [o1]; exact hs)
  · exact fun a d => wq_block V c (prev t) a d
  · exact fun k e' s hs => k_block V c (prev t) k e' _ s (by show t.val / 8 = (t.val - 1) / 8; omega) (by show s.val = (t.val - 1) % 2 * 1024 + k.val; rw [o2, hs]; omega)
  · exact fun k e' s hs => k_block V c t k e' _ s rfl (by rw [h1]; omega)
  · exact fun k e' s hs => v_block V c (prev t) k e' _ s (by show t.val / 8 = (t.val - 1) / 8; omega) (by show s.val = (t.val - 1) % 2 * 1024 + k.val; rw [o2, hs]; omega)
  · exact fun k e' s hs => v_block V c t k e' _ s rfl (by rw [h1]; omega)

/-- An index of the array is in point t's block iff each coordinate is in the block's range on its axis. -/
theorem mem_blk4 (t : Fin cfg1.N) (i : S4x2048x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v8).slice (win1_4.rect t)).set ↔ _
  rw [View.set_slice_whole, Rect.mem_set_unit]
  exact Iff.rfl

/-- The odd point whose block holds row s of batch b. -/
theorem point_of (b : Fin 4) (s : Fin 2048) : ∃ t : Fin cfg1.N, t.val = 8 * b.val + 2 * (s.val / 512) + 1 :=
  ⟨⟨8 * b.val + 2 * (s.val / 512) + 1, by have := b.isLt; have := s.isLt; rw [show cfg1.N = 32 from N_1]; omega⟩, rfl⟩

/-- Batch b is the batch of that point, -/
theorem batch_in_block (b s : ℕ) (hs : s < 2048) :
    (8 * b + 2 * (s / 512) + 1) / 8 * 1 ≤ b ∧ b < (8 * b + 2 * (s / 512) + 1) / 8 * 1 + 1 := by omega
/-- row s lies in its tile of 512 rows, -/
theorem row_in_block (b s : ℕ) (hs : s < 2048) :
    (8 * b + 2 * (s / 512) + 1) / 2 % 4 * 512 ≤ s ∧ s < (8 * b + 2 * (s / 512) + 1) / 2 % 4 * 512 + 512 := by omega
/-- and every column lies in the one block of columns. -/
theorem col_in_block (q : ℕ) (h : q < 1024) : 0 * 1024 ≤ q ∧ q < 0 * 1024 + 1024 := by omega

/-- Every index of the array is in the block of an odd point. -/
theorem cover4 (i : S4x2048x1024.Idx) : ∃ t : Fin cfg1.N, (cfg1.win 4).flush t = true ∧ i ∈ ((cfg1.win 4).blk t).view.set := by
  obtain ⟨t, ht⟩ := point_of (i 0) (i 1)
  have hi1 : (i 1).val < 2048 := (i 1).isLt
  have hi2 : (i 2).val < 1024 := (i 2).isLt
  have e0 : win1_4.index t (0 : Fin 3) = t.val / 8 := (idx_facts t).2.2.2.2.2.2.2.2.2.2.2.1
  have e1 : win1_4.index t (1 : Fin 3) = t.val / 2 % 4 := (idx_facts t).2.2.2.2.2.2.2.2.2.2.2.2.1
  have e2 : win1_4.index t (2 : Fin 3) = 0 := (idx_facts t).2.2.2.2.2.2.2.2.2.2.2.2.2
  refine ⟨t, (flush1_4 t).mpr (by rw [ht]; omega), ?_⟩
  rw [mem_blk4]
  intro a
  match a with
  | ⟨0, _⟩ =>
    show win1_4.index t (0 : Fin 3) * 1 ≤ (i 0).val ∧ (i 0).val < win1_4.index t (0 : Fin 3) * 1 + 1
    rw [e0, ht]; exact batch_in_block (i 0).val (i 1).val hi1
  | ⟨1, _⟩ =>
    show win1_4.index t (1 : Fin 3) * 512 ≤ (i 1).val ∧ (i 1).val < win1_4.index t (1 : Fin 3) * 512 + 512
    rw [e1, ht]; exact row_in_block (i 0).val (i 1).val hi1
  | ⟨2, _⟩ =>
    show win1_4.index t (2 : Fin 3) * 1024 ≤ (i 2).val ∧ (i 2).val < win1_4.index t (2 : Fin 3) * 1024 + 1024
    rw [e2]; exact col_in_block (i 2).val hi2

/-- The result array ends as that function of the four input arrays, when they hold real numbers. -/
theorem final1_4 (c : Dev nD)
    (hXB : ∀ j, ∃ a : ℝ, xbArr V c j = (a : EReal))
    (hWQ : ∀ j, ∃ a : ℝ, wqArr V c j = (a : EReal))
    (hKK : ∀ j, ∃ a : ℝ, kArr V c j = (a : EReal))
    (hVV : ∀ j, ∃ a : ℝ, vArr V c j = (a : EReal)) :
    (dat1 (F := Ideal) V c).arrAt 4 cfg1.N = finalOf V c :=
  (dat1 (F := Ideal) V c).arrAt_eq_of_cover 4 (finalOf V c) (fun t hf => flushed4_eq V c hXB hWQ hKK hVV t hf) cover4

/-- The same with the four arrays named. -/
theorem final1_4_of (c : Dev nD) (XB KK VV : S4x2048x1024.Idx → EReal) (WQ : S1024x1024.Idx → EReal)
    (hxb : xbArr V c = XB) (hwq : wqArr V c = WQ) (hk : kArr V c = KK) (hv : vArr V c = VV)
    (hXB : (∀ j, ∃ a : ℝ, XB j = (a : EReal))) (hWQ : (∀ j, ∃ a : ℝ, WQ j = (a : EReal))) (hKK : (∀ j, ∃ a : ℝ, KK j = (a : EReal))) (hVV : (∀ j, ∃ a : ℝ, VV j = (a : EReal))) :
    (dat1 (F := Ideal) V c).arrAt 4 cfg1.N
      = fun i : S4x2048x1024.Idx => AttnTile.rowOut
          (fun e' : Fin 1024 => ∑ d : Fin 1024, XB (ix3 (i 0 : Fin 4) (i 1 : Fin 2048) d) * WQ (ix2 e' d))
          (fun (k : Fin 2048) (e' : Fin 1024) => KK (ix3 (i 0 : Fin 4) k e'))
          (fun (k : Fin 2048) (e' : Fin 1024) => VV (ix3 (i 0 : Fin 4) k e')) (i 2 : Fin 1024) := by
  subst hxb hwq hk hv
  exact final1_4 V c hXB hWQ hKK hVV

end Cert.KernelIdeal.AttnValue

end
-- ==== Proof.AttnBridge.lean ====
/-
  The row form of attention's closed form, fed with the kernel's intermediate arrays, is the closed form of the inputs.

  The attention stage reads a copy `XB` of the input `x`, the query weights `WQ = wq`, and the key and value projections
  `KK = x · wkᵀ`, `VV = x · wvᵀ` computed before it. The row form (`rowOut`) of the query row `XB[b, q, ·] · WQᵀ` against
  the rows of `KK[b]` and `VV[b]` is then attention's closed form of `x, wq, wk, wv` at `(b, q, e)`: the three function
  arguments are the three projections. And when the entries of `x` and of a weight matrix are real numbers, so are
  the entries of the projection, a finite sum of products of reals.
-/
import proofs.«154186_j59107339927929_2_alg».proof.Proof.AttnTile
import Idealize.ShloMosaic.Lib.ValueIdx

noncomputable section

open scoped BigOperators

namespace Cert.KernelIdeal.AttnBridge

open Cert.KernelIdeal Idealize.ShloMosaic Idealize.ShloMosaic.ValueIdx

/-- The row form at literal coordinates `(b, q, e)`. -/
theorem rowOut_eq_spec_at (x XB KK VV : S4x2048x1024.Idx → EReal) (wq wk wv WQ : S1024x1024.Idx → EReal)
    (hXB : ∀ (b : Fin 4) (s : Fin 2048) (d : Fin 1024), XB (ix3 b s d) = x (ix3 b s d))
    (hWQ : WQ = wq)
    (hKK : ∀ (b : Fin 4) (s : Fin 2048) (e : Fin 1024), KK (ix3 b s e) = ∑ d : Fin 1024, x (ix3 b s d) * wk (ix2 e d))
    (hVV : ∀ (b : Fin 4) (s : Fin 2048) (e : Fin 1024), VV (ix3 b s e) = ∑ d : Fin 1024, x (ix3 b s d) * wv (ix2 e d))
    (b : Fin 4) (q : Fin 2048) (e : Fin 1024) :
    AttnTile.rowOut (fun e' : Fin 1024 => ∑ d : Fin 1024, XB (ix3 b q d) * WQ (ix2 e' d))
        (fun (k : Fin 2048) (e' : Fin 1024) => KK (ix3 b k e')) (fun (k : Fin 2048) (e : Fin 1024) => VV (ix3 b k e)) e
      = Cert.AttnSpec.out (fun b s d => x (ix3 b s d)) (fun e d => wq (ix2 e d)) (fun e d => wk (ix2 e d))
          (fun e d => wv (ix2 e d)) b q e := by
  subst hWQ
  have h1 : (fun e' : Fin 1024 => ∑ d : Fin 1024, XB (ix3 b q d) * WQ (ix2 e' d))
      = Cert.AttnSpec.proj (fun b s d => x (ix3 b s d)) (fun e d => WQ (ix2 e d)) b q :=
    funext fun e' => Finset.sum_congr rfl fun d _ => by rw [hXB]
  have h2 : (fun (k : Fin 2048) (e' : Fin 1024) => KK (ix3 b k e'))
      = Cert.AttnSpec.proj (fun b s d => x (ix3 b s d)) (fun e d => wk (ix2 e d)) b :=
    funext fun k => funext fun e' => hKK b k e'
  have h3 : (fun (k : Fin 2048) (e : Fin 1024) => VV (ix3 b k e))
      = Cert.AttnSpec.proj (fun b s d => x (ix3 b s d)) (fun e d => wv (ix2 e d)) b :=
    funext fun k => funext fun e' => hVV b k e'
  have h := congrFun (congr (congr (congrArg (AttnTile.rowOut (S := 2048) (E := 1024) (E' := 1024)) h1) h2) h3) e
  exact h.trans (AttnTile.out_eq_rowOut _ _ _ _ b q e).symm

/-- The row form at an index of the result array. -/
theorem rowOut_eq_spec (x XB KK VV : S4x2048x1024.Idx → EReal) (wq wk wv WQ : S1024x1024.Idx → EReal)
    (hXB : ∀ (b : Fin 4) (s : Fin 2048) (d : Fin 1024), XB (ix3 b s d) = x (ix3 b s d))
    (hWQ : WQ = wq)
    (hKK : ∀ (b : Fin 4) (s : Fin 2048) (e : Fin 1024), KK (ix3 b s e) = ∑ d : Fin 1024, x (ix3 b s d) * wk (ix2 e d))
    (hVV : ∀ (b : Fin 4) (s : Fin 2048) (e : Fin 1024), VV (ix3 b s e) = ∑ d : Fin 1024, x (ix3 b s d) * wv (ix2 e d))
    (i : S4x2048x1024.Idx) :
    AttnTile.rowOut (fun e' : Fin 1024 => ∑ d : Fin 1024, XB (ix3 (i 0) (i 1) d) * WQ (ix2 e' d))
        (fun (k : Fin 2048) (e' : Fin 1024) => KK (ix3 (i 0) k e')) (fun (k : Fin 2048) (e : Fin 1024) => VV (ix3 (i 0) k e)) (i 2)
      = Cert.AttnSpec.out (fun b s d => x (ix3 b s d)) (fun e d => wq (ix2 e d)) (fun e d => wk (ix2 e d))
          (fun e d => wv (ix2 e d)) (i 0) (i 1) (i 2) :=
  rowOut_eq_spec_at x XB KK VV wq wk wv WQ hXB hWQ hKK hVV (i 0) (i 1) (i 2)

/-- A projection `x · wᵀ` of real inputs is real, entry by entry. -/
theorem proj_real (x Y : S4x2048x1024.Idx → EReal) (w : S1024x1024.Idx → EReal)
    (hx : ∀ j, ∃ a : ℝ, x j = (a : EReal)) (hw : ∀ j, ∃ a : ℝ, w j = (a : EReal))
    (hY : ∀ (b : Fin 4) (s : Fin 2048) (e : Fin 1024), Y (ix3 b s e) = ∑ d : Fin 1024, x (ix3 b s d) * w (ix2 e d)) :
    ∀ j : S4x2048x1024.Idx, ∃ a : ℝ, Y j = (a : EReal) := by
  intro j
  obtain ⟨b, s, e, rfl⟩ : ∃ (b : Fin 4) (s : Fin 2048) (e : Fin 1024), j = ix3 b s e := ⟨j 0, j 1, j 2, eq_ix3 j⟩
  choose xr hxr using hx
  choose wr hwr using hw
  refine ⟨∑ d : Fin 1024, xr (ix3 b s d) * wr (ix2 e d), (hY b s e).trans ?_⟩
  refine Eq.trans ?_ (Cert.FlashLaw.sum_coe_mul_coe Finset.univ _ _)
  exact Finset.sum_congr rfl fun d _ => by rw [hxr, hwr]

/-- The key projection of real inputs is real. -/
theorem keys_real (x KK : S4x2048x1024.Idx → EReal) (wk : S1024x1024.Idx → EReal)
    (hx : ∀ j, ∃ a : ℝ, x j = (a : EReal)) (hwk : ∀ j, ∃ a : ℝ, wk j = (a : EReal))
    (hKK : ∀ (b : Fin 4) (s : Fin 2048) (e : Fin 1024), KK (ix3 b s e) = ∑ d : Fin 1024, x (ix3 b s d) * wk (ix2 e d)) :
    ∀ j : S4x2048x1024.Idx, ∃ a : ℝ, KK j = (a : EReal) :=
  proj_real x KK wk hx hwk hKK

/-- A copy of a real array is real. -/
theorem xb_real (x XB : S4x2048x1024.Idx → EReal) (hx : ∀ j, ∃ a : ℝ, x j = (a : EReal))
    (hXB : ∀ (b : Fin 4) (s : Fin 2048) (d : Fin 1024), XB (ix3 b s d) = x (ix3 b s d)) :
    ∀ j : S4x2048x1024.Idx, ∃ a : ℝ, XB j = (a : EReal) := by
  intro j
  obtain ⟨b, s, d, rfl⟩ : ∃ (b : Fin 4) (s : Fin 2048) (d : Fin 1024), j = ix3 b s d := ⟨j 0, j 1, j 2, eq_ix3 j⟩
  obtain ⟨a, ha⟩ := hx (ix3 b s d)
  exact ⟨a, (hXB b s d).trans ha⟩

end Cert.KernelIdeal.AttnBridge

end
-- ==== Proof.FiniteInputs.lean ====
import proofs.«154186_j59107339927929_2_alg».proof.Pre_finite_inputs
import proofs.«154186_j59107339927929_2_alg».proof.Proof.Gen.Pre_finite_inputs
import Idealize.ShloMosaic.PureOps.Ideal
import Idealize.ShloMosaic.Lib.ReduceAll
import Idealize.ShloMosaic.Lib.ValueIdx

/-!
# Finite inputs are real numbers

The precondition computes, for each input array, the conjunction over all entries of
`|x| < +∞` and folds the six results by `and`.  At the exact instance a float is an
extended real, `|x|` is `max x (-x)`, and the pattern `0x7F800000` denotes `⊤`.
An extended real with `max x (-x) < ⊤` is neither `⊤` nor `⊥`, hence a real number.
-/

noncomputable section

namespace Cert.FiniteInputs

open Idealize.ShloMosaic
open Cert.Pre_finite_inputs

/-- The result shape of a reduction over all axes has exactly one index. -/
instance : Subsingleton S_.Idx := ⟨fun a b => funext fun d => d.elim0⟩

/-- The single-precision pattern with all-ones exponent and zero fraction denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊤` the maximum is `⊤`, and at `⊥` it is `-⊥ = ⊤`. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One entry of the comparison array `|a| < broadcast(+∞)` being 1 says the entry of `a` is real. -/
theorem real_of_entry {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) :=
  real_of_abs_lt_top (a i) h

theorem reals_of_pre [Cert.Pre_finite_inputs.Facts] (a0 : FVec Ideal S4x2048x1024 .f32) (a1 : FVec Ideal S2048x2048 .f32)
    (a2 : FVec Ideal S4x1x2048 .f32) (a3 a4 a5 : FVec Ideal S1024x1024 .f32)
    (h : Cert.Pre_finite_inputs.fn (F := Ideal) a0 a1 a2 a3 a4 a5 = (fun _ => 1#1)) :
    (∀ i, ∃ r : ℝ, a0 i = (r : EReal)) ∧ (∀ i, ∃ r : ℝ, a3 i = (r : EReal)) ∧
      (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  -- the six conjuncts, outermost first
  obtain ⟨h01234, e5⟩ := IntOp.andi_eq_one.1 h0
  obtain ⟨h0123, e4⟩ := IntOp.andi_eq_one.1 h01234
  obtain ⟨h012, e3⟩ := IntOp.andi_eq_one.1 h0123
  obtain ⟨h01, -⟩ := IntOp.andi_eq_one.1 h012
  obtain ⟨e0, -⟩ := IntOp.andi_eq_one.1 h01
  exact ⟨fun i => real_of_entry _ a0 i (Host.reduce_andi_all _ _ _ _ _ e0 i),
    fun i => real_of_entry _ a3 i (Host.reduce_andi_all _ _ _ _ _ e3 i),
    fun i => real_of_entry _ a4 i (Host.reduce_andi_all _ _ _ _ _ e4 i),
    fun i => real_of_entry _ a5 i (Host.reduce_andi_all _ _ _ _ _ e5 i)⟩

end Cert.FiniteInputs

end
-- ==== Proof.Algebraic.lean ====
/-
  The two results are one function. At the ideal instance the attention region's write-backs leave, at (b, q, e), the
  softmax-weighted sum of the values of batch b against the scores of query row q — for real data — and the region
  reads x, wq and the projections of x by wk and wv (the region-entry values). That is the reference's result at
  (b, q, e). The inputs are real because the precondition says every entry is finite.
-/
import proofs.«154186_j59107339927929_2_alg».proof.Defs
import proofs.«154186_j59107339927929_2_alg».proof.Proof.EntryVals
import proofs.«154186_j59107339927929_2_alg».proof.Proof.AttnFinal
import proofs.«154186_j59107339927929_2_alg».proof.Proof.AttnBridge
import proofs.«154186_j59107339927929_2_alg».proof.Proof.FiniteInputs
import proofs.«154186_j59107339927929_2_alg».proof.Proof.Gen.Pre_finite_inputs

set_option maxRecDepth 16384

noncomputable section

namespace Cert.KernelIdeal.Alg

open Cert.KernelIdeal Cert.KernelIdeal.Gen Cert.KernelIdeal.Hand Cert.KernelIdeal.Entry
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's function of the launch arguments on core `c`: at (b, q, e) the softmax over the keys of batch b of
    the scaled scores of query row q, weighted sum of the values' column e. -/
abbrev spec (c : Dev nD) : S4x2048x1024.Idx → EReal := fun i =>
  Cert.AttnSpec.out (fun b s d => xArr m c (ix3 b s d)) (fun e d => wqArr m c (ix2 e d)) (fun e d => wkArr m c (ix2 e d)) (fun e d => wvArr m c (ix2 e d)) (i 0) (i 1) (i 2)

/-- Under the precondition, what the attention region's write-backs leave in the result array is the reference's
    function of the launch arguments: the inputs are real, so are the keys and values the region reads, and on real
    data the two-block accumulation of every query tile is the softmax row. -/
theorem result_eq (hpre : Cert.Pre_KernelIdeal (hPre_finite_inputs := Cert.Pre_finite_inputs.Gen.facts) m) (c : Dev nD) :
    ((dat1 (F := Ideal) (U3 m ρ) c).arrAt 4 cfg1.N : S4x2048x1024.Idx → EReal) = spec m c := by
  obtain ⟨hx, hq, hk, hv⟩ := Cert.FiniteInputs.reals_of_pre _ _ _ _ _ _ (hpre c)
  have hXB : ∀ (b : Fin 4) (s : Fin 2048) (d : Fin 1024), (U3 (F := Ideal) m ρ c main_v7 : S4x2048x1024.Idx → EReal) (ix3 b s d) = xArr m c (ix3 b s d) := xb_at m ρ c
  have hKK := keys_at m ρ c
  have hVV := values_at m ρ c
  have r1 := Cert.KernelIdeal.AttnBridge.xb_real _ _ hx hXB
  have r2 := Cert.KernelIdeal.AttnBridge.proj_real _ _ _ hx hk hKK
  have r3 := Cert.KernelIdeal.AttnBridge.proj_real _ _ _ hx hv hVV
  have r4 : ∀ j, ∃ a : ℝ, (U3 (F := Ideal) m ρ c main_v2 : S1024x1024.Idx → EReal) j = (a : EReal) := by rw [U3_v2]; exact hq
  rw [Cert.KernelIdeal.AttnValue.final1_4 (U3 m ρ) c r1 r4 r2 r3]
  funext i
  exact Cert.KernelIdeal.AttnBridge.rowOut_eq_spec _ _ _ _ _ _ _ _ hXB (U3_v2 m ρ c) hKK hVV i

end Cert.KernelIdeal.Alg

end
-- ==== Proof.lean ====
/-
  The certificate's claims. Both programs run the projection region and then the attention region; their frames are the
  run of the four segments with every unscoped buffer followed from the launch memory (at either float instance).
  The reference's frame is its run with the result dropped. The idealization rewrote nothing, so there is nothing to
  preserve. At the ideal instance the attention region folds the two key blocks of a row one after the other, keeping a
  running maximum, normaliser and weighted sum; for real data that is the softmax-weighted sum the reference computes
  over the whole row.
-/
import proofs.«154186_j59107339927929_2_alg».proof.Defs
import proofs.«154186_j59107339927929_2_alg».proof.Proof.Gen.Kernel
import proofs.«154186_j59107339927929_2_alg».proof.Proof.Gen.KernelIdeal
import proofs.«154186_j59107339927929_2_alg».proof.Proof.Gen.ReferenceIdeal
import proofs.«154186_j59107339927929_2_alg».proof.Proof.Gen.ReferenceIdeal.Read
import proofs.«154186_j59107339927929_2_alg».proof.Proof.Gen.Pre_finite_inputs
import proofs.«154186_j59107339927929_2_alg».proof.Proof.Run
import proofs.«154186_j59107339927929_2_alg».proof.Proof.WordRun
import proofs.«154186_j59107339927929_2_alg».proof.Proof.RefRun
import proofs.«154186_j59107339927929_2_alg».proof.Proof.Algebraic
import Idealize.ShloMosaic.Adequacy
import Idealize.ShloMosaic.Init

noncomputable section

namespace Cert.Proof

open Idealize.ShloMosaic Idealize.SL.Sem

/-- The word-level program runs and keeps its arguments. -/
theorem frame_p : Cert.frame_Kernel (hKernel := Cert.Kernel.Gen.facts) (hPre_finite_inputs := Cert.Pre_finite_inputs.Gen.facts) :=
  fun m ρ _ => Cert.Kernel.Hand.frame m ρ

/-- The idealized program runs and keeps its arguments. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories agreeing on the arguments both programs end at the reference's function of them: the kernel's run names
    the result as what the attention region's write-backs leave, which is that function under the precondition; the
    reference's run is read back operation by operation. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Alg.spec m c, ?_, ?_⟩
  · exact (θ_run Cert.KernelIdeal.defs _ _).mono (fun r h c => ⟨(h c).1.trans (Cert.KernelIdeal.Alg.result_eq m ρ hpre c), (h c).2⟩) (Cert.KernelIdeal.Hand.run_result m ρ)
  · refine (θ_run Cert.ReferenceIdeal.defs _ _).mono (fun r h c => ⟨(h c).1.trans ?_, (h c).2⟩) (Cert.ReferenceIdeal.RefValue.run m' ρ')
    rw [(hagree c).1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
